-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v149)) (v1 : (c : Dev Cert.KernelIdeal.nD) → Buf (Elt Ideal) ((c.tc : Thread Cert.KernelIdeal.nD Cert.KernelIdeal.τ).loc Cert.KernelIdeal.main_cst_30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_cst_30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_cst_30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S65 : Shape := ⟨1, ![65]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part3 {F : FTy → Type} [FloatOps F] (main_arg14 : FVec F S128x128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg15
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg10 : FVec F S2x128 .f32) (main_arg11 : FVec F S2x128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S2x128 .f32 := Host.absf main_arg10
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg11
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128 .f32) (main_arg8 : FVec F S2x128x128 .f32) (main_arg9 : FVec F S2x128 .f32) (main_arg10 : FVec F S2x128 .f32) (main_arg11 : FVec F S2x128 .f32) (main_arg12 : FVec F S128x128 .f32) (main_arg13 : FVec F S128 .f32) (main_arg14 : FVec F S128x128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x128 .f32 := Host.absf main_arg8
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg9
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : IVec S65 32) (main_arg4 : FVec F S128x128 .f32) (main_arg5 : FVec F S128 .f32) (main_arg6 : FVec F S128 .f32) (main_arg7 : FVec F S128 .f32) (main_arg8 : FVec F S2x128x128 .f32) (main_arg9 : FVec F S2x128 .f32) (main_arg10 : FVec F S2x128 .f32) (main_arg11 : FVec F S2x128 .f32) (main_arg12 : FVec F S128x128 .f32) (main_arg13 : FVec F S128 .f32) (main_arg14 : FVec F S128x128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S65 : Shape := ⟨1, ![65]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x128x128 : Shape := ⟨3, ![1, 128, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 262
  | .vmem => 39
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S65, .i32⟩
  | 4 => ⟨S128x128, .f32⟩
  | 5 => ⟨S128, .f32⟩
  | 6 => ⟨S128, .f32⟩
  | 7 => ⟨S128, .f32⟩
  | 8 => ⟨S2x128x128, .f32⟩
  | 9 => ⟨S2x128, .f32⟩
  | 10 => ⟨S2x128, .f32⟩
  | 11 => ⟨S2x128, .f32⟩
  | 12 => ⟨S128x128, .f32⟩
  | 13 => ⟨S128, .f32⟩
  | 14 => ⟨S128x128, .f32⟩
  | 15 => ⟨S128, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S_, .f32⟩
  | 101 => ⟨S128, .f32⟩
  | 102 => ⟨S128, .f32⟩
  | 103 => ⟨S128, .f32⟩
  | 104 => ⟨S128, .f32⟩
  | 105 => ⟨S128, .f32⟩
  | 106 => ⟨S128, .f32⟩
  | 107 => ⟨S1x128, .f32⟩
  | 108 => ⟨S1x128, .f32⟩
  | 109 => ⟨S50000x128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S128, .f32⟩
  | 118 => ⟨S50000x128, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x128, .f32⟩

abbrev hbmTy0_1 (i : Nat) : BufTy := match i % 128 with
  | 0 => ⟨S850000x1, .f32⟩
  | 1 => ⟨S850000x128, .f32⟩
  | 2 => ⟨S850000x128, .f32⟩
  | 3 => ⟨S_, .f32⟩
  | 4 => ⟨S50000x128, .f32⟩
  | 5 => ⟨S850000x1, .i32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S50000x128, .f32⟩
  | 23 => ⟨S50000x128, .f32⟩
  | 24 => ⟨S50000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S128, .f32⟩
  | 42 => ⟨S128, .f32⟩
  | 43 => ⟨S128, .f32⟩
  | 44 => ⟨S128, .f32⟩
  | 45 => ⟨S1x128, .f32⟩
  | 46 => ⟨S1x128, .f32⟩
  | 47 => ⟨S50000x128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S50000x128, .f32⟩
  | 89 => ⟨S50000x128, .f32⟩
  | 90 => ⟨S50000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S128, .f32⟩
  | 109 => ⟨S128, .f32⟩
  | 110 => ⟨S128, .f32⟩
  | 111 => ⟨S1x128, .f32⟩
  | 112 => ⟨S1x128, .f32⟩
  | 113 => ⟨S50000x128, .f32⟩
  | 114 => ⟨S_, .f32⟩
  | 115 => ⟨S64x128, .f32⟩
  | 116 => ⟨S50000x1, .i32⟩
  | 117 => ⟨S64x128, .f32⟩
  | 118 => ⟨S_, .f32⟩
  | 119 => ⟨S50000, .f32⟩
  | 120 => ⟨S_, .f32⟩
  | 121 => ⟨S64, .f32⟩
  | 122 => ⟨S50000x1, .i32⟩
  | 123 => ⟨S64, .f32⟩
  | 124 => ⟨S_, .f32⟩
  | 125 => ⟨S64, .f32⟩
  | 126 => ⟨S64, .f32⟩
  | 127 => ⟨S64x1, .f32⟩
  | _ => ⟨S50000x128, .f32⟩

abbrev hbmTy0_2 (i : Nat) : BufTy := match i % 128 with
  | 0 => ⟨S64x128, .f32⟩
  | 1 => ⟨S64x128, .f32⟩
  | 2 => ⟨S1x128, .f32⟩
  | 3 => ⟨S1x128, .f32⟩
  | 4 => ⟨S64x128, .f32⟩
  | 5 => ⟨S_, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S64x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_cst_3 : Ref sig .tc := ⟨.hbm, 94, rfl⟩
abbrev main_call0_v12 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v49 : Ref sig .tc := ⟨.hbm, 99, rfl⟩
abbrev main_cst_11 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_c_12 : Ref sig .tc := ⟨.hbm, 119, rfl⟩
abbrev main_v68 : Ref sig .tc := ⟨.hbm, 120, rfl⟩
abbrev main_v69 : Ref sig .tc := ⟨.hbm, 121, rfl⟩
abbrev main_c_13 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_cst_14 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_15 : Ref sig .tc := ⟨.hbm, 138, rfl⟩
abbrev main_v84 : Ref sig .tc := ⟨.hbm, 139, rfl⟩
abbrev main_cst_16 : Ref sig .tc := ⟨.hbm, 140, rfl⟩
abbrev main_v85 : Ref sig .tc := ⟨.hbm, 141, rfl⟩
abbrev main_v86 : Ref sig .tc := ⟨.hbm, 142, rfl⟩
abbrev main_c_17 : Ref sig .tc := ⟨.hbm, 143, rfl⟩
abbrev main_call1_cst : Ref sig .tc := ⟨.hbm, 144, rfl⟩
abbrev main_call1_v0 : Ref sig .tc := ⟨.hbm, 145, rfl⟩
abbrev main_call1_v1 : Ref sig .tc := ⟨.hbm, 146, rfl⟩
abbrev main_call1_cst_0 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_call1_v5 : Ref sig .tc := ⟨.hbm, 151, rfl⟩
abbrev main_call1_v6 : Ref sig .tc := ⟨.hbm, 152, rfl⟩
abbrev main_call1_v7 : Ref sig .tc := ⟨.hbm, 153, rfl⟩
abbrev main_call1_cst_1 : Ref sig .tc := ⟨.hbm, 154, rfl⟩
abbrev main_call1_v8 : Ref sig .tc := ⟨.hbm, 155, rfl⟩
abbrev main_call1_cst_2 : Ref sig .tc := ⟨.hbm, 156, rfl⟩
abbrev main_call1_v9 : Ref sig .tc := ⟨.hbm, 157, rfl⟩
abbrev main_call1_v10 : Ref sig .tc := ⟨.hbm, 158, rfl⟩
abbrev main_call1_v11 : Ref sig .tc := ⟨.hbm, 159, rfl⟩
abbrev main_call1_cst_3 : Ref sig .tc := ⟨.hbm, 160, rfl⟩
abbrev main_call1_v12 : Ref sig .tc := ⟨.hbm, 161, rfl⟩
abbrev main_call1_cst_4 : Ref sig .tc := ⟨.hbm, 162, rfl⟩
abbrev main_call1_call0_v0 : Ref sig .tc := ⟨.hbm, 163, rfl⟩
abbrev main_call1_call0_v1 : Ref sig .tc := ⟨.hbm, 164, rfl⟩
abbrev main_v87 : Ref sig .tc := ⟨.hbm, 165, rfl⟩
abbrev main_cst_18 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_c_19 : Ref sig .tc := ⟨.hbm, 185, rfl⟩
abbrev main_v106 : Ref sig .tc := ⟨.hbm, 186, rfl⟩
abbrev main_v107 : Ref sig .tc := ⟨.hbm, 187, rfl⟩
abbrev main_c_20 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_cst_21 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_cst_22 : Ref sig .tc := ⟨.hbm, 204, rfl⟩
abbrev main_v122 : Ref sig .tc := ⟨.hbm, 205, rfl⟩
abbrev main_cst_23 : Ref sig .tc := ⟨.hbm, 206, rfl⟩
abbrev main_v123 : Ref sig .tc := ⟨.hbm, 207, rfl⟩
abbrev main_v124 : Ref sig .tc := ⟨.hbm, 208, rfl⟩
abbrev main_c_24 : Ref sig .tc := ⟨.hbm, 209, rfl⟩
abbrev main_call2_cst : Ref sig .tc := ⟨.hbm, 210, rfl⟩
abbrev main_call2_v0 : Ref sig .tc := ⟨.hbm, 211, rfl⟩
abbrev main_call2_v1 : Ref sig .tc := ⟨.hbm, 212, rfl⟩
abbrev main_call2_cst_0 : Ref sig .tc := ⟨.hbm, 213, rfl⟩
abbrev main_call2_v2 : Ref sig .tc := ⟨.hbm, 214, rfl⟩
abbrev main_call2_v3 : Ref sig .tc := ⟨.hbm, 215, rfl⟩
abbrev main_call2_v4 : Ref sig .tc := ⟨.hbm, 216, rfl⟩
abbrev main_call2_v5 : Ref sig .tc := ⟨.hbm, 217, rfl⟩
abbrev main_call2_v6 : Ref sig .tc := ⟨.hbm, 218, rfl⟩
abbrev main_call2_v7 : Ref sig .tc := ⟨.hbm, 219, rfl⟩
abbrev main_call2_cst_1 : Ref sig .tc := ⟨.hbm, 220, rfl⟩
abbrev main_call2_v8 : Ref sig .tc := ⟨.hbm, 221, rfl⟩
abbrev main_call2_cst_2 : Ref sig .tc := ⟨.hbm, 222, rfl⟩
abbrev main_call2_v9 : Ref sig .tc := ⟨.hbm, 223, rfl⟩
abbrev main_call2_v10 : Ref sig .tc := ⟨.hbm, 224, rfl⟩
abbrev main_call2_v11 : Ref sig .tc := ⟨.hbm, 225, rfl⟩
abbrev main_call2_cst_3 : Ref sig .tc := ⟨.hbm, 226, rfl⟩
abbrev main_call2_v12 : Ref sig .tc := ⟨.hbm, 227, rfl⟩
abbrev main_call2_cst_4 : Ref sig .tc := ⟨.hbm, 228, rfl⟩
abbrev main_call2_call0_v0 : Ref sig .tc := ⟨.hbm, 229, rfl⟩
abbrev main_call2_call0_v1 : Ref sig .tc := ⟨.hbm, 230, rfl⟩
abbrev main_v125 : Ref sig .tc := ⟨.hbm, 231, rfl⟩
abbrev main_cst_25 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_cst_26 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩
abbrev main_cst_27 : Ref sig .tc := ⟨.hbm, 246, rfl⟩
abbrev main_v138 : Ref sig .tc := ⟨.hbm, 247, rfl⟩
abbrev main_cst_28 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_cst_29 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_cst_30 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc6_stg4_0 : Ref sig .tc := ⟨.vmem, 37, rfl⟩
abbrev cc6_stg5_0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem1_0 : DmaSem sig := 34
abbrev cc6_sem2_0 : DmaSem sig := 35
abbrev cc6_sem3_0 : DmaSem sig := 36
abbrev cc6_sem4_0 : DmaSem sig := 37
abbrev cc6_sem5_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S64x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128x128_S128x128 : S128x128.ShapeCasts S128x128
  slices_S2x128x128_S1x128x128_1_0_0 : S2x128x128.Slices ![1, 0, 0] S1x128x128
  slices_S2x128_S1x128_1_0 : S2x128.Slices ![1, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S64x128.size a ≤ S64x128.size a
  hwx6_0 : ∀ i : grid6.Coords, EltTy.bits .f32 = 32 ∨ (Rect.block (s := S64x128) S64x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x128.size a ≤ S64x128.size a
  hwx6_5 : ∀ i : grid6.Coords, EltTy.bits .f32 = 32 ∨ (Rect.block (s := S64x128) S64x128.size (cc6_transform_5 i) (hinb6_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v96) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v105) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v121) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v132) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v133) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v134) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v146) S64x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v147) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v148) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v149) S64x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S65 : Shape := ⟨1, ![65]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x128x128 : Shape := ⟨3, ![1, 128, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 330
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S65, .i32⟩
  | 4 => ⟨S128x128, .f32⟩
  | 5 => ⟨S128, .f32⟩
  | 6 => ⟨S128, .f32⟩
  | 7 => ⟨S128, .f32⟩
  | 8 => ⟨S2x128x128, .f32⟩
  | 9 => ⟨S2x128, .f32⟩
  | 10 => ⟨S2x128, .f32⟩
  | 11 => ⟨S2x128, .f32⟩
  | 12 => ⟨S128x128, .f32⟩
  | 13 => ⟨S128, .f32⟩
  | 14 => ⟨S128x128, .f32⟩
  | 15 => ⟨S128, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S1x128x128, .f32⟩
  | 126 => ⟨S128x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S50000x128, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x128, .f32⟩
  | 15 => ⟨S850000x1, .f32⟩
  | 16 => ⟨S850000x128, .f32⟩
  | 17 => ⟨S850000x128, .f32⟩
  | 18 => ⟨S_, .f32⟩
  | 19 => ⟨S50000x128, .f32⟩
  | 20 => ⟨S850000x1, .i32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S50000x128, .f32⟩
  | 38 => ⟨S50000x128, .f32⟩
  | 39 => ⟨S50000x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S50000x128, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x128, .f32⟩
  | 96 => ⟨S850000x1, .f32⟩
  | 97 => ⟨S850000x128, .f32⟩
  | 98 => ⟨S850000x128, .f32⟩
  | 99 => ⟨S_, .f32⟩
  | 100 => ⟨S50000x128, .f32⟩
  | 101 => ⟨S850000x1, .i32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S50000x128, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S_, .f32⟩
  | 32 => ⟨S64x128, .f32⟩
  | 33 => ⟨S50000x1, .i32⟩
  | 34 => ⟨S64x128, .f32⟩
  | 35 => ⟨S_, .f32⟩
  | 36 => ⟨S50000, .f32⟩
  | 37 => ⟨S_, .f32⟩
  | 38 => ⟨S64, .f32⟩
  | 39 => ⟨S50000x1, .i32⟩
  | 40 => ⟨S64, .f32⟩
  | 41 => ⟨S_, .f32⟩
  | 42 => ⟨S64, .f32⟩
  | 43 => ⟨S64, .f32⟩
  | 44 => ⟨S64x1, .f32⟩
  | 45 => ⟨S64x128, .f32⟩
  | 46 => ⟨S64x128, .f32⟩
  | 47 => ⟨S64x128, .f32⟩
  | 48 => ⟨S1x128, .f32⟩
  | 49 => ⟨S64x128, .f32⟩
  | 50 => ⟨S64x128, .f32⟩
  | 51 => ⟨S_, .f32⟩
  | 52 => ⟨S64x128, .f32⟩
  | 53 => ⟨S64x128, .f32⟩
  | 54 => ⟨S64x128, .f32⟩
  | 55 => ⟨S1x128, .f32⟩
  | 56 => ⟨S64x128, .f32⟩
  | 57 => ⟨S64x128, .f32⟩
  | 58 => ⟨S_, .f32⟩
  | 59 => ⟨S64, .f32⟩
  | 60 => ⟨S_, .f32⟩
  | 61 => ⟨S64, .f32⟩
  | 62 => ⟨S64, .f32⟩
  | 63 => ⟨S64x1, .f32⟩
  | 64 => ⟨S64x128, .f32⟩
  | 65 => ⟨S64x128, .f32⟩
  | 66 => ⟨S64x128, .f32⟩
  | 67 => ⟨S_, .f32⟩
  | 68 => ⟨S64, .f32⟩
  | 69 => ⟨S64x1, .f32⟩
  | 70 => ⟨S64x1, .f32⟩
  | 71 => ⟨S64x128, .f32⟩
  | 72 => ⟨S64x128, .f32⟩
  | 73 => ⟨S_, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_cst_3 : Ref sig .tc := ⟨.hbm, 94, rfl⟩
abbrev main_call0_v12 : Ref sig .tc := ⟨.hbm, 95, rfl⟩
abbrev main_call0_cst_4 : Ref sig .tc := ⟨.hbm, 96, rfl⟩
abbrev main_call0_call0_v0 : Ref sig .tc := ⟨.hbm, 97, rfl⟩
abbrev main_call0_call0_v1 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_11 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_call1_v5 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_c_12 : Ref sig .tc := ⟨.hbm, 134, rfl⟩
abbrev main_v75 : Ref sig .tc := ⟨.hbm, 135, rfl⟩
abbrev main_v76 : Ref sig .tc := ⟨.hbm, 136, rfl⟩
abbrev main_c_13 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_14 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_15 : Ref sig .tc := ⟨.hbm, 153, rfl⟩
abbrev main_v91 : Ref sig .tc := ⟨.hbm, 154, rfl⟩
abbrev main_cst_16 : Ref sig .tc := ⟨.hbm, 155, rfl⟩
abbrev main_v92 : Ref sig .tc := ⟨.hbm, 156, rfl⟩
abbrev main_v93 : Ref sig .tc := ⟨.hbm, 157, rfl⟩
abbrev main_c_17 : Ref sig .tc := ⟨.hbm, 158, rfl⟩
abbrev main_call2_cst : Ref sig .tc := ⟨.hbm, 159, rfl⟩
abbrev main_call2_v0 : Ref sig .tc := ⟨.hbm, 160, rfl⟩
abbrev main_call2_v1 : Ref sig .tc := ⟨.hbm, 161, rfl⟩
abbrev main_call2_cst_0 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_call2_v5 : Ref sig .tc := ⟨.hbm, 166, rfl⟩
abbrev main_call2_v6 : Ref sig .tc := ⟨.hbm, 167, rfl⟩
abbrev main_call2_v7 : Ref sig .tc := ⟨.hbm, 168, rfl⟩
abbrev main_call2_cst_1 : Ref sig .tc := ⟨.hbm, 169, rfl⟩
abbrev main_call2_v8 : Ref sig .tc := ⟨.hbm, 170, rfl⟩
abbrev main_call2_cst_2 : Ref sig .tc := ⟨.hbm, 171, rfl⟩
abbrev main_call2_v9 : Ref sig .tc := ⟨.hbm, 172, rfl⟩
abbrev main_call2_v10 : Ref sig .tc := ⟨.hbm, 173, rfl⟩
abbrev main_call2_v11 : Ref sig .tc := ⟨.hbm, 174, rfl⟩
abbrev main_call2_cst_3 : Ref sig .tc := ⟨.hbm, 175, rfl⟩
abbrev main_call2_v12 : Ref sig .tc := ⟨.hbm, 176, rfl⟩
abbrev main_call2_cst_4 : Ref sig .tc := ⟨.hbm, 177, rfl⟩
abbrev main_call2_call0_v0 : Ref sig .tc := ⟨.hbm, 178, rfl⟩
abbrev main_call2_call0_v1 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_cst_18 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_call3_v0 : Ref sig .tc := ⟨.hbm, 197, rfl⟩
abbrev main_call3_v1 : Ref sig .tc := ⟨.hbm, 198, rfl⟩
abbrev main_call3_cst : Ref sig .tc := ⟨.hbm, 199, rfl⟩
abbrev main_call3_v2 : Ref sig .tc := ⟨.hbm, 200, rfl⟩
abbrev main_call3_v3 : Ref sig .tc := ⟨.hbm, 201, rfl⟩
abbrev main_call3_cst_0 : Ref sig .tc := ⟨.hbm, 202, rfl⟩
abbrev main_call3_v4 : Ref sig .tc := ⟨.hbm, 203, rfl⟩
abbrev main_call3_v5 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_c_19 : Ref sig .tc := ⟨.hbm, 215, rfl⟩
abbrev main_v120 : Ref sig .tc := ⟨.hbm, 216, rfl⟩
abbrev main_v121 : Ref sig .tc := ⟨.hbm, 217, rfl⟩
abbrev main_c_20 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_v125 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_cst_21 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_cst_22 : Ref sig .tc := ⟨.hbm, 234, rfl⟩
abbrev main_v136 : Ref sig .tc := ⟨.hbm, 235, rfl⟩
abbrev main_cst_23 : Ref sig .tc := ⟨.hbm, 236, rfl⟩
abbrev main_v137 : Ref sig .tc := ⟨.hbm, 237, rfl⟩
abbrev main_v138 : Ref sig .tc := ⟨.hbm, 238, rfl⟩
abbrev main_c_24 : Ref sig .tc := ⟨.hbm, 239, rfl⟩
abbrev main_call4_cst : Ref sig .tc := ⟨.hbm, 240, rfl⟩
abbrev main_call4_v0 : Ref sig .tc := ⟨.hbm, 241, rfl⟩
abbrev main_call4_v1 : Ref sig .tc := ⟨.hbm, 242, rfl⟩
abbrev main_call4_cst_0 : Ref sig .tc := ⟨.hbm, 243, rfl⟩
abbrev main_call4_v2 : Ref sig .tc := ⟨.hbm, 244, rfl⟩
abbrev main_call4_v3 : Ref sig .tc := ⟨.hbm, 245, rfl⟩
abbrev main_call4_v4 : Ref sig .tc := ⟨.hbm, 246, rfl⟩
abbrev main_call4_v5 : Ref sig .tc := ⟨.hbm, 247, rfl⟩
abbrev main_call4_v6 : Ref sig .tc := ⟨.hbm, 248, rfl⟩
abbrev main_call4_v7 : Ref sig .tc := ⟨.hbm, 249, rfl⟩
abbrev main_call4_cst_1 : Ref sig .tc := ⟨.hbm, 250, rfl⟩
abbrev main_call4_v8 : Ref sig .tc := ⟨.hbm, 251, rfl⟩
abbrev main_call4_cst_2 : Ref sig .tc := ⟨.hbm, 252, rfl⟩
abbrev main_call4_v9 : Ref sig .tc := ⟨.hbm, 253, rfl⟩
abbrev main_call4_v10 : Ref sig .tc := ⟨.hbm, 254, rfl⟩
abbrev main_call4_v11 : Ref sig .tc := ⟨.hbm, 255, rfl⟩
abbrev main_call4_cst_3 : Ref sig .tc := ⟨.hbm, 256, rfl⟩
abbrev main_call4_v12 : Ref sig .tc := ⟨.hbm, 257, rfl⟩
abbrev main_call4_cst_4 : Ref sig .tc := ⟨.hbm, 258, rfl⟩
abbrev main_call4_call0_v0 : Ref sig .tc := ⟨.hbm, 259, rfl⟩
abbrev main_call4_call0_v1 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_cst_25 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_v147 : Ref sig .tc := ⟨.hbm, 270, rfl⟩
abbrev main_v148 : Ref sig .tc := ⟨.hbm, 271, rfl⟩
abbrev main_v149 : Ref sig .tc := ⟨.hbm, 272, rfl⟩
abbrev main_v150 : Ref sig .tc := ⟨.hbm, 273, rfl⟩
abbrev main_v151 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_call5_v0 : Ref sig .tc := ⟨.hbm, 278, rfl⟩
abbrev main_call5_v1 : Ref sig .tc := ⟨.hbm, 279, rfl⟩
abbrev main_call5_cst : Ref sig .tc := ⟨.hbm, 280, rfl⟩
abbrev main_call5_v2 : Ref sig .tc := ⟨.hbm, 281, rfl⟩
abbrev main_call5_v3 : Ref sig .tc := ⟨.hbm, 282, rfl⟩
abbrev main_call5_cst_0 : Ref sig .tc := ⟨.hbm, 283, rfl⟩
abbrev main_call5_v4 : Ref sig .tc := ⟨.hbm, 284, rfl⟩
abbrev main_call5_v5 : Ref sig .tc := ⟨.hbm, 285, rfl⟩
abbrev main_v155 : Ref sig .tc := ⟨.hbm, 286, rfl⟩
abbrev main_cst_26 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_cst_27 : Ref sig .tc := ⟨.hbm, 291, rfl⟩
abbrev main_v159 : Ref sig .tc := ⟨.hbm, 292, rfl⟩
abbrev main_cst_28 : Ref sig .tc := ⟨.hbm, 293, rfl⟩
abbrev main_v160 : Ref sig .tc := ⟨.hbm, 294, rfl⟩
abbrev main_v161 : Ref sig .tc := ⟨.hbm, 295, rfl⟩
abbrev main_v162 : Ref sig .tc := ⟨.hbm, 296, rfl⟩
abbrev main_cst_29 : Ref sig .tc := ⟨.hbm, 297, rfl⟩
abbrev main_v163 : Ref sig .tc := ⟨.hbm, 298, rfl⟩
abbrev main_v164 : Ref sig .tc := ⟨.hbm, 299, rfl⟩
abbrev main_v165 : Ref sig .tc := ⟨.hbm, 300, rfl⟩
abbrev main_v166 : Ref sig .tc := ⟨.hbm, 301, rfl⟩
abbrev main_v167 : Ref sig .tc := ⟨.hbm, 302, rfl⟩
abbrev main_v168 : Ref sig .tc := ⟨.hbm, 303, rfl⟩
abbrev main_v169 : Ref sig .tc := ⟨.hbm, 304, rfl⟩
abbrev main_v170 : Ref sig .tc := ⟨.hbm, 305, rfl⟩
abbrev main_v171 : Ref sig .tc := ⟨.hbm, 306, rfl⟩
abbrev main_call6_cst : Ref sig .tc := ⟨.hbm, 307, rfl⟩
abbrev main_call6_v0 : Ref sig .tc := ⟨.hbm, 308, rfl⟩
abbrev main_v172 : Ref sig .tc := ⟨.hbm, 309, rfl⟩
abbrev main_v173 : Ref sig .tc := ⟨.hbm, 310, rfl⟩
abbrev main_v174 : Ref sig .tc := ⟨.hbm, 311, rfl⟩
abbrev main_v175 : Ref sig .tc := ⟨.hbm, 312, rfl⟩
abbrev main_v176 : Ref sig .tc := ⟨.hbm, 313, rfl⟩
abbrev main_call7_cst : Ref sig .tc := ⟨.hbm, 314, rfl⟩
abbrev main_call7_v0 : Ref sig .tc := ⟨.hbm, 315, rfl⟩
abbrev main_call7_cst_0 : Ref sig .tc := ⟨.hbm, 316, rfl⟩
abbrev main_call7_v1 : Ref sig .tc := ⟨.hbm, 317, rfl⟩
abbrev main_call7_v2 : Ref sig .tc := ⟨.hbm, 318, rfl⟩
abbrev main_call7_v3 : Ref sig .tc := ⟨.hbm, 319, rfl⟩
abbrev main_call7_v4 : Ref sig .tc := ⟨.hbm, 320, rfl⟩
abbrev main_call7_v5 : Ref sig .tc := ⟨.hbm, 321, rfl⟩
abbrev main_call7_v6 : Ref sig .tc := ⟨.hbm, 322, rfl⟩
abbrev main_call7_cst_1 : Ref sig .tc := ⟨.hbm, 323, rfl⟩
abbrev main_call7_v7 : Ref sig .tc := ⟨.hbm, 324, rfl⟩
abbrev main_call7_v8 : Ref sig .tc := ⟨.hbm, 325, rfl⟩
abbrev main_call7_v9 : Ref sig .tc := ⟨.hbm, 326, rfl⟩
abbrev main_call7_v10 : Ref sig .tc := ⟨.hbm, 327, rfl⟩
abbrev main_v177 : Ref sig .tc := ⟨.hbm, 328, rfl⟩
abbrev main_cst_30 : Ref sig .tc := ⟨.hbm, 329, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  reducesTo_S64x128_S64_d1 : S64x128.ReducesTo [1] S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x128_S64x128_1_0_0_1_n_n_wf : DotDims.WF S64x128 S128x128 S64x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

class Facts : Prop extends Facts₀ where

variable [Facts]
-- ==== Proof.KRun.lean ====
/-
  The idealized kernel program's run with its results named.

  The program is seven kernel regions among stretches of host operations.  Its buffer contents at every
  boundary are a fold from the launch memory: a stretch of host operations applies them in order, a region
  replaces its output arrays by what its write-backs leave.  The last boundary's contents are `W21`.  Here the
  run is stated with EVERY unscoped buffer of the final memory read against that fold — in particular the two
  result buffers — where the frame claim only reads the sixteen argument arrays.
-/
import proofs.«143752_j72559177499180_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each
    unscoped buffer of each device holds the last boundary's contents `W21`. -/
theorem run_fold : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W21 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c b hb => h c _ (mem_uc b hb))

end Cert.KernelIdeal.KRun

end
-- ==== Proof.PreReal.lean ====
/-
  The precondition read back: every entry of every float argument is a real number.

  The precondition is the conjunction, over the thirteen float arguments, of "every entry's absolute value is below
  +∞".  Each conjunct is a reduction by `and` of elementwise comparisons; a conjunction that is 1 has every conjunct 1,
  a reduction by `and` into one index that is 1 had a 1 at every element, and an extended real `x` with
  `max x (−x) < +∞` is neither +∞ nor −∞.
-/
import proofs.«143752_j72559177499180_1_alg».proof.Pre_finite_inputs
import Idealize.ShloMosaic.Lib.ReduceAll
import Idealize.ShloMosaic.PureOps.Ideal.Laws

noncomputable section

namespace Cert.PreReal

open Idealize.ShloMosaic Cert.Pre_finite_inputs

instance : Subsingleton S_.Idx := ⟨fun a b => funext fun d => d.elim0⟩

/-- The binary32 pattern `0x7F800000` denotes +∞. -/
theorem ofBits_inf : Ideal.ofBits .f32 0x7F800000#32 = (⊤ : EReal) := by
  simp [Ideal.ofBits, Ideal.ieee]

/-- An extended real whose absolute value compares below +∞ is a real number. -/
theorem real_of_abs_lt_top {x : EReal}
    (h : FloatOps.cmpf (F := Ideal) (φ := .f32) .olt (FloatOps.absf (F := Ideal) (φ := .f32) x)
      (FloatOps.ofBits (F := Ideal) .f32 0x7F800000#32) = 1#1) : ∃ r : ℝ, x = (r : EReal) := by
  rw [Ideal.cmpf_def, Ideal.absf_def, Ideal.ofBits_def, ofBits_inf] at h
  have hb : ∀ b : Bool, BitVec.ofBool b = 1#1 → b = true := fun b => by cases b <;> decide
  have hlt : max x (-x) < ⊤ := by
    unfold Ideal.cmp at h
    exact of_decide_eq_true (hb _ h)
  induction x using EReal.rec with
  | bot => simp at hlt
  | coe r => exact ⟨r, rfl⟩
  | top => simp at hlt

/-- One conjunct: if `all (|x| < +∞)` is 1 then every entry of `x` is a real number. -/
theorem real_of_all {s : Shape} {axes : List (Fin s.rank)} (x : FVec Ideal s .f32)
    (bc : (S_ : Shape).BroadcastsInDim s (![] : Fin 0 → Fin s.rank)) (red : s.ReducesTo axes S_) (hu : 0 < (S_ : Shape).numel)
    (j : S_.Idx)
    (e : Host.reduce IntOp.andi (cmpf .olt (Host.absf x) (broadcastInDim s ![] bc (constant (F := Ideal) S_ .f32 0x7F800000#32)))
      (constantI S_ 1 1#1) red hu j = 1#1) (i : s.Idx) : ∃ r : ℝ, x i = (r : EReal) :=
  real_of_abs_lt_top (Host.reduce_andi_all _ _ red hu j e i)

/-- The whole precondition: each of the thirteen float arguments has only real entries. -/
theorem inputs_real [Cert.Pre_finite_inputs.Facts] (a0 : FVec Ideal S50000x128 .f32) (a1 : IVec S2x800000 32) (a2 : IVec S50000 32) (a3 : IVec S65 32)
    (a4 : FVec Ideal S128x128 .f32) (a5 a6 a7 : FVec Ideal S128 .f32) (a8 : FVec Ideal S2x128x128 .f32)
    (a9 a10 a11 : FVec Ideal S2x128 .f32) (a12 : FVec Ideal S128x128 .f32) (a13 : FVec Ideal S128 .f32)
    (a14 : FVec Ideal S128x128 .f32) (a15 : FVec Ideal S128 .f32)
    (h : fn (F := Ideal) a0 a1 a2 a3 a4 a5 a6 a7 a8 a9 a10 a11 a12 a13 a14 a15 = fun _ => 1#1) :
    (∀ i, ∃ r : ℝ, a0 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal)) ∧ (∀ i, ∃ r : ℝ, a10 i = (r : EReal)) ∧ (∀ i, ∃ r : ℝ, a11 i = (r : EReal))
    ∧ (∀ i, ∃ r : ℝ, a12 i = (r : EReal)) ∧ (∀ i, ∃ r : ℝ, a13 i = (r : EReal)) ∧ (∀ i, ∃ r : ℝ, a14 i = (r : EReal))
    ∧ (∀ i, ∃ r : ℝ, a15 i = (r : EReal)) := by
  have h0 := congrFun h ((fun d => Fin.elim0 d) : S_.Idx)
  dsimp only [fn, fn_part1, fn_part2, fn_part3] at h0
  simp only [andi, IntOp.andi_eq_one] at h0
  obtain ⟨⟨⟨⟨⟨⟨⟨⟨⟨⟨⟨⟨e0, e4⟩, e5⟩, e6⟩, e7⟩, e8⟩, e9⟩, e10⟩, e11⟩, e12⟩, e13⟩, e14⟩, e15⟩ := h0
  exact ⟨real_of_all a0 _ _ _ _ e0, real_of_all a4 _ _ _ _ e4, real_of_all a5 _ _ _ _ e5, real_of_all a6 _ _ _ _ e6,
    real_of_all a7 _ _ _ _ e7, real_of_all a8 _ _ _ _ e8, real_of_all a9 _ _ _ _ e9, real_of_all a10 _ _ _ _ e10,
    real_of_all a11 _ _ _ _ e11, real_of_all a12 _ _ _ _ e12, real_of_all a13 _ _ _ _ e13, real_of_all a14 _ _ _ _ e14,
    real_of_all a15 _ _ _ _ e15⟩

end Cert.PreReal

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.KRegions.lean ====
import proofs.«143752_j72559177499180_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«143752_j72559177499180_1_alg».proof.Proof.LibPlainDot

set_option maxRecDepth 16384

noncomputable section

open scoped BigOperators

namespace Cert.KernelIdeal.KRegions

open Cert.KernelIdeal Cert.KernelIdeal.Gen Idealize.ShloMosaic Idealize.ShloMosaic.TcCoe Idealize.SL.Sem
open Idealize.ShloMosaic.Pipeline (Dat)
open Idealize.ShloMosaic.ValueIdx

/-! # The six large regions of the idealized kernel as whole-array functions

Regions 0, 2, 4 are one matrix-product kernel and regions 1, 3, 5 one elementwise kernel, each run on a grid of ten
points; point `t` works on rows `5000·t … 5000·t + 4999` of a `50000 × 128` array. This file reads, for each of
the six, the array the region leaves as ONE function of the arrays the region finds (`V`, a parameter: the buffer
contents when the region is entered):

* `matG x w` — the matrix product: entry `(p, q)` is `∑ k < 128, x (p, k) · w (k, q)` on the extended reals;
* `bnsiluG a sc sh` — with `y = a (p, q) · sc (0, q) + sh (0, q)`, entry `(p, q)` is `y · logistic y`, where
  `logistic y = 1 / (1 + exp (−y))`.

The argument has the same three steps for every region. (1) What the body computes on a block, read at one entry of
the block (`mat_pay…`, `bnsilu_pay…`): a change of float format is the identity on extended reals, a reshape to the
same shape is the identity, the product into a zero accumulator is the plain sum over the contracted index, a `[1, 128]`
row spread over the rows reads its one row. (2) Where a block sits in its array: the printed index maps are decided
once over the ten grid points (`idx…`) — the row windows sit at block row `t`, column block `0`; the whole-matrix and
whole-row windows at block `(0, 0)` — and an entry of a block sits at (block index) × (block size) + (its coordinate
inside the block) (`rows…`, `whole…`). So what point `t` writes back is block `t` of the whole-array function
(`flushed…`). (3) Row `r` of the result lies in the block of point `r / 5000`, so the ten blocks cover the array
(`cover…`), and an array all of whose blocks are blocks of one function IS that function (`final…`). -/

/-- The two spellings of "no offset". -/
theorem hz : (![0, 0] : Fin 2 → Nat) = fun _ => 0 := funext fun a => by fin_cases a <;> rfl

/-! ## The two whole-array functions -/

/-- The matrix product of a `50000 × 128` array with a `128 × 128` matrix, entry by entry. -/
def matG (x : S50000x128.Idx → EReal) (w : S128x128.Idx → EReal) : S50000x128.Idx → EReal :=
  fun i => ∑ k : Fin 128, x (ix2 (i 0) k) * w (ix2 k (i 1))

theorem matG_apply (x : S50000x128.Idx → EReal) (w : S128x128.Idx → EReal) (p : Fin 50000) (q : Fin 128) :
    matG x w (ix2 p q) = ∑ k : Fin 128, x (ix2 p k) * w (ix2 k q) := rfl

/-- Scale and shift along the columns, then `y ↦ y · logistic y`, entry by entry. -/
def bnsiluG (a : S50000x128.Idx → EReal) (sc sh : S1x128.Idx → EReal) : S50000x128.Idx → EReal :=
  fun i => (a i * sc (ix2 (0 : Fin 1) (i 1)) + sh (ix2 (0 : Fin 1) (i 1)))
    * Ideal.logistic (a i * sc (ix2 (0 : Fin 1) (i 1)) + sh (ix2 (0 : Fin 1) (i 1)))

theorem bnsiluG_apply (a : S50000x128.Idx → EReal) (sc sh : S1x128.Idx → EReal) (p : Fin 50000) (q : Fin 128) :
    bnsiluG a sc sh (ix2 p q) = (a (ix2 p q) * sc (ix2 (0 : Fin 1) q) + sh (ix2 (0 : Fin 1) q))
      * Ideal.logistic (a (ix2 p q) * sc (ix2 (0 : Fin 1) q) + sh (ix2 (0 : Fin 1) q)) := rfl

/-- `logistic` spelled out: `1 / (1 + exp (−y))`. -/
theorem logistic_eq (y : EReal) : Ideal.logistic y = Ideal.div 1 (1 + Ideal.exp (-y)) := rfl

/-! ## What the bodies compute on a block, at one entry -/

/-- The product's dimension numbers are those of a plain matrix product. -/
theorem plain : Cert.PlainDot.IsPlain dot_S5000x128_S128x128_S5000x128_1_0_0_1_n_n := ⟨rfl, rfl, rfl, rfl, rfl, rfl⟩

/-- The matrix-product body (region 0's spelling) at entry `(p, q)` of its block: both operands pass through a
    change of float format, which is the identity here, and the product into the zero accumulator is the sum over the
    contracted index. -/
theorem mat_pay0 (x0 : FVec Ideal S5000x128 .f32) (x1 : FVec Ideal S128x128 .f32) (p : Fin 5000) (q : Fin 128) :
    k0_pay1 x0 x1 (ix2 p q) = ∑ k : Fin 128, x0 (ix2 p k) * x1 (ix2 k q) := by
  unfold k0_pay1
  exact (Ideal.matmul_constant_zero_apply dot_S5000x128_S128x128_S5000x128_1_0_0_1_n_n none _ _ (ix2 p q)).trans
    (Cert.PlainDot.sum_contr dot_S5000x128_S128x128_S5000x128_1_0_0_1_n_n plain (truncf .bf16 x0 bitsLt_bf16_f32) (truncf .bf16 x1 bitsLt_bf16_f32) p q)

/-- Region 2's spelling of the same body reshapes each operand to its own shape first: the identity. -/
theorem mat_pay2 (x0 : FVec Ideal S5000x128 .f32) (x1 : FVec Ideal S128x128 .f32) (p : Fin 5000) (q : Fin 128) :
    k2_pay1 x0 x1 (ix2 p q) = ∑ k : Fin 128, x0 (ix2 p k) * x1 (ix2 k q) := by
  unfold k2_pay1
  rw [shapeCast_self, shapeCast_self]
  exact (Ideal.matmul_constant_zero_apply dot_S5000x128_S128x128_S5000x128_1_0_0_1_n_n none _ _ (ix2 p q)).trans
    (Cert.PlainDot.sum_contr dot_S5000x128_S128x128_S5000x128_1_0_0_1_n_n plain (truncf .bf16 x0 bitsLt_bf16_f32) (truncf .bf16 x1 bitsLt_bf16_f32) p q)

/-- Region 4's spelling of the same body reshapes each operand to its own shape first: the identity. -/
theorem mat_pay4 (x0 : FVec Ideal S5000x128 .f32) (x1 : FVec Ideal S128x128 .f32) (p : Fin 5000) (q : Fin 128) :
    k4_pay1 x0 x1 (ix2 p q) = ∑ k : Fin 128, x0 (ix2 p k) * x1 (ix2 k q) := by
  unfold k4_pay1
  rw [shapeCast_self, shapeCast_self]
  exact (Ideal.matmul_constant_zero_apply dot_S5000x128_S128x128_S5000x128_1_0_0_1_n_n none _ _ (ix2 p q)).trans
    (Cert.PlainDot.sum_contr dot_S5000x128_S128x128_S5000x128_1_0_0_1_n_n plain (truncf .bf16 x0 bitsLt_bf16_f32) (truncf .bf16 x1 bitsLt_bf16_f32) p q)

/-- The elementwise body of region 1 at entry `(p, q)` of its block: the reshapes to the same shape are the identity,
    and each `[1, 128]` row spread over the 5000 rows reads its one row at column `q`. -/
theorem bnsilu_pay1 (x0 : FVec Ideal S5000x128 .f32) (x1 x2 : FVec Ideal S1x128 .f32) (p : Fin 5000) (q : Fin 128) :
    k1_pay1 x0 x1 x2 (ix2 p q)
      = (x0 (ix2 p q) * x1 (ix2 (0 : Fin 1) q) + x2 (ix2 (0 : Fin 1) q))
        * Ideal.logistic (x0 (ix2 p q) * x1 (ix2 (0 : Fin 1) q) + x2 (ix2 (0 : Fin 1) q)) := by
  unfold k1_pay1
  have e1 : broadcastTo S5000x128 (shapeCast S1x128 x1 shapeCasts_S1x128_S1x128) broadcasts_S1x128_S5000x128 (ix2 p q)
      = x1 (ix2 (0 : Fin 1) q) := by
    rw [shapeCast_self]
    exact broadcastTo_1b_ab_apply x1 broadcasts_S1x128_S5000x128 p q
  have e2 : broadcastTo S5000x128 (shapeCast S1x128 x2 shapeCasts_S1x128_S1x128) broadcasts_S1x128_S5000x128 (ix2 p q)
      = x2 (ix2 (0 : Fin 1) q) := by
    rw [shapeCast_self]
    exact broadcastTo_1b_ab_apply x2 broadcasts_S1x128_S5000x128 p q
  show (shapeCast S5000x128 x0 shapeCasts_S5000x128_S5000x128 (ix2 p q) * _ + _)
      * Ideal.logistic (shapeCast S5000x128 x0 shapeCasts_S5000x128_S5000x128 (ix2 p q) * _ + _) = _
  rw [e1, e2, shapeCast_self]

/-- The elementwise body of region 3 at entry `(p, q)` of its block: the reshapes to the same shape are the identity,
    and each `[1, 128]` row spread over the 5000 rows reads its one row at column `q`. -/
theorem bnsilu_pay3 (x0 : FVec Ideal S5000x128 .f32) (x1 x2 : FVec Ideal S1x128 .f32) (p : Fin 5000) (q : Fin 128) :
    k3_pay1 x0 x1 x2 (ix2 p q)
      = (x0 (ix2 p q) * x1 (ix2 (0 : Fin 1) q) + x2 (ix2 (0 : Fin 1) q))
        * Ideal.logistic (x0 (ix2 p q) * x1 (ix2 (0 : Fin 1) q) + x2 (ix2 (0 : Fin 1) q)) := by
  unfold k3_pay1
  have e1 : broadcastTo S5000x128 (shapeCast S1x128 x1 shapeCasts_S1x128_S1x128) broadcasts_S1x128_S5000x128 (ix2 p q)
      = x1 (ix2 (0 : Fin 1) q) := by
    rw [shapeCast_self]
    exact broadcastTo_1b_ab_apply x1 broadcasts_S1x128_S5000x128 p q
  have e2 : broadcastTo S5000x128 (shapeCast S1x128 x2 shapeCasts_S1x128_S1x128) broadcasts_S1x128_S5000x128 (ix2 p q)
      = x2 (ix2 (0 : Fin 1) q) := by
    rw [shapeCast_self]
    exact broadcastTo_1b_ab_apply x2 broadcasts_S1x128_S5000x128 p q
  show (shapeCast S5000x128 x0 shapeCasts_S5000x128_S5000x128 (ix2 p q) * _ + _)
      * Ideal.logistic (shapeCast S5000x128 x0 shapeCasts_S5000x128_S5000x128 (ix2 p q) * _ + _) = _
  rw [e1, e2, shapeCast_self]

/-- The elementwise body of region 5 at entry `(p, q)` of its block: the reshapes to the same shape are the identity,
    and each `[1, 128]` row spread over the 5000 rows reads its one row at column `q`. -/
theorem bnsilu_pay5 (x0 : FVec Ideal S5000x128 .f32) (x1 x2 : FVec Ideal S1x128 .f32) (p : Fin 5000) (q : Fin 128) :
    k5_pay1 x0 x1 x2 (ix2 p q)
      = (x0 (ix2 p q) * x1 (ix2 (0 : Fin 1) q) + x2 (ix2 (0 : Fin 1) q))
        * Ideal.logistic (x0 (ix2 p q) * x1 (ix2 (0 : Fin 1) q) + x2 (ix2 (0 : Fin 1) q)) := by
  unfold k5_pay1
  have e1 : broadcastTo S5000x128 (shapeCast S1x128 x1 shapeCasts_S1x128_S1x128) broadcasts_S1x128_S5000x128 (ix2 p q)
      = x1 (ix2 (0 : Fin 1) q) := by
    rw [shapeCast_self]
    exact broadcastTo_1b_ab_apply x1 broadcasts_S1x128_S5000x128 p q
  have e2 : broadcastTo S5000x128 (shapeCast S1x128 x2 shapeCasts_S1x128_S1x128) broadcasts_S1x128_S5000x128 (ix2 p q)
      = x2 (ix2 (0 : Fin 1) q) := by
    rw [shapeCast_self]
    exact broadcastTo_1b_ab_apply x2 broadcasts_S1x128_S5000x128 p q
  show (shapeCast S5000x128 x0 shapeCasts_S5000x128_S5000x128 (ix2 p q) * _ + _)
      * Ideal.logistic (shapeCast S5000x128 x0 shapeCasts_S5000x128_S5000x128 (ix2 p q) * _ + _) = _
  rw [e1, e2, shapeCast_self]

/-! ## From a block to the array, at one entry

Both lemmas are stated over plain variables: `x0` is any block that holds rows `n·5000 …` of the array `X`, the
other operands are whole. They are used below with `x0` a window's block at a grid point. -/

/-- A block of the product is the product of a block of rows: at an entry of block `n`, the body's value is the
    whole-array product at the entry's place in the array (row `n·5000 + p`, the same column). -/
theorem mat_point (pay : FVec Ideal S5000x128 .f32 → FVec Ideal S128x128 .f32 → FVec Ideal S5000x128 .f32)
    (hpay : ∀ x0 x1 (p : Fin 5000) (q : Fin 128), pay x0 x1 (ix2 p q) = ∑ k : Fin 128, x0 (ix2 p k) * x1 (ix2 k q))
    (X : S50000x128.Idx → EReal) (Wm : S128x128.Idx → EReal)
    (x0 : FVec Ideal S5000x128 .f32) (x1 : FVec Ideal S128x128 .f32) (n : Nat)
    (h0 : ∀ (j : S5000x128.Idx) (i : S50000x128.Idx),
      (i 0).val = n * 5000 + (j 0).val → (i 1).val = (j 1).val → x0 j = X i)
    (h1 : x1 = Wm)
    (j : S5000x128.Idx) (i : S50000x128.Idx) (hi0 : (i 0).val = n * 5000 + (j 0).val) (hi1 : (i 1).val = (j 1).val) :
    pay x0 x1 j = matG X Wm i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = n * 5000 + p.val := hi0
  obtain rfl : s = q := Fin.ext hi1
  rw [hpay, matG_apply, h1]
  exact Finset.sum_congr rfl fun k _ => congrArg (· * Wm (ix2 k s)) (h0 (ix2 p k) (ix2 r k) hr rfl)

/-- The elementwise body on a block of rows is the whole-array function at the entry's place in the array. -/
theorem bnsilu_point
    (pay : FVec Ideal S5000x128 .f32 → FVec Ideal S1x128 .f32 → FVec Ideal S1x128 .f32 → FVec Ideal S5000x128 .f32)
    (hpay : ∀ x0 x1 x2 (p : Fin 5000) (q : Fin 128), pay x0 x1 x2 (ix2 p q)
      = (x0 (ix2 p q) * x1 (ix2 (0 : Fin 1) q) + x2 (ix2 (0 : Fin 1) q))
        * Ideal.logistic (x0 (ix2 p q) * x1 (ix2 (0 : Fin 1) q) + x2 (ix2 (0 : Fin 1) q)))
    (A : S50000x128.Idx → EReal) (sc sh : S1x128.Idx → EReal)
    (x0 : FVec Ideal S5000x128 .f32) (x1 x2 : FVec Ideal S1x128 .f32) (n : Nat)
    (h0 : ∀ (j : S5000x128.Idx) (i : S50000x128.Idx),
      (i 0).val = n * 5000 + (j 0).val → (i 1).val = (j 1).val → x0 j = A i)
    (h1 : x1 = sc) (h2 : x2 = sh)
    (j : S5000x128.Idx) (i : S50000x128.Idx) (hi0 : (i 0).val = n * 5000 + (j 0).val) (hi1 : (i 1).val = (j 1).val) :
    pay x0 x1 x2 j = bnsiluG A sc sh i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  have hr : r.val = n * 5000 + p.val := hi0
  obtain rfl : s = q := Fin.ext hi1
  rw [hpay, bnsiluG_apply, h1, h2, h0 (ix2 p s) (ix2 r s) hr rfl]

-- The buffer contents when a region is entered: every statement below holds for any such contents.
variable (V : (c : Dev nD) → (b : Ref sig .tc) → Buf (Elt Ideal) ((c : Thread nD τ).loc b))

/-! ## Region 0: the matrix product -/

/-- The printed index maps of region 0, decided over its ten grid points: the two row windows sit at block row `t`,
    the matrix at block `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Window 0's block at point `t` holds rows `5000·t …` of its array. -/
theorem rows0_0 (X : S50000x128.Idx → EReal) (t : Fin cfg0.N) (j : S5000x128.Idx) (i : S50000x128.Idx)
    (h0 : (i 0).val = t.val * 5000 + (j 0).val) (h1 : (i 1).val = (j 1).val) :
    ((cfg0.win 0).blk t).view.read (Elt Ideal) X j = X i := by
  obtain ⟨e0, e1, -⟩ := idx0 t
  rw [View.read_apply]
  refine congrArg X (funext fun a => Fin.ext ?_)
  match a with
  | ⟨0, _⟩ => show win0_0.index t (0 : Fin 2) * 5000 + 1 * (j 0).val = (i 0).val; rw [e0, h0]; omega
  | ⟨1, _⟩ => show win0_0.index t (1 : Fin 2) * 128 + 1 * (j 1).val = (i 1).val; rw [e1, h1]; omega

/-- Window 1's block is its whole matrix, at every point. -/
theorem whole0_1 (Wm : S128x128.Idx → EReal) (t : Fin cfg0.N) :
    ((cfg0.win 1).blk t).view.read (Elt Ideal) Wm = Wm := by
  obtain ⟨-, -, e0, e1, -⟩ := idx0 t
  funext j
  rw [View.read_apply]
  refine congrArg Wm (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- What point `t` writes back is block `t` of the product of the arrays the region finds. -/
theorem flushed0 (c : Dev nD) (t : Fin cfg0.N) :
    (dat0 (F := Ideal) V c).flushed 2 t = ((cfg0.win 2).blk t).view.read (Elt Ideal)
      (matG (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e0, e1, -⟩ := idx0 t
  funext j
  refine mat_point (k0_pay1 (F := Ideal)) mat_pay0 (V c (Pipeline.arrRef spec0 0)) (V c (Pipeline.arrRef spec0 1))
    (iblk0 V c 0 t) (iblk0 V c 1 t) t.val
    (fun j i h0 h1 => rows0_0 (V c (Pipeline.arrRef spec0 0)) t j i h0 h1)
    (whole0_1 (V c (Pipeline.arrRef spec0 1)) t) j (((cfg0.win 2).blk t).view.emb j) ?_ ?_
  · show win0_2.index t (0 : Fin 2) * 5000 + 1 * (j 0).val = t.val * 5000 + (j 0).val; rw [e0]; omega
  · show win0_2.index t (1 : Fin 2) * 128 + 1 * (j 1).val = (j 1).val; rw [e1]; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Row `r` of the result lies in the block of point `r / 5000`: the ten blocks cover the array. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; rw [hN]; omega⟩, rfl⟩
  obtain ⟨-, -, -, -, e0, e1, -⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 128 ≤ (i 1).val ∧ (i 1).val < win0_2.index t (1 : Fin 2) * 128 + 128
    rw [e1]; omega

/-- THE ARRAY region 0 leaves: the product of the arrays it finds. -/
theorem final0 (c : Dev nD) : (dat0 (F := Ideal) V c).arrAt 2 cfg0.N
    = matG (V c (Pipeline.arrRef spec0 0)) (V c (Pipeline.arrRef spec0 1)) :=
  (dat0 (F := Ideal) V c).arrAt_eq_of_cover 2
    (matG (V c (Pipeline.arrRef spec0 0)) (V c (Pipeline.arrRef spec0 1)))
    (fun t _ => flushed0 V c t) cover0

/-! ## Region 1: scale, shift, `y · logistic y` -/

/-- The printed index maps of region 1, decided over its ten grid points: the two row windows sit at block row `t`,
    the scale and shift rows at block `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Window 0's block at point `t` holds rows `5000·t …` of its array. -/
theorem rows1_0 (X : S50000x128.Idx → EReal) (t : Fin cfg1.N) (j : S5000x128.Idx) (i : S50000x128.Idx)
    (h0 : (i 0).val = t.val * 5000 + (j 0).val) (h1 : (i 1).val = (j 1).val) :
    ((cfg1.win 0).blk t).view.read (Elt Ideal) X j = X i := by
  obtain ⟨e0, e1, -⟩ := idx1 t
  rw [View.read_apply]
  refine congrArg X (funext fun a => Fin.ext ?_)
  match a with
  | ⟨0, _⟩ => show win1_0.index t (0 : Fin 2) * 5000 + 1 * (j 0).val = (i 0).val; rw [e0, h0]; omega
  | ⟨1, _⟩ => show win1_0.index t (1 : Fin 2) * 128 + 1 * (j 1).val = (i 1).val; rw [e1, h1]; omega

/-- Window 1's block is its whole row, at every point. -/
theorem whole1_1 (R : S1x128.Idx → EReal) (t : Fin cfg1.N) :
    ((cfg1.win 1).blk t).view.read (Elt Ideal) R = R := by
  obtain ⟨-, -, e0, e1, -⟩ := idx1 t
  funext j
  rw [View.read_apply]
  refine congrArg R (funext fun a => Fin.ext ?_)
  match a with
  | ⟨0, _⟩ => show win1_1.index t (0 : Fin 2) * 1 + 1 * (j 0).val = (j 0).val; rw [e0]; omega
  | ⟨1, _⟩ => show win1_1.index t (1 : Fin 2) * 128 + 1 * (j 1).val = (j 1).val; rw [e1]; omega

/-- Window 2's block is its whole row, at every point. -/
theorem whole1_2 (R : S1x128.Idx → EReal) (t : Fin cfg1.N) :
    ((cfg1.win 2).blk t).view.read (Elt Ideal) R = R := by
  obtain ⟨-, -, -, -, e0, e1, -⟩ := idx1 t
  funext j
  rw [View.read_apply]
  refine congrArg R (funext fun a => Fin.ext ?_)
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

/-- What point `t` writes back is block `t` of the whole-array function of the arrays the region finds. -/
theorem flushed1 (c : Dev nD) (t : Fin cfg1.N) :
    (dat1 (F := Ideal) V c).flushed 3 t = ((cfg1.win 3).blk t).view.read (Elt Ideal)
      (bnsiluG (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨-, -, -, -, -, -, e0, e1, -⟩ := idx1 t
  funext j
  refine bnsilu_point (k1_pay1 (F := Ideal)) bnsilu_pay1
    (V c (Pipeline.arrRef spec1 0)) (V c (Pipeline.arrRef spec1 1)) (V c (Pipeline.arrRef spec1 2))
    (iblk1 V c 0 t) (iblk1 V c 1 t) (iblk1 V c 2 t) t.val
    (fun j i h0 h1 => rows1_0 (V c (Pipeline.arrRef spec1 0)) t j i h0 h1)
    (whole1_1 (V c (Pipeline.arrRef spec1 1)) t) (whole1_2 (V c (Pipeline.arrRef spec1 2)) t)
    j (((cfg1.win 3).blk t).view.emb j) ?_ ?_
  · show win1_3.index t (0 : Fin 2) * 5000 + 1 * (j 0).val = t.val * 5000 + (j 0).val; rw [e0]; omega
  · show win1_3.index t (1 : Fin 2) * 128 + 1 * (j 1).val = (j 1).val; rw [e1]; omega

/-- An index of the result array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v58).slice (win1_3.rect t)).set ↔ _
  rw [View.set_slice_whole, Rect.mem_set_unit]
  exact Iff.rfl

/-- Row `r` of the result lies in the block of point `r / 5000`: the ten blocks cover the array. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show _ < grid1.N; rw [hN]; omega⟩, rfl⟩
  obtain ⟨-, -, -, -, -, -, e0, e1, -⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [e0, ht]; omega
  | ⟨1, _⟩ =>
    show win1_3.index t (1 : Fin 2) * 128 ≤ (i 1).val ∧ (i 1).val < win1_3.index t (1 : Fin 2) * 128 + 128
    rw [e1]; omega

/-- THE ARRAY region 1 leaves: the whole-array function of the arrays it finds. -/
theorem final1 (c : Dev nD) : (dat1 (F := Ideal) V c).arrAt 3 cfg1.N
    = bnsiluG (V c (Pipeline.arrRef spec1 0)) (V c (Pipeline.arrRef spec1 1)) (V c (Pipeline.arrRef spec1 2)) :=
  (dat1 (F := Ideal) V c).arrAt_eq_of_cover 3
    (bnsiluG (V c (Pipeline.arrRef spec1 0)) (V c (Pipeline.arrRef spec1 1)) (V c (Pipeline.arrRef spec1 2)))
    (fun t _ => flushed1 V c t) cover1

/-! ## Region 2: the matrix product -/

/-- The printed index maps of region 2, decided over its ten grid points: the two row windows sit at block row `t`,
    the matrix at block `(0, 0)`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Window 0's block at point `t` holds rows `5000·t …` of its array. -/
theorem rows2_0 (X : S50000x128.Idx → EReal) (t : Fin cfg2.N) (j : S5000x128.Idx) (i : S50000x128.Idx)
    (h0 : (i 0).val = t.val * 5000 + (j 0).val) (h1 : (i 1).val = (j 1).val) :
    ((cfg2.win 0).blk t).view.read (Elt Ideal) X j = X i := by
  obtain ⟨e0, e1, -⟩ := idx2 t
  rw [View.read_apply]
  refine congrArg X (funext fun a => Fin.ext ?_)
  match a with
  | ⟨0, _⟩ => show win2_0.index t (0 : Fin 2) * 5000 + 1 * (j 0).val = (i 0).val; rw [e0, h0]; omega
  | ⟨1, _⟩ => show win2_0.index t (1 : Fin 2) * 128 + 1 * (j 1).val = (i 1).val; rw [e1, h1]; omega

/-- Window 1's block is its whole matrix, at every point. -/
theorem whole2_1 (Wm : S128x128.Idx → EReal) (t : Fin cfg2.N) :
    ((cfg2.win 1).blk t).view.read (Elt Ideal) Wm = Wm := by
  obtain ⟨-, -, e0, e1, -⟩ := idx2 t
  funext j
  rw [View.read_apply]
  refine congrArg Wm (funext fun a => Fin.ext ?_)
  match a with
  | ⟨0, _⟩ => show win2_1.index t (0 : Fin 2) * 128 + 1 * (j 0).val = (j 0).val; rw [e0]; omega
  | ⟨1, _⟩ => show win2_1.index t (1 : Fin 2) * 128 + 1 * (j 1).val = (j 1).val; rw [e1]; omega

/-- What point `t` writes back is block `t` of the product of the arrays the region finds. -/
theorem flushed2 (c : Dev nD) (t : Fin cfg2.N) :
    (dat2 (F := Ideal) V c).flushed 2 t = ((cfg2.win 2).blk t).view.read (Elt Ideal)
      (matG (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e0, e1, -⟩ := idx2 t
  funext j
  refine mat_point (k2_pay1 (F := Ideal)) mat_pay2 (V c (Pipeline.arrRef spec2 0)) (V c (Pipeline.arrRef spec2 1))
    (iblk2 V c 0 t) (iblk2 V c 1 t) t.val
    (fun j i h0 h1 => rows2_0 (V c (Pipeline.arrRef spec2 0)) t j i h0 h1)
    (whole2_1 (V c (Pipeline.arrRef spec2 1)) t) j (((cfg2.win 2).blk t).view.emb j) ?_ ?_
  · show win2_2.index t (0 : Fin 2) * 5000 + 1 * (j 0).val = t.val * 5000 + (j 0).val; rw [e0]; omega
  · show win2_2.index t (1 : Fin 2) * 128 + 1 * (j 1).val = (j 1).val; rw [e1]; omega

/-- An index of the result array is in point `t`'s block iff each coordinate is in the block's range on its axis. -/
theorem mem_blk2 (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v67).slice (win2_2.rect t)).set ↔ _
  rw [View.set_slice_whole, Rect.mem_set_unit]
  exact Iff.rfl

/-- Row `r` of the result lies in the block of point `r / 5000`: the ten blocks cover the array. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 :=
    ⟨⟨(i 0).val / 5000, by show _ < grid2.N; rw [hN]; omega⟩, rfl⟩
  obtain ⟨-, -, -, -, e0, e1, -⟩ := idx2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 128 ≤ (i 1).val ∧ (i 1).val < win2_2.index t (1 : Fin 2) * 128 + 128
    rw [e1]; omega

/-- THE ARRAY region 2 leaves: the product of the arrays it finds. -/
theorem final2 (c : Dev nD) : (dat2 (F := Ideal) V c).arrAt 2 cfg2.N
    = matG (V c (Pipeline.arrRef spec2 0)) (V c (Pipeline.arrRef spec2 1)) :=
  (dat2 (F := Ideal) V c).arrAt_eq_of_cover 2
    (matG (V c (Pipeline.arrRef spec2 0)) (V c (Pipeline.arrRef spec2 1)))
    (fun t _ => flushed2 V c t) cover2

/-! ## Region 3: scale, shift, `y · logistic y` -/

/-- The printed index maps of region 3, decided over its ten grid points: the two row windows sit at block row `t`,
    the scale and shift rows at block `(0, 0)`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 10 :=
  (by decide +kernel : ∀ t : Fin grid3.N, _)

/-- Window 0's block at point `t` holds rows `5000·t …` of its array. -/
theorem rows3_0 (X : S50000x128.Idx → EReal) (t : Fin cfg3.N) (j : S5000x128.Idx) (i : S50000x128.Idx)
    (h0 : (i 0).val = t.val * 5000 + (j 0).val) (h1 : (i 1).val = (j 1).val) :
    ((cfg3.win 0).blk t).view.read (Elt Ideal) X j = X i := by
  obtain ⟨e0, e1, -⟩ := idx3 t
  rw [View.read_apply]
  refine congrArg X (funext fun a => Fin.ext ?_)
  match a with
  | ⟨0, _⟩ => show win3_0.index t (0 : Fin 2) * 5000 + 1 * (j 0).val = (i 0).val; rw [e0, h0]; omega
  | ⟨1, _⟩ => show win3_0.index t (1 : Fin 2) * 128 + 1 * (j 1).val = (i 1).val; rw [e1, h1]; omega

/-- Window 1's block is its whole row, at every point. -/
theorem whole3_1 (R : S1x128.Idx → EReal) (t : Fin cfg3.N) :
    ((cfg3.win 1).blk t).view.read (Elt Ideal) R = R := by
  obtain ⟨-, -, e0, e1, -⟩ := idx3 t
  funext j
  rw [View.read_apply]
  refine congrArg R (funext fun a => Fin.ext ?_)
  match a with
  | ⟨0, _⟩ => show win3_1.index t (0 : Fin 2) * 1 + 1 * (j 0).val = (j 0).val; rw [e0]; omega
  | ⟨1, _⟩ => show win3_1.index t (1 : Fin 2) * 128 + 1 * (j 1).val = (j 1).val; rw [e1]; omega

/-- Window 2's block is its whole row, at every point. -/
theorem whole3_2 (R : S1x128.Idx → EReal) (t : Fin cfg3.N) :
    ((cfg3.win 2).blk t).view.read (Elt Ideal) R = R := by
  obtain ⟨-, -, -, -, e0, e1, -⟩ := idx3 t
  funext j
  rw [View.read_apply]
  refine congrArg R (funext fun a => Fin.ext ?_)
  match a with
  | ⟨0, _⟩ => show win3_2.index t (0 : Fin 2) * 1 + 1 * (j 0).val = (j 0).val; rw [e0]; omega
  | ⟨1, _⟩ => show win3_2.index t (1 : Fin 2) * 128 + 1 * (j 1).val = (j 1).val; rw [e1]; omega

/-- What point `t` writes back is block `t` of the whole-array function of the arrays the region finds. -/
theorem flushed3 (c : Dev nD) (t : Fin cfg3.N) :
    (dat3 (F := Ideal) V c).flushed 3 t = ((cfg3.win 3).blk t).view.read (Elt Ideal)
      (bnsiluG (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨-, -, -, -, -, -, e0, e1, -⟩ := idx3 t
  funext j
  refine bnsilu_point (k3_pay1 (F := Ideal)) bnsilu_pay3
    (V c (Pipeline.arrRef spec3 0)) (V c (Pipeline.arrRef spec3 1)) (V c (Pipeline.arrRef spec3 2))
    (iblk3 V c 0 t) (iblk3 V c 1 t) (iblk3 V c 2 t) t.val
    (fun j i h0 h1 => rows3_0 (V c (Pipeline.arrRef spec3 0)) t j i h0 h1)
    (whole3_1 (V c (Pipeline.arrRef spec3 1)) t) (whole3_2 (V c (Pipeline.arrRef spec3 2)) t)
    j (((cfg3.win 3).blk t).view.emb j) ?_ ?_
  · show win3_3.index t (0 : Fin 2) * 5000 + 1 * (j 0).val = t.val * 5000 + (j 0).val; rw [e0]; omega
  · show win3_3.index t (1 : Fin 2) * 128 + 1 * (j 1).val = (j 1).val; rw [e1]; omega

/-- An index of the result array is in point `t`'s block iff each coordinate is in the block's range on its axis. -/
theorem mem_blk3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v96).slice (win3_3.rect t)).set ↔ _
  rw [View.set_slice_whole, Rect.mem_set_unit]
  exact Iff.rfl

/-- Row `r` of the result lies in the block of point `r / 5000`: the ten blocks cover the array. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : grid3.N = 10 := N_3
  obtain ⟨t, ht⟩ : ∃ t : Fin cfg3.N, t.val = (i 0).val / 5000 :=
    ⟨⟨(i 0).val / 5000, by show _ < grid3.N; rw [hN]; omega⟩, rfl⟩
  obtain ⟨-, -, -, -, -, -, e0, e1, -⟩ := idx3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e0, ht]; omega
  | ⟨1, _⟩ =>
    show win3_3.index t (1 : Fin 2) * 128 ≤ (i 1).val ∧ (i 1).val < win3_3.index t (1 : Fin 2) * 128 + 128
    rw [e1]; omega

/-- THE ARRAY region 3 leaves: the whole-array function of the arrays it finds. -/
theorem final3 (c : Dev nD) : (dat3 (F := Ideal) V c).arrAt 3 cfg3.N
    = bnsiluG (V c (Pipeline.arrRef spec3 0)) (V c (Pipeline.arrRef spec3 1)) (V c (Pipeline.arrRef spec3 2)) :=
  (dat3 (F := Ideal) V c).arrAt_eq_of_cover 3
    (bnsiluG (V c (Pipeline.arrRef spec3 0)) (V c (Pipeline.arrRef spec3 1)) (V c (Pipeline.arrRef spec3 2)))
    (fun t _ => flushed3 V c t) cover3

/-! ## Region 4: the matrix product -/

/-- The printed index maps of region 4, decided over its ten grid points: the two row windows sit at block row `t`,
    the matrix at block `(0, 0)`. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

/-- Window 0's block at point `t` holds rows `5000·t …` of its array. -/
theorem rows4_0 (X : S50000x128.Idx → EReal) (t : Fin cfg4.N) (j : S5000x128.Idx) (i : S50000x128.Idx)
    (h0 : (i 0).val = t.val * 5000 + (j 0).val) (h1 : (i 1).val = (j 1).val) :
    ((cfg4.win 0).blk t).view.read (Elt Ideal) X j = X i := by
  obtain ⟨e0, e1, -⟩ := idx4 t
  rw [View.read_apply]
  refine congrArg X (funext fun a => Fin.ext ?_)
  match a with
  | ⟨0, _⟩ => show win4_0.index t (0 : Fin 2) * 5000 + 1 * (j 0).val = (i 0).val; rw [e0, h0]; omega
  | ⟨1, _⟩ => show win4_0.index t (1 : Fin 2) * 128 + 1 * (j 1).val = (i 1).val; rw [e1, h1]; omega

/-- Window 1's block is its whole matrix, at every point. -/
theorem whole4_1 (Wm : S128x128.Idx → EReal) (t : Fin cfg4.N) :
    ((cfg4.win 1).blk t).view.read (Elt Ideal) Wm = Wm := by
  obtain ⟨-, -, e0, e1, -⟩ := idx4 t
  funext j
  rw [View.read_apply]
  refine congrArg Wm (funext fun a => Fin.ext ?_)
  match a with
  | ⟨0, _⟩ => show win4_1.index t (0 : Fin 2) * 128 + 1 * (j 0).val = (j 0).val; rw [e0]; omega
  | ⟨1, _⟩ => show win4_1.index t (1 : Fin 2) * 128 + 1 * (j 1).val = (j 1).val; rw [e1]; omega

/-- What point `t` writes back is block `t` of the product of the arrays the region finds. -/
theorem flushed4 (c : Dev nD) (t : Fin cfg4.N) :
    (dat4 (F := Ideal) V c).flushed 2 t = ((cfg4.win 2).blk t).view.read (Elt Ideal)
      (matG (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  obtain ⟨-, -, -, -, e0, e1, -⟩ := idx4 t
  funext j
  refine mat_point (k4_pay1 (F := Ideal)) mat_pay4 (V c (Pipeline.arrRef spec4 0)) (V c (Pipeline.arrRef spec4 1))
    (iblk4 V c 0 t) (iblk4 V c 1 t) t.val
    (fun j i h0 h1 => rows4_0 (V c (Pipeline.arrRef spec4 0)) t j i h0 h1)
    (whole4_1 (V c (Pipeline.arrRef spec4 1)) t) j (((cfg4.win 2).blk t).view.emb j) ?_ ?_
  · show win4_2.index t (0 : Fin 2) * 5000 + 1 * (j 0).val = t.val * 5000 + (j 0).val; rw [e0]; omega
  · show win4_2.index t (1 : Fin 2) * 128 + 1 * (j 1).val = (j 1).val; rw [e1]; omega

/-- An index of the result array is in point `t`'s block iff each coordinate is in the block's range on its axis. -/
theorem mem_blk4 (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v105).slice (win4_2.rect t)).set ↔ _
  rw [View.set_slice_whole, Rect.mem_set_unit]
  exact Iff.rfl

/-- Row `r` of the result lies in the block of point `r / 5000`: the ten blocks cover the array. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  obtain ⟨t, ht⟩ : ∃ t : Fin cfg4.N, t.val = (i 0).val / 5000 :=
    ⟨⟨(i 0).val / 5000, by show _ < grid4.N; rw [hN]; omega⟩, rfl⟩
  obtain ⟨-, -, -, -, e0, e1, -⟩ := idx4 t
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    rw [e0, ht]; omega
  | ⟨1, _⟩ =>
    show win4_2.index t (1 : Fin 2) * 128 ≤ (i 1).val ∧ (i 1).val < win4_2.index t (1 : Fin 2) * 128 + 128
    rw [e1]; omega

/-- THE ARRAY region 4 leaves: the product of the arrays it finds. -/
theorem final4 (c : Dev nD) : (dat4 (F := Ideal) V c).arrAt 2 cfg4.N
    = matG (V c (Pipeline.arrRef spec4 0)) (V c (Pipeline.arrRef spec4 1)) :=
  (dat4 (F := Ideal) V c).arrAt_eq_of_cover 2
    (matG (V c (Pipeline.arrRef spec4 0)) (V c (Pipeline.arrRef spec4 1)))
    (fun t _ => flushed4 V c t) cover4

/-! ## Region 5: scale, shift, `y · logistic y` -/

/-- The printed index maps of region 5, decided over its ten grid points: the two row windows sit at block row `t`,
    the scale and shift rows at block `(0, 0)`. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 10 :=
  (by decide +kernel : ∀ t : Fin grid5.N, _)

/-- Window 0's block at point `t` holds rows `5000·t …` of its array. -/
theorem rows5_0 (X : S50000x128.Idx → EReal) (t : Fin cfg5.N) (j : S5000x128.Idx) (i : S50000x128.Idx)
    (h0 : (i 0).val = t.val * 5000 + (j 0).val) (h1 : (i 1).val = (j 1).val) :
    ((cfg5.win 0).blk t).view.read (Elt Ideal) X j = X i := by
  obtain ⟨e0, e1, -⟩ := idx5 t
  rw [View.read_apply]
  refine congrArg X (funext fun a => Fin.ext ?_)
  match a with
  | ⟨0, _⟩ => show win5_0.index t (0 : Fin 2) * 5000 + 1 * (j 0).val = (i 0).val; rw [e0, h0]; omega
  | ⟨1, _⟩ => show win5_0.index t (1 : Fin 2) * 128 + 1 * (j 1).val = (i 1).val; rw [e1, h1]; omega

/-- Window 1's block is its whole row, at every point. -/
theorem whole5_1 (R : S1x128.Idx → EReal) (t : Fin cfg5.N) :
    ((cfg5.win 1).blk t).view.read (Elt Ideal) R = R := by
  obtain ⟨-, -, e0, e1, -⟩ := idx5 t
  funext j
  rw [View.read_apply]
  refine congrArg R (funext fun a => Fin.ext ?_)
  match a with
  | ⟨0, _⟩ => show win5_1.index t (0 : Fin 2) * 1 + 1 * (j 0).val = (j 0).val; rw [e0]; omega
  | ⟨1, _⟩ => show win5_1.index t (1 : Fin 2) * 128 + 1 * (j 1).val = (j 1).val; rw [e1]; omega

/-- Window 2's block is its whole row, at every point. -/
theorem whole5_2 (R : S1x128.Idx → EReal) (t : Fin cfg5.N) :
    ((cfg5.win 2).blk t).view.read (Elt Ideal) R = R := by
  obtain ⟨-, -, -, -, e0, e1, -⟩ := idx5 t
  funext j
  rw [View.read_apply]
  refine congrArg R (funext fun a => Fin.ext ?_)
  match a with
  | ⟨0, _⟩ => show win5_2.index t (0 : Fin 2) * 1 + 1 * (j 0).val = (j 0).val; rw [e0]; omega
  | ⟨1, _⟩ => show win5_2.index t (1 : Fin 2) * 128 + 1 * (j 1).val = (j 1).val; rw [e1]; omega

/-- What point `t` writes back is block `t` of the whole-array function of the arrays the region finds. -/
theorem flushed5 (c : Dev nD) (t : Fin cfg5.N) :
    (dat5 (F := Ideal) V c).flushed 3 t = ((cfg5.win 3).blk t).view.read (Elt Ideal)
      (bnsiluG (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S5000x128) hz, View.ld_unit_zero (S := S1x128) hz]
  obtain ⟨-, -, -, -, -, -, e0, e1, -⟩ := idx5 t
  funext j
  refine bnsilu_point (k5_pay1 (F := Ideal)) bnsilu_pay5
    (V c (Pipeline.arrRef spec5 0)) (V c (Pipeline.arrRef spec5 1)) (V c (Pipeline.arrRef spec5 2))
    (iblk5 V c 0 t) (iblk5 V c 1 t) (iblk5 V c 2 t) t.val
    (fun j i h0 h1 => rows5_0 (V c (Pipeline.arrRef spec5 0)) t j i h0 h1)
    (whole5_1 (V c (Pipeline.arrRef spec5 1)) t) (whole5_2 (V c (Pipeline.arrRef spec5 2)) t)
    j (((cfg5.win 3).blk t).view.emb j) ?_ ?_
  · show win5_3.index t (0 : Fin 2) * 5000 + 1 * (j 0).val = t.val * 5000 + (j 0).val; rw [e0]; omega
  · show win5_3.index t (1 : Fin 2) * 128 + 1 * (j 1).val = (j 1).val; rw [e1]; omega

/-- An index of the result array is in point `t`'s block iff each coordinate is in the block's range on its axis. -/
theorem mem_blk5 (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v134).slice (win5_3.rect t)).set ↔ _
  rw [View.set_slice_whole, Rect.mem_set_unit]
  exact Iff.rfl

/-- Row `r` of the result lies in the block of point `r / 5000`: the ten blocks cover the array. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : grid5.N = 10 := N_5
  obtain ⟨t, ht⟩ : ∃ t : Fin cfg5.N, t.val = (i 0).val / 5000 :=
    ⟨⟨(i 0).val / 5000, by show _ < grid5.N; rw [hN]; omega⟩, rfl⟩
  obtain ⟨-, -, -, -, -, -, e0, e1, -⟩ := idx5 t
  refine ⟨t, flush5_3 t, ?_⟩
  rw [mem_blk5]
  intro a
  match a with
  | ⟨0, _⟩ =>
    show win5_3.index t (0 : Fin 2) * 5000 ≤ (i 0).val ∧ (i 0).val < win5_3.index t (0 : Fin 2) * 5000 + 5000
    rw [e0, ht]; omega
  | ⟨1, _⟩ =>
    show win5_3.index t (1 : Fin 2) * 128 ≤ (i 1).val ∧ (i 1).val < win5_3.index t (1 : Fin 2) * 128 + 128
    rw [e1]; omega

/-- THE ARRAY region 5 leaves: the whole-array function of the arrays it finds. -/
theorem final5 (c : Dev nD) : (dat5 (F := Ideal) V c).arrAt 3 cfg5.N
    = bnsiluG (V c (Pipeline.arrRef spec5 0)) (V c (Pipeline.arrRef spec5 1)) (V c (Pipeline.arrRef spec5 2)) :=
  (dat5 (F := Ideal) V c).arrAt_eq_of_cover 3
    (bnsiluG (V c (Pipeline.arrRef spec5 0)) (V c (Pipeline.arrRef spec5 1)) (V c (Pipeline.arrRef spec5 2)))
    (fun t _ => flushed5 V c t) cover5

end Cert.KernelIdeal.KRegions

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«143752_j72559177499180_1_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.KFinal.lean ====
/-
  The last layer of the network, as one function of whole arrays.

  The tiled unit's final region runs at a single grid point whose blocks are the whole arrays: the pooled
  features `g : [64, 128]`, two weight matrices `[128, 128]` and two biases laid out as one row `[1, 128]`.
  Its body computes
      out = log_softmax (max (g · w1 + b1, 0) · w2 + b2)        (log_softmax along each row)
  and the reference computes the same thing with host operations. This file says so in three steps:

  * `final6`: after the region, the output array holds the body's result on the input ARRAYS (one point, whole
    blocks: nothing is tiled, so the block-to-array step is a change of names);
  * `mlpR`: the reference's chain of host operations from `g` to its result, as one function;
  * `mlp_eq`: the body's result is `mlpR`. Both sides are cut into the same three stages — a dense layer
    `x · w + b`, the rectifier, the row-wise log-softmax — and each stage's two spellings are compared once,
    entry by entry. Only `0 + x = x` and the meaning of the zero and minus-infinity words are used: the sums
    and maxima on the two sides are the same extended reals, so nothing needs to be finite.
-/
import proofs.«143752_j72559177499180_1_alg».proof.Proof.Gen.KernelIdeal.Frame
import proofs.«143752_j72559177499180_1_alg».proof.ReferenceIdeal
import proofs.«143752_j72559177499180_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«143752_j72559177499180_1_alg».proof.Proof.LibPlainDot
import proofs.«143752_j72559177499180_1_alg».proof.Proof.LibRowLayer

noncomputable section

open scoped BigOperators

namespace Cert.KernelIdeal.KFinal

open Idealize.ShloMosaic Idealize.ShloMosaic.TcCoe Idealize.ShloMosaic.ValueIdx Idealize.SL.Sem
open Idealize.ShloMosaic.Pipeline (Dat)
-- the reference's side conditions, under the names its operations cite them by
open Cert.ReferenceIdeal.Facts₀ (bcast_S128_S1x128_1 bcast_S1x128_S64x128_0_1 bcast_S_S64x128 bcast_S_S64
  bcast_S64_S64x1_0 bcast_S64x1_S64x128_0_1 reducesTo_S64x128_S64_d1 h_S_)

/-! ## The reference's chain, stage by stage -/

/-- A dense layer as the reference spells it: `dot_general` of `x : [64, 128]` with `w : [128, 128]`, plus the bias
    `b : [128]` broadcast first to one row `[1, 128]` and then down the 64 rows. -/
def denseR (x : FVec Ideal S64x128 .f32) (w : FVec Ideal S128x128 .f32) (b : FVec Ideal S128 .f32) :
    FVec Ideal S64x128 .f32 :=
  addf (Host.dotGeneral (F := Ideal) Cert.ReferenceIdeal.dot_S64x128_S128x128_S64x128_1_0_0_1_n_n none x w)
    (broadcastInDim S64x128 ![0, 1] bcast_S1x128_S64x128_0_1 (broadcastInDim S1x128 ![1] bcast_S128_S1x128_1 b))

/-- The reference's rectifier: the maximum with a broadcast zero constant. -/
def reluR (x : FVec Ideal S64x128 .f32) : FVec Ideal S64x128 .f32 :=
  maximumf x (broadcastInDim S64x128 ![] bcast_S_S64x128 (constant (F := Ideal) S_ .f32 0x00000000#32))

/-- The reference's row maximum, spread back over the row: `reduce max` along axis 1 from minus infinity, the maximum
    of that with a broadcast minus infinity, kept as a column `[64, 1]` and broadcast to `[64, 128]`. -/
def rowMaxR (a : FVec Ideal S64x128 .f32) : FVec Ideal S64x128 .f32 :=
  broadcastInDim S64x128 ![0, 1] bcast_S64x1_S64x128_0_1 (broadcastInDim S64x1 ![0] bcast_S64_S64x1_0
    (maximumf (broadcastInDim S64 ![] bcast_S_S64 (constant (F := Ideal) S_ .f32 0xFF800000#32))
      (Host.reduce FloatOps.maximumf a (constant (F := Ideal) S_ .f32 0xFF800000#32) reducesTo_S64x128_S64_d1 h_S_)))

/-- The reference's logarithm of the row sum, spread back over the row: `reduce add` along axis 1 from zero, kept as a
    column, its logarithm, broadcast to `[64, 128]`. -/
def rowLogSumR (e : FVec Ideal S64x128 .f32) : FVec Ideal S64x128 .f32 :=
  broadcastInDim S64x128 ![0, 1] bcast_S64x1_S64x128_0_1 (Host.log (broadcastInDim S64x1 ![0] bcast_S64_S64x1_0
    (Host.reduceAdd (F := Ideal) e (constant (F := Ideal) S_ .f32 0x00000000#32) reducesTo_S64x128_S64_d1 h_S_)))

/-- The reference's `log_softmax`: subtract the row maximum, then subtract the logarithm of the row sum of the
    exponentials of what is left. -/
def logSoftmaxR (a : FVec Ideal S64x128 .f32) : FVec Ideal S64x128 .f32 :=
  subf (subf a (rowMaxR a)) (rowLogSumR (Host.exp (subf a (rowMaxR a))))

/-- The reference's chain from the pooled features to its result: dense, rectifier, dense, log-softmax. -/
def mlpR (g : FVec Ideal S64x128 .f32) (w1 : FVec Ideal S128x128 .f32) (b1 : FVec Ideal S128 .f32)
    (w2 : FVec Ideal S128x128 .f32) (b2 : FVec Ideal S128 .f32) : FVec Ideal S64x128 .f32 :=
  logSoftmaxR (denseR (reluR (denseR g w1 b1)) w2 b2)

/-! ## The tiled unit's body, cut at the same places -/

/-- A dense layer as the body spells it: both operands' float format changed (the identity on extended reals), a
    plain matrix product into a zero accumulator, plus the bias row `r : [1, 128]` broadcast down the rows. -/
def denseK (x : FVec Ideal S64x128 .f32) (w : FVec Ideal S128x128 .f32) (r : FVec Ideal S1x128 .f32) :
    FVec Ideal S64x128 .f32 :=
  addf (matmul dot_S64x128_S128x128_S64x128_1_0_0_1_n_n none (truncf .bf16 x Gen.bitsLt_bf16_f32)
      (truncf .bf16 w Gen.bitsLt_bf16_f32) (constant S64x128 .f32 0x00000000#32))
    (broadcastTo S64x128 (shapeCast S1x128 r Gen.shapeCasts_S1x128_S1x128) Gen.broadcasts_S1x128_S64x128)

/-- The body's rectifier: the maximum with a splat of the zero scalar. -/
def reluK (x : FVec Ideal S64x128 .f32) : FVec Ideal S64x128 .f32 :=
  maximumf x (broadcast S64x128 (Scalar.ofBits (F := Ideal) .f32 0x00000000#32))

/-- The body's row maximum, spread back over the row: a reduction along axis 1 with the accumulator minus infinity, the
    maximum of that with a splat of minus infinity, viewed as a column `[64, 1]` and broadcast to `[64, 128]`. -/
def rowMaxK (a : FVec Ideal S64x128 .f32) : FVec Ideal S64x128 .f32 :=
  broadcastTo S64x128 (shapeCast S64x1
    (maximumf (broadcast S64 (Scalar.ofBits (F := Ideal) .f32 0xFF800000#32))
      (multiReduction .maximumf [1] S64 a 0xFF800000#32 Gen.reduces_S64x128_S64 (.inl rfl) rfl))
    Gen.shapeCasts_S64_S64x1) Gen.broadcasts_S64x1_S64x128

/-- The body's logarithm of the row sum, spread back over the row. -/
def rowLogSumK (e : FVec Ideal S64x128 .f32) : FVec Ideal S64x128 .f32 :=
  broadcastTo S64x128 (log (shapeCast S64x1
    (multiReduction .add [1] S64 e 0x00000000#32 Gen.reduces_S64x128_S64 (.inl rfl) rfl)
    Gen.shapeCasts_S64_S64x1)) Gen.broadcasts_S64x1_S64x128

/-- The body's log-softmax. -/
def logSoftmaxK (a : FVec Ideal S64x128 .f32) : FVec Ideal S64x128 .f32 :=
  subf (subf a (rowMaxK a)) (rowLogSumK (exp (subf a (rowMaxK a))))

/-- The body's one stored value is these stages composed (the first operand passes through a shape cast to its own
    shape first): the body's own sequence of operations, regrouped. -/
theorem pay_eq (x0 : Vec Ideal S64x128 .f32) (x1 : Vec Ideal S128x128 .f32) (x2 : Vec Ideal S1x128 .f32)
    (x3 : Vec Ideal S128x128 .f32) (x4 : Vec Ideal S1x128 .f32) :
    Gen.k6_pay1 (F := Ideal) x0 x1 x2 x3 x4
      = logSoftmaxK (denseK (reluK (denseK (shapeCast S64x128 x0 Gen.shapeCasts_S64x128_S64x128) x1 x2)) x3 x4) := rfl

/-! ## From the one block to the array -/

variable (V : (c : Dev nD) → (b : Ref sig .tc) → Buf (Elt Ideal) ((c : Thread nD τ).loc b))

theorem hz : (![0, 0] : Fin 2 → Nat) = fun _ => 0 := funext fun a => by fin_cases a <;> rfl

/-- The body loads its five whole staging buffers and stores one whole buffer, so what it leaves there is its
    stored value of the buffers' contents. -/
theorem out6_5_eq (x0 : Vec Ideal S64x128 .f32) (x1 : Vec Ideal S128x128 .f32) (x2 : Vec Ideal S1x128 .f32)
    (x3 : Vec Ideal S128x128 .f32) (x4 : Vec Ideal S1x128 .f32) :
    Gen.out6_5 (F := Ideal) x0 x1 x2 x3 x4 = Gen.k6_pay1 x0 x1 x2 x3 x4 := by
  unfold Gen.out6_5
  rw [View.canon_unit_zero hz]
  simp only [View.ld_unit_zero (S := S64x128) hz, View.ld_unit_zero (S := S128x128) hz,
    View.ld_unit_zero (S := S1x128) hz]

/-- Every window's index map is constantly `(0, 0)`, so each block starts at offset zero on both axes. -/
theorem off0 (t : Fin cfg6.N) : (fun a => win6_0.index t a * main_v146.ty.shape.size a) = fun _ => 0 :=
  funext fun a => by fin_cases a <;> rfl
theorem off1 (t : Fin cfg6.N) : (fun a => win6_1.index t a * main_arg12.ty.shape.size a) = fun _ => 0 :=
  funext fun a => by fin_cases a <;> rfl
theorem off2 (t : Fin cfg6.N) : (fun a => win6_2.index t a * main_v147.ty.shape.size a) = fun _ => 0 :=
  funext fun a => by fin_cases a <;> rfl
theorem off3 (t : Fin cfg6.N) : (fun a => win6_3.index t a * main_arg14.ty.shape.size a) = fun _ => 0 :=
  funext fun a => by fin_cases a <;> rfl
theorem off4 (t : Fin cfg6.N) : (fun a => win6_4.index t a * main_v148.ty.shape.size a) = fun _ => 0 :=
  funext fun a => by fin_cases a <;> rfl
theorem off5 (t : Fin cfg6.N) : (fun a => win6_5.index t a * main_v149.ty.shape.size a) = fun _ => 0 :=
  funext fun a => by fin_cases a <;> rfl

/-- Each input window's block is its whole array: the block has the array's extents and starts at zero. -/
theorem iblk6_0 (c : Dev nD) (t : Fin cfg6.N) : Gen.iblk6 (F := Ideal) V c 0 t = V c (Pipeline.arrRef spec6 0) :=
  Memref.read_access_unit_zero (Elt Ideal) main_v146 (off0 t) (fun a => by rw [congrFun (off0 t) a]; simp) _
theorem iblk6_1 (c : Dev nD) (t : Fin cfg6.N) : Gen.iblk6 (F := Ideal) V c 1 t = V c (Pipeline.arrRef spec6 1) :=
  Memref.read_access_unit_zero (Elt Ideal) main_arg12 (off1 t) (fun a => by rw [congrFun (off1 t) a]; simp) _
theorem iblk6_2 (c : Dev nD) (t : Fin cfg6.N) : Gen.iblk6 (F := Ideal) V c 2 t = V c (Pipeline.arrRef spec6 2) :=
  Memref.read_access_unit_zero (Elt Ideal) main_v147 (off2 t) (fun a => by rw [congrFun (off2 t) a]; simp) _
theorem iblk6_3 (c : Dev nD) (t : Fin cfg6.N) : Gen.iblk6 (F := Ideal) V c 3 t = V c (Pipeline.arrRef spec6 3) :=
  Memref.read_access_unit_zero (Elt Ideal) main_arg14 (off3 t) (fun a => by rw [congrFun (off3 t) a]; simp) _
theorem iblk6_4 (c : Dev nD) (t : Fin cfg6.N) : Gen.iblk6 (F := Ideal) V c 4 t = V c (Pipeline.arrRef spec6 4) :=
  Memref.read_access_unit_zero (Elt Ideal) main_v148 (off4 t) (fun a => by rw [congrFun (off4 t) a]; simp) _

/-- What the one point writes back is the body's result on the input arrays, read through the output window's block,
    which is the whole output array. -/
theorem flushed6 (c : Dev nD) (t : Fin cfg6.N) :
    (Gen.dat6 (F := Ideal) V c).flushed 5 t
      = ((cfg6.win 5).blk t).view.read (Elt Ideal)
          (Gen.out6_5 (F := Ideal) (V c (Pipeline.arrRef spec6 0)) (V c (Pipeline.arrRef spec6 1))
            (V c (Pipeline.arrRef spec6 2)) (V c (Pipeline.arrRef spec6 3)) (V c (Pipeline.arrRef spec6 4))) := by
  show (cfg6.win 5).cut (grid6.coords t) ((Gen.dat6 (F := Ideal) V c).after 5 t) = _
  rw [Gen.after6_5, iblk6_0, iblk6_1, iblk6_2, iblk6_3, iblk6_4]
  exact (Memref.read_access_unit_zero (Elt Ideal) main_v149 (off5 t) (fun a => by rw [congrFun (off5 t) a]; simp) _).symm

/-- The one point's output block is the whole output array, so every index is covered. -/
theorem cover6 (i : S64x128.Idx) :
    ∃ t : Fin cfg6.N, (cfg6.win 5).flush t = true ∧ i ∈ ((cfg6.win 5).blk t).view.set := by
  have ht : 0 < cfg6.N := by decide
  refine ⟨⟨0, ht⟩, Gen.flush6_5 _, ?_⟩
  -- the block's index `i` sits in the array at `0 · extent + 1 · i` on each axis, which is `i`
  have e : ((cfg6.win 5).blk ⟨0, ht⟩).view.emb i = i := funext fun a => Fin.ext (by
    match a with
    | ⟨0, _⟩ => show 0 * 64 + 1 * (i 0).val = (i 0).val; omega
    | ⟨1, _⟩ => show 0 * 128 + 1 * (i 1).val = (i 1).val; omega)
  have h := ((cfg6.win 5).blk ⟨0, ht⟩).view.emb_mem_set i
  rw [e] at h
  exact h

/-- After the region the output array holds the body's result on the input arrays as the region found them. -/
theorem final6 (c : Dev nD) :
    (Gen.dat6 (F := Ideal) V c).arrAt 5 cfg6.N
      = Gen.out6_5 (F := Ideal) (V c (Pipeline.arrRef spec6 0)) (V c (Pipeline.arrRef spec6 1))
          (V c (Pipeline.arrRef spec6 2)) (V c (Pipeline.arrRef spec6 3)) (V c (Pipeline.arrRef spec6 4)) :=
  (Gen.dat6 (F := Ideal) V c).arrAt_eq_of_cover 5 _ (fun t _ => flushed6 V c t) cover6

/-! ## The two spellings of each stage agree -/

/-- Both records are the plain product: contract the left operand's columns against the right operand's rows. -/
theorem plainK : Cert.PlainDot.IsPlain dot_S64x128_S128x128_S64x128_1_0_0_1_n_n := ⟨rfl, rfl, rfl, rfl, rfl, rfl⟩
theorem plainR : Cert.PlainDot.IsPlain Cert.ReferenceIdeal.dot_S64x128_S128x128_S64x128_1_0_0_1_n_n :=
  ⟨rfl, rfl, rfl, rfl, rfl, rfl⟩

/-- The bias as the tiled unit's program lays it out before the region, a `[128]` vector viewed as one row
    `[1, 128]`, reads at `(0, q)` the vector's entry `q`. -/
theorem row_apply (b : FVec Ideal S128 .f32) (q : Fin 128) :
    shapeCast S1x128 b Gen.shapeCasts_S128_S1x128 (ix2 (0 : Fin 1) q) = b (ix1 q) :=
  shapeCast_a_1a_apply b Gen.shapeCasts_S128_S1x128 0 q

/-- The reference's first broadcast of the bias, `[128]` to one row `[1, 128]` along axis 1, reads the same entry. -/
theorem rowR_apply (b : FVec Ideal S128 .f32) (q : Fin 128) :
    broadcastInDim S1x128 ![1] bcast_S128_S1x128_1 b (ix2 (0 : Fin 1) q) = b (ix1 q) :=
  broadcastInDim_apply ![1] bcast_S128_S1x128_1 b (ix2 (0 : Fin 1) q) (ix1 q) fun a => by
    match a with
    | ⟨0, _⟩ => show q.val = if (128 : ℕ) = 1 then 0 else q.val; exact (if_neg (by decide)).symm

/-- Entry `(p, q)` of the body's dense layer: `∑ k, x (p, k) · w (k, q)` plus the bias row's entry `q`. -/
theorem denseK_apply (x : FVec Ideal S64x128 .f32) (w : FVec Ideal S128x128 .f32) (r : FVec Ideal S1x128 .f32)
    (p : Fin 64) (q : Fin 128) :
    denseK x w r (ix2 p q) = (∑ k : Fin 128, x (ix2 p k) * w (ix2 k q)) + r (ix2 (0 : Fin 1) q) := by
  unfold denseK
  rw [addf_apply, shapeCast_self]
  exact congrArg₂ (· + ·)
    ((Ideal.matmul_constant_zero_apply dot_S64x128_S128x128_S64x128_1_0_0_1_n_n none _ _ (ix2 p q)).trans
      (Cert.PlainDot.sum_contr dot_S64x128_S128x128_S64x128_1_0_0_1_n_n plainK
        (truncf .bf16 x Gen.bitsLt_bf16_f32) (truncf .bf16 w Gen.bitsLt_bf16_f32) p q))
    (broadcastTo_1b_ab_apply r Gen.broadcasts_S1x128_S64x128 p q)

/-- Entry `(p, q)` of the reference's dense layer: the same sum plus the bias vector's entry `q`. -/
theorem denseR_apply (x : FVec Ideal S64x128 .f32) (w : FVec Ideal S128x128 .f32) (b : FVec Ideal S128 .f32)
    (p : Fin 64) (q : Fin 128) :
    denseR x w b (ix2 p q) = (∑ k : Fin 128, x (ix2 p k) * w (ix2 k q)) + b (ix1 q) := by
  unfold denseR
  rw [addf_apply]
  exact congrArg₂ (· + ·)
    (Cert.PlainDot.dotGeneral_apply Cert.ReferenceIdeal.dot_S64x128_S128x128_S64x128_1_0_0_1_n_n plainR none x w p q)
    ((broadcastInDim_oneRow_apply bcast_S1x128_S64x128_0_1 _ p q).trans (rowR_apply b q))

/-- THE DENSE LAYER: on the bias laid out as one row, the body's layer is the reference's. -/
theorem dense_eq (x : FVec Ideal S64x128 .f32) (w : FVec Ideal S128x128 .f32) (b : FVec Ideal S128 .f32) :
    denseK x w (shapeCast S1x128 b Gen.shapeCasts_S128_S1x128) = denseR x w b := by
  funext j
  obtain ⟨p, q, rfl⟩ : ∃ (p : Fin 64) (q : Fin 128), j = ix2 p q := ⟨j 0, j 1, eq_ix2 j⟩
  rw [denseK_apply, denseR_apply, row_apply]

/-- THE RECTIFIER: a splat of the zero scalar is the broadcast of the zero constant. -/
theorem relu_eq (x : FVec Ideal S64x128 .f32) : reluK x = reluR x := by
  unfold reluK reluR
  exact congrArg (maximumf x) (funext fun _ => rfl)

/-- What both row maxima are at row `p`: the maximum of minus infinity's word with the fold of `max` over the row
    from that same word. -/
def rowTop (a : FVec Ideal S64x128 .f32) (p : Fin 64) : EReal :=
  max (Ideal.ofBits .f32 0xFF800000#32)
    ((Finset.univ : Finset (Fin 128)).fold max (Ideal.ofBits .f32 0xFF800000#32) fun k => a (ix2 p k))

/-- The reference's two keepdims broadcasts, `[64]` to a column `[64, 1]` and the column to `[64, 128]`, read at
    `(p, c)` the vector's entry `p`. -/
theorem colR_apply (v : FVec Ideal S64 .f32) (p : Fin 64) (c : Fin 128) :
    broadcastInDim S64x128 ![0, 1] bcast_S64x1_S64x128_0_1 (broadcastInDim S64x1 ![0] bcast_S64_S64x1_0 v) (ix2 p c)
      = v (ix1 p) :=
  (broadcastInDim_apply ![0, 1] bcast_S64x1_S64x128_0_1 _ (ix2 p c) (ix2 p (0 : Fin 1)) fun a => by
      match a with
      | ⟨0, _⟩ => show p.val = if (64 : ℕ) = 1 then 0 else p.val; exact (if_neg (by decide)).symm
      | ⟨1, _⟩ => rfl).trans
    (broadcastInDim_apply ![0] bcast_S64_S64x1_0 v (ix2 p (0 : Fin 1)) (ix1 p) fun a => by
      match a with
      | ⟨0, _⟩ => show p.val = if (64 : ℕ) = 1 then 0 else p.val; exact (if_neg (by decide)).symm)

/-- The body's two keepdims steps, `[64]` viewed as a column and the column broadcast to `[64, 128]`, likewise. -/
theorem colK_apply (v : FVec Ideal S64 .f32) (p : Fin 64) (c : Fin 128) :
    broadcastTo S64x128 (shapeCast S64x1 v Gen.shapeCasts_S64_S64x1) Gen.broadcasts_S64x1_S64x128 (ix2 p c)
      = v (ix1 p) :=
  (Cert.RowLayer.broadcastTo_a1_ab_apply _ Gen.broadcasts_S64x1_S64x128 p c).trans
    (Cert.RowLayer.shapeCast_a_a1_apply v Gen.shapeCasts_S64_S64x1 p 0)

theorem rowMaxK_apply (a : FVec Ideal S64x128 .f32) (p : Fin 64) (c : Fin 128) : rowMaxK a (ix2 p c) = rowTop a p := by
  unfold rowMaxK
  refine (colK_apply _ p c).trans ?_
  refine (maximumf_apply _ _ _).trans ?_
  exact congrArg (max (Ideal.ofBits .f32 0xFF800000#32))
    (Cert.RowLayer.rowMax_apply a 0xFF800000#32 Gen.reduces_S64x128_S64 (.inl rfl) rfl p)

theorem rowMaxR_apply (a : FVec Ideal S64x128 .f32) (p : Fin 64) (c : Fin 128) : rowMaxR a (ix2 p c) = rowTop a p := by
  unfold rowMaxR
  refine (colR_apply _ p c).trans ?_
  refine (maximumf_apply _ _ _).trans ?_
  exact congrArg (max (Ideal.ofBits .f32 0xFF800000#32))
    (Cert.RowLayer.hostRowMax_apply a _ reducesTo_S64x128_S64_d1 Gen.reduces_S64x128_S64 h_S_ p)

/-- THE ROW MAXIMUM: the same array in both spellings. -/
theorem rowMax_eq (a : FVec Ideal S64x128 .f32) : rowMaxK a = rowMaxR a := by
  funext j
  obtain ⟨p, c, rfl⟩ : ∃ (p : Fin 64) (c : Fin 128), j = ix2 p c := ⟨j 0, j 1, eq_ix2 j⟩
  rw [rowMaxK_apply, rowMaxR_apply]

theorem rowLogSumK_apply (e : FVec Ideal S64x128 .f32) (p : Fin 64) (c : Fin 128) :
    rowLogSumK e (ix2 p c) = Ideal.log (∑ k : Fin 128, e (ix2 p k)) := by
  unfold rowLogSumK
  refine (Cert.RowLayer.broadcastTo_a1_ab_apply _ Gen.broadcasts_S64x1_S64x128 p c).trans ?_
  exact congrArg Ideal.log ((Cert.RowLayer.shapeCast_a_a1_apply _ Gen.shapeCasts_S64_S64x1 p 0).trans
    (Cert.RowLayer.rowSum_apply e 0x00000000#32 Gen.reduces_S64x128_S64 (.inl rfl) rfl p))

theorem rowLogSumR_apply (e : FVec Ideal S64x128 .f32) (p : Fin 64) (c : Fin 128) :
    rowLogSumR e (ix2 p c) = Ideal.log (∑ k : Fin 128, e (ix2 p k)) := by
  unfold rowLogSumR
  refine (broadcastInDim_apply ![0, 1] bcast_S64x1_S64x128_0_1 _ (ix2 p c) (ix2 p (0 : Fin 1)) fun a => by
      match a with
      | ⟨0, _⟩ => show p.val = if (64 : ℕ) = 1 then 0 else p.val; exact (if_neg (by decide)).symm
      | ⟨1, _⟩ => rfl).trans ?_
  refine congrArg Ideal.log ?_
  refine (broadcastInDim_apply ![0] bcast_S64_S64x1_0 _ (ix2 p (0 : Fin 1)) (ix1 p) fun a => by
      match a with
      | ⟨0, _⟩ => show p.val = if (64 : ℕ) = 1 then 0 else p.val; exact (if_neg (by decide)).symm).trans ?_
  refine (Cert.RowLayer.hostRowSum_apply e _ reducesTo_S64x128_S64_d1 Gen.reduces_S64x128_S64 h_S_ p).trans ?_
  rw [constant_apply, Ideal.ofBits_zero_f32, zero_add]

/-- THE LOGARITHM OF THE ROW SUM: the reference's sum starts from the zero constant, and `0 + s = s`. -/
theorem rowLogSum_eq (e : FVec Ideal S64x128 .f32) : rowLogSumK e = rowLogSumR e := by
  funext j
  obtain ⟨p, c, rfl⟩ : ∃ (p : Fin 64) (c : Fin 128), j = ix2 p c := ⟨j 0, j 1, eq_ix2 j⟩
  rw [rowLogSumK_apply, rowLogSumR_apply]

/-- THE LOG-SOFTMAX: the same subtractions of the same two arrays; the host's exponential is the exponential. -/
theorem logSoftmax_eq (a : FVec Ideal S64x128 .f32) : logSoftmaxK a = logSoftmaxR a := by
  unfold logSoftmaxK logSoftmaxR
  rw [rowMax_eq, rowLogSum_eq]
  rfl

/-- THE BODY IS THE REFERENCE'S CHAIN: on the features, the two weight matrices and the two biases laid out as rows,
    what the body leaves in the output buffer is `mlpR`. -/
theorem mlp_eq (g : FVec Ideal S64x128 .f32) (w1 : FVec Ideal S128x128 .f32) (b1 : FVec Ideal S128 .f32)
    (w2 : FVec Ideal S128x128 .f32) (b2 : FVec Ideal S128 .f32) :
    Gen.out6_5 (F := Ideal) g w1 (shapeCast S1x128 b1 Gen.shapeCasts_S128_S1x128) w2
        (shapeCast S1x128 b2 Gen.shapeCasts_S128_S1x128)
      = mlpR g w1 b1 w2 b2 := by
  rw [out6_5_eq, pay_eq, shapeCast_self, dense_eq, relu_eq, dense_eq, logSoftmax_eq]
  rfl

end Cert.KernelIdeal.KFinal

end
-- ==== Proof.KSpec.lean ====
/-
  The host-side pieces of the network in the kernel program's own operations.

  The kernel program computes the edge list, the edge weights, each layer's aggregation, the per-channel mean and
  variance and the pooling with the SAME host operations as the reference; only the matrix products, the
  normalise-and-gate step and the perceptron run as kernel regions.  The definitions here are the literal compositions
  of the kernel program's printed host operations (the reference's definitions of the same names, stated over this
  program's own dimension records), plus what the kernel's host code computes INSTEAD of the reference's
  normalisation: the per-channel scale `γ · rstd` and shift `β − mean · (γ · rstd)`, each re-laid as a 1×128 row for
  the kernel region.
-/
import proofs.«143752_j72559177499180_1_alg».proof.KernelIdeal
import Idealize.ShloMosaic.PureOps.Ideal

noncomputable section

namespace Cert.KernelIdeal.KSpec

open Cert.KernelIdeal Idealize.ShloMosaic

variable [Facts₀]
open Facts₀

abbrev Nodes := FVec Ideal S50000x128 .f32
abbrev Chan := FVec Ideal S128 .f32
abbrev Sq := FVec Ideal S128x128 .f32
abbrev Ends := IVec S850000 32
abbrev Wts := FVec Ideal S850000 .f32
abbrev Pooled := FVec Ideal S64x128 .f32
abbrev Row := FVec Ideal S1x128 .f32

/-! ## The edge list and its weights -/

/-- The edges' source nodes, then one self loop per node. -/
def src (e : IVec S2x800000 32) : Ends :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The edges' destination nodes, then one self loop per node. -/
def dst (e : IVec S2x800000 32) : Ends :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- An index vector as the column of start indices a scatter takes. -/
def col (i : Ends) : IVec S850000x1 32 := broadcastInDim S850000x1 ![0] bcast_S850000_S850000x1_0 i

/-- An index vector as the column a gather takes: a negative index counts from the end (50000 is added to it). -/
def wrapCol (i : Ends) : IVec S850000x1 32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- A node's in-degree: a one added per edge into it. -/
def deg (d : Ends) : FVec Ideal S50000 .f32 :=
  Host.scatterAdd scatter_S50000_S850000x1_S850000_n_0_0_1 (broadcastInDim S50000 ![] bcast_S_S50000 (constant S_ .f32 0x00000000#32))
    (col d) (broadcastInDim S850000 ![] bcast_S_S850000 (constant S_ .f32 0x3F800000#32))

/-- `1 / sqrt (max (in-degree, 1))`. -/
def dinv (d : Ends) : FVec Ideal S50000 .f32 :=
  Host.rsqrt (maximumf (deg d) (broadcastInDim S50000 ![] bcast_S_S50000 (constant S_ .f32 0x3F800000#32)))

/-- An edge's weight: the product of `dinv` at its two ends. -/
def nrm (s d : Ends) : Wts :=
  mulf (Host.gather gather_S50000_S850000x1_S850000_n_0_n_n_0_1_1 (dinv d) (wrapCol s))
    (Host.gather gather_S50000_S850000x1_S850000_n_0_n_n_0_1_1 (dinv d) (wrapCol d))

/-- A per-channel vector repeated along the node axis. -/
def rowBc (v : Chan) : Nodes :=
  broadcastInDim S50000x128 ![0, 1] bcast_S1x128_S50000x128_0_1 (broadcastInDim S1x128 ![1] bcast_S128_S1x128_1 v)

/-- The aggregation: every node adds up, over the edges into it, the edge's weight times the source node's row; then
    the bias. -/
def agg (hW : Nodes) (b : Chan) (s d : Ends) (ν : Wts) : Nodes :=
  addf (Host.scatterAdd scatter_S50000x128_S850000x1_S850000x128_1_0_0_1
      (broadcastInDim S50000x128 ![] bcast_S_S50000x128 (constant S_ .f32 0x00000000#32)) (col d)
      (mulf (Host.gather gather_S50000x128_S850000x1_S850000x128_1_0_n_n_0_1_1128 hW (wrapCol s))
        (broadcastInDim S850000x128 ![0, 1] bcast_S850000x1_S850000x128_0_1 (broadcastInDim S850000x1 ![0] bcast_S850000_S850000x1_0 ν))))
    (rowBc b)

/-- The sum over the node axis. -/
def colSum (a : Nodes) : Chan := Host.reduceAdd a (constant S_ .f32 0x00000000#32) reducesTo_S50000x128_S128_d0 h_S_

/-- The per-channel mean over the nodes. -/
def mean (a : Nodes) : Chan :=
  Host.divf (colSum a) (broadcastInDim S128 ![] bcast_S_S128 (constant S_ .f32 0x47435000#32))

/-- The features with the per-channel mean taken off, as the variance computes it (the mean kept as a 1×128 row). -/
def centred (a : Nodes) : Nodes :=
  subf a (broadcastInDim S50000x128 ![0, 1] bcast_S1x128_S50000x128_0_1
    (Host.divf (broadcastInDim S1x128 ![1] bcast_S128_S1x128_1 (colSum a))
      (broadcastInDim S1x128 ![] bcast_S_S1x128 (constant S_ .f32 0x47435000#32))))

/-- The variance's divisor: the number of nodes less the correction `0`. -/
def cnt : FVec Ideal S_ .f32 := subf (constant S_ .f32 0x47435000#32) (sitofp .f32 (constantI S_ 32 0#32))

/-- The per-channel biased variance over the nodes (the quotient is taken when the divisor is positive). -/
def var (a : Nodes) : Chan :=
  select (broadcastInDim S128 ![] bcast_S_S128 (cmpf .ogt cnt (constant S_ .f32 0x00000000#32)))
    (Host.divf (colSum (mulf (centred a) (centred a))) (broadcastInDim S128 ![] bcast_S_S128 cnt))
    (broadcastInDim S128 ![] bcast_S_S128 (id (constant S_ .f32 0x7FC00000#32)))

/-- `1 / sqrt (variance + ε)`. -/
def rstd (a : Nodes) : Chan :=
  Host.rsqrt (addf (var a) (broadcastInDim S128 ![] bcast_S_S128 (constant S_ .f32 0x3727C5AC#32)))

/-! ## What the kernel's host code hands the normalise-and-gate region -/

/-- The per-channel scale `γ · rstd`. -/
def scale (a : Nodes) (γ : Chan) : Chan := mulf γ (rstd a)

/-- The per-channel shift `β − mean · (γ · rstd)`. -/
def shift (a : Nodes) (γ β : Chan) : Chan := subf β (mulf (mean a) (scale a γ))

/-- A per-channel vector re-laid as a 1×128 row. -/
def row (v : Chan) : Row := shapeCast S1x128 v shapeCasts_S128_S1x128

/-! ## The stacked parameters' slices -/

def sq0 (W : FVec Ideal S2x128x128 .f32) : Sq :=
  shapeCast S128x128 (extractStridedSlice S1x128x128 ![0, 0, 0] W slices_S2x128x128_S1x128x128_0_0_0) shapeCasts_S1x128x128_S128x128
def sq1 (W : FVec Ideal S2x128x128 .f32) : Sq :=
  shapeCast S128x128 (extractStridedSlice S1x128x128 ![1, 0, 0] W slices_S2x128x128_S1x128x128_1_0_0) shapeCasts_S1x128x128_S128x128
def ch0 (v : FVec Ideal S2x128 .f32) : Chan :=
  shapeCast S128 (extractStridedSlice S1x128 ![0, 0] v slices_S2x128_S1x128_0_0) shapeCasts_S1x128_S128
def ch1 (v : FVec Ideal S2x128 .f32) : Chan :=
  shapeCast S128 (extractStridedSlice S1x128 ![1, 0] v slices_S2x128_S1x128_1_0) shapeCasts_S1x128_S128

/-! ## The pooling -/

/-- The mean of the node features per graph (a graph without nodes divides by 1). -/
def pool (h : Nodes) (batch : IVec S50000 32) : Pooled :=
  Host.divf
    (Host.scatterAdd scatter_S64x128_S50000x1_S50000x128_1_0_0_1 (broadcastInDim S64x128 ![] bcast_S_S64x128 (constant S_ .f32 0x00000000#32))
      (broadcastInDim S50000x1 ![0] bcast_S50000_S50000x1_0 batch) h)
    (broadcastInDim S64x128 ![0, 1] bcast_S64x1_S64x128_0_1 (broadcastInDim S64x1 ![0] bcast_S64_S64x1_0
      (maximumf (Host.scatterAdd scatter_S64_S50000x1_S50000_n_0_0_1 (broadcastInDim S64 ![] bcast_S_S64 (constant S_ .f32 0x00000000#32))
          (broadcastInDim S50000x1 ![0] bcast_S50000_S50000x1_0 batch) (broadcastInDim S50000 ![] bcast_S_S50000 (constant S_ .f32 0x3F800000#32)))
        (broadcastInDim S64 ![] bcast_S_S64 (constant S_ .f32 0x3F800000#32)))))

end Cert.KernelIdeal.KSpec

end
-- ==== Proof.KHost.lean ====
/-
  The kernel program's stretches of host operations, read back.

  Between its kernel regions the program runs plain host operations.  For a stretch `ops` and ANY buffer contents
  `W` at its entry, `StableHlo.after ops W b` is what buffer `b` holds after the stretch; each lemma below reads one
  buffer the later regions consume, as the stretch's operations composed over the entry contents of the buffers they
  read — stated with the definitions of `KSpec` so that the three layers visibly use the same functions.
-/
import proofs.«143752_j72559177499180_1_alg».proof.Proof.Gen.KernelIdeal.Launch
import proofs.«143752_j72559177499180_1_alg».proof.Proof.KSpec
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

/-- Read a buffer after a literal stretch: one simplification pass over the operations' result lemmas, then the
    same lemmas by rewriting for what the pass leaves under the pairs of a `concatenate`. -/
macro "read_stretch" : tactic =>
  `(tactic| (after_results_simp
             try (repeat (first
               | rw [nullary_result] | rw [unary_result] | rw [binary_result] | rw [ternary_result] | rw [reshape_result]
               | (rw [nullary_result_ne]; rotate_left; decide) | (rw [unary_result_ne]; rotate_left; decide)
               | (rw [binary_result_ne]; rotate_left; decide) | (rw [ternary_result_ne]; rotate_left; decide)
               | (rw [reshape_result_ne]; rotate_left; decide)))))

variable (W : Valuation τ sig (Elt Ideal))

/-! ## Stretch 0: the edge list and its weights -/

theorem s0_src : after (hostOps0 (F := Ideal)) W (Proc.devRef .tc main_v3) = KSpec.src (W (Proc.devRef Proc.tc main_arg1)) := by
  read_stretch; rfl

theorem s0_dst : after (hostOps0 (F := Ideal)) W (Proc.devRef .tc main_v6) = KSpec.dst (W (Proc.devRef Proc.tc main_arg1)) := by
  read_stretch; rfl

set_option maxHeartbeats 4000000 in
theorem s0_nrm : after (hostOps0 (F := Ideal)) W (Proc.devRef .tc main_v28)
    = KSpec.nrm (KSpec.src (W (Proc.devRef Proc.tc main_arg1))) (KSpec.dst (W (Proc.devRef Proc.tc main_arg1))) := by
  read_stretch; rfl

/-! ## Stretch 1 (three pieces): aggregation and bias, the mean; the variance; the scale and the shift as rows -/

theorem s1_agg : after (hostOps1 (F := Ideal)) W (Proc.devRef .tc main_v45)
    = KSpec.agg (W (Proc.devRef Proc.tc main_v29)) (W (Proc.devRef Proc.tc main_arg5)) (W (Proc.devRef Proc.tc main_v3)) (W (Proc.devRef Proc.tc main_v6)) (W (Proc.devRef Proc.tc main_v28)) := by
  read_stretch; rfl

theorem s1_mean : after (hostOps1 (F := Ideal)) W (Proc.devRef .tc main_v48)
    = KSpec.mean (KSpec.agg (W (Proc.devRef Proc.tc main_v29)) (W (Proc.devRef Proc.tc main_arg5)) (W (Proc.devRef Proc.tc main_v3)) (W (Proc.devRef Proc.tc main_v6)) (W (Proc.devRef Proc.tc main_v28))) := by
  read_stretch; rfl

theorem s1_ddof : after (hostOps1 (F := Ideal)) W (Proc.devRef .tc main_c_10) = constantI S_ 32 0#32 := by
  read_stretch

theorem s1_var (hk : (W (Proc.devRef Proc.tc main_c_10)) = constantI S_ 32 0#32) :
    after (hostOps1_1 (F := Ideal)) W (Proc.devRef .tc main_v49) = KSpec.var (W (Proc.devRef Proc.tc main_v45)) := by
  read_stretch; rw [hk]; rfl

theorem s1_scale : after (hostOps1_2 (F := Ideal)) W (Proc.devRef .tc main_v56)
    = KSpec.row (mulf (W (Proc.devRef Proc.tc main_arg6)) (Host.rsqrt (addf (W (Proc.devRef Proc.tc main_v49)) (broadcastInDim S128 ![] Facts₀.bcast_S_S128 (constant S_ .f32 0x3727C5AC#32))))) := by
  read_stretch; rfl

theorem s1_shift : after (hostOps1_2 (F := Ideal)) W (Proc.devRef .tc main_v57)
    = KSpec.row (subf (W (Proc.devRef Proc.tc main_arg7)) (mulf (W (Proc.devRef Proc.tc main_v48)) (mulf (W (Proc.devRef Proc.tc main_arg6)) (Host.rsqrt (addf (W (Proc.devRef Proc.tc main_v49)) (broadcastInDim S128 ![] Facts₀.bcast_S_S128 (constant S_ .f32 0x3727C5AC#32))))))) := by
  read_stretch; rfl

/-! ## Stretch 2: the second layer's parameters -/

theorem s2_W : after (hostOps2 (F := Ideal)) W (Proc.devRef .tc main_v60) = KSpec.sq0 (W (Proc.devRef Proc.tc main_arg8)) := by read_stretch; rfl
theorem s2_b : after (hostOps2 (F := Ideal)) W (Proc.devRef .tc main_v62) = KSpec.ch0 (W (Proc.devRef Proc.tc main_arg9)) := by read_stretch; rfl
theorem s2_g : after (hostOps2 (F := Ideal)) W (Proc.devRef .tc main_v64) = KSpec.ch0 (W (Proc.devRef Proc.tc main_arg10)) := by read_stretch; rfl
theorem s2_be : after (hostOps2 (F := Ideal)) W (Proc.devRef .tc main_v66) = KSpec.ch0 (W (Proc.devRef Proc.tc main_arg11)) := by read_stretch; rfl

end Cert.KernelIdeal.KHost

end
-- ==== Proof.KHost2.lean ====
/-
  The kernel program's later stretches of host operations, read back: layers 2 and 3, the pooling, the last constant.

  Between its kernel regions the program runs plain host operations.  For a stretch `ops` and ANY buffer contents
  `W` at its entry, `StableHlo.after ops W b` is what buffer `b` holds after the stretch; each lemma below reads one
  buffer the later regions consume, as the stretch's operations composed over the entry contents of the buffers they
  read — stated with the definitions of `KSpec`, the same functions for the three layers.
-/
import proofs.«143752_j72559177499180_1_alg».proof.Proof.Gen.KernelIdeal.Launch
import proofs.«143752_j72559177499180_1_alg».proof.Proof.KSpec
import Idealize.ShloMosaic.Lib.StableHlo.Run

set_option maxRecDepth 16384

noncomputable section

namespace Cert.KernelIdeal.KHost2

open Cert.KernelIdeal Cert.KernelIdeal.Gen Idealize.ShloMosaic Idealize.ShloMosaic.TcCoe Idealize.SL.Sem Idealize.ShloMosaic.StableHlo

/-- Read a buffer after a literal stretch: one simplification pass over the operations' result lemmas (an operation's
    result at its own buffer is its function's value, at another buffer what was there), then the same lemmas by
    rewriting for what the pass leaves where it cannot rewrite. -/
macro "read_host" : tactic =>
  `(tactic| (after_results_simp
             try (repeat (first
               | rw [nullary_result] | rw [unary_result] | rw [binary_result] | rw [ternary_result] | rw [reshape_result]
               | (rw [nullary_result_ne]; rotate_left; decide) | (rw [unary_result_ne]; rotate_left; decide)
               | (rw [binary_result_ne]; rotate_left; decide) | (rw [ternary_result_ne]; rotate_left; decide)
               | (rw [reshape_result_ne]; rotate_left; decide)))))

variable (W : Valuation τ sig (Elt Ideal))

/-! ## Stretch 3 (three pieces): layer 2's aggregation and bias, the mean; the variance; the scale and the shift as rows -/

theorem s3_agg : after (hostOps3 (F := Ideal)) W (Proc.devRef .tc main_v83)
    = KSpec.agg (W (Proc.devRef Proc.tc main_v67)) (W (Proc.devRef Proc.tc main_v62)) (W (Proc.devRef Proc.tc main_v3)) (W (Proc.devRef Proc.tc main_v6)) (W (Proc.devRef Proc.tc main_v28)) := by
  read_host; rfl

theorem s3_mean : after (hostOps3 (F := Ideal)) W (Proc.devRef .tc main_v86)
    = KSpec.mean (KSpec.agg (W (Proc.devRef Proc.tc main_v67)) (W (Proc.devRef Proc.tc main_v62)) (W (Proc.devRef Proc.tc main_v3)) (W (Proc.devRef Proc.tc main_v6)) (W (Proc.devRef Proc.tc main_v28))) := by
  read_host; rfl

theorem s3_ddof : after (hostOps3 (F := Ideal)) W (Proc.devRef .tc main_c_17) = constantI S_ 32 0#32 := by
  read_host

theorem s3_var (hk : (W (Proc.devRef Proc.tc main_c_17)) = constantI S_ 32 0#32) :
    after (hostOps3_1 (F := Ideal)) W (Proc.devRef .tc main_v87) = KSpec.var (W (Proc.devRef Proc.tc main_v83)) := by
  read_host; rw [hk]; rfl

theorem s3_scale : after (hostOps3_2 (F := Ideal)) W (Proc.devRef .tc main_v94)
    = KSpec.row (mulf (W (Proc.devRef Proc.tc main_v64)) (Host.rsqrt (addf (W (Proc.devRef Proc.tc main_v87)) (broadcastInDim S128 ![] Facts₀.bcast_S_S128 (constant S_ .f32 0x3727C5AC#32))))) := by
  read_host; rfl

theorem s3_shift : after (hostOps3_2 (F := Ideal)) W (Proc.devRef .tc main_v95)
    = KSpec.row (subf (W (Proc.devRef Proc.tc main_v66)) (mulf (W (Proc.devRef Proc.tc main_v86)) (mulf (W (Proc.devRef Proc.tc main_v64)) (Host.rsqrt (addf (W (Proc.devRef Proc.tc main_v87)) (broadcastInDim S128 ![] Facts₀.bcast_S_S128 (constant S_ .f32 0x3727C5AC#32))))))) := by
  read_host; rfl

/-! ## Stretch 4: the third layer's parameters -/

theorem s4_W : after (hostOps4 (F := Ideal)) W (Proc.devRef .tc main_v98) = KSpec.sq1 (W (Proc.devRef Proc.tc main_arg8)) := by read_host; rfl
theorem s4_b : after (hostOps4 (F := Ideal)) W (Proc.devRef .tc main_v100) = KSpec.ch1 (W (Proc.devRef Proc.tc main_arg9)) := by read_host; rfl
theorem s4_g : after (hostOps4 (F := Ideal)) W (Proc.devRef .tc main_v102) = KSpec.ch1 (W (Proc.devRef Proc.tc main_arg10)) := by read_host; rfl
theorem s4_be : after (hostOps4 (F := Ideal)) W (Proc.devRef .tc main_v104) = KSpec.ch1 (W (Proc.devRef Proc.tc main_arg11)) := by read_host; rfl

/-! ## Stretch 5 (three pieces): layer 3's aggregation and bias, the mean; the variance; the scale and the shift as rows -/

theorem s5_agg : after (hostOps5 (F := Ideal)) W (Proc.devRef .tc main_v121)
    = KSpec.agg (W (Proc.devRef Proc.tc main_v105)) (W (Proc.devRef Proc.tc main_v100)) (W (Proc.devRef Proc.tc main_v3)) (W (Proc.devRef Proc.tc main_v6)) (W (Proc.devRef Proc.tc main_v28)) := by
  read_host; rfl

theorem s5_mean : after (hostOps5 (F := Ideal)) W (Proc.devRef .tc main_v124)
    = KSpec.mean (KSpec.agg (W (Proc.devRef Proc.tc main_v105)) (W (Proc.devRef Proc.tc main_v100)) (W (Proc.devRef Proc.tc main_v3)) (W (Proc.devRef Proc.tc main_v6)) (W (Proc.devRef Proc.tc main_v28))) := by
  read_host; rfl

theorem s5_ddof : after (hostOps5 (F := Ideal)) W (Proc.devRef .tc main_c_24) = constantI S_ 32 0#32 := by
  read_host

theorem s5_var (hk : (W (Proc.devRef Proc.tc main_c_24)) = constantI S_ 32 0#32) :
    after (hostOps5_1 (F := Ideal)) W (Proc.devRef .tc main_v125) = KSpec.var (W (Proc.devRef Proc.tc main_v121)) := by
  read_host; rw [hk]; rfl

theorem s5_scale : after (hostOps5_2 (F := Ideal)) W (Proc.devRef .tc main_v132)
    = KSpec.row (mulf (W (Proc.devRef Proc.tc main_v102)) (Host.rsqrt (addf (W (Proc.devRef Proc.tc main_v125)) (broadcastInDim S128 ![] Facts₀.bcast_S_S128 (constant S_ .f32 0x3727C5AC#32))))) := by
  read_host; rfl

theorem s5_shift : after (hostOps5_2 (F := Ideal)) W (Proc.devRef .tc main_v133)
    = KSpec.row (subf (W (Proc.devRef Proc.tc main_v104)) (mulf (W (Proc.devRef Proc.tc main_v124)) (mulf (W (Proc.devRef Proc.tc main_v102)) (Host.rsqrt (addf (W (Proc.devRef Proc.tc main_v125)) (broadcastInDim S128 ![] Facts₀.bcast_S_S128 (constant S_ .f32 0x3727C5AC#32))))))) := by
  read_host; rfl

/-! ## Stretch 6: the pooling, and the two biases of the dense head as rows -/

theorem s6_pool : after (hostOps6 (F := Ideal)) W (Proc.devRef .tc main_v146)
    = KSpec.pool (W (Proc.devRef Proc.tc main_v134)) (W (Proc.devRef Proc.tc main_arg2)) := by
  read_host; rfl

theorem s6_b1 : after (hostOps6 (F := Ideal)) W (Proc.devRef .tc main_v147) = KSpec.row (W (Proc.devRef Proc.tc main_arg13)) := by read_host; rfl
theorem s6_b2 : after (hostOps6 (F := Ideal)) W (Proc.devRef .tc main_v148) = KSpec.row (W (Proc.devRef Proc.tc main_arg15)) := by read_host; rfl

/-! ## Stretch 7: the second result, the constant 0 -/

theorem s7_cst : after (hostOps7 (F := Ideal)) W (Proc.devRef .tc main_cst_30) = constant (F := Ideal) S_ .f32 0x00000000#32 := by
  read_host

end Cert.KernelIdeal.KHost2

end
-- ==== Proof.KLayer.lean ====
/-
  The kernel program's network as one function of its arguments.

  A layer of the kernel program: the matrix product (a kernel region), the aggregation over the edges and the
  per-channel statistics (host operations), and the normalise-and-gate region applied to the aggregated features with
  the host-computed scale and shift rows.  Three layers, the pooling (host operations), and the perceptron region.
-/
import proofs.«143752_j72559177499180_1_alg».proof.Proof.KRegions
import proofs.«143752_j72559177499180_1_alg».proof.Proof.KSpec

noncomputable section

namespace Cert.KernelIdeal.KLayer

open Cert.KernelIdeal Idealize.ShloMosaic Cert.KernelIdeal.KSpec Cert.KernelIdeal.KRegions

variable [Facts₀]

/-- One layer as the kernel program computes it. -/
def layerK (h : Nodes) (W : Sq) (b γ β : Chan) (s d : Ends) (ν : Wts) : Nodes :=
  bnsiluG (agg (matG h W) b s d ν) (row (scale (agg (matG h W) b s d ν) γ)) (row (shift (agg (matG h W) b s d ν) γ β))

/-- The three layers and the pooling: the features the perceptron region is given. -/
def pooledK (x : Nodes) (e : IVec S2x800000 32) (batch : IVec S50000 32) (W_in : Sq) (b_in g_in be_in : Chan)
    (W_res : FVec Ideal S2x128x128 .f32) (b_res g_res be_res : FVec Ideal S2x128 .f32) : Pooled :=
  pool
    (layerK (layerK (layerK x W_in b_in g_in be_in (src e) (dst e) (nrm (src e) (dst e)))
        (sq0 W_res) (ch0 b_res) (ch0 g_res) (ch0 be_res) (src e) (dst e) (nrm (src e) (dst e)))
      (sq1 W_res) (ch1 b_res) (ch1 g_res) (ch1 be_res) (src e) (dst e) (nrm (src e) (dst e)))
    batch

end Cert.KernelIdeal.KLayer

end
-- ==== Proof.KFold.lean ====
/-
  The kernel program's fold from the launch memory, read at its results.

  The generated frame states the buffer contents at every boundary of the program as a fold from the launch memory: a
  stretch of host operations applies them in order (`after`), a kernel region replaces its arrays by what its
  write-backs leave and passes every other buffer through.  Here the fold is read, boundary by boundary, at the buffers
  the next step consumes: a stretch by its lemma in `KHost` / `KHost2`, a region by its whole-array function
  (`KRegions.final0 … final5`, `KFinal.final6`), and a buffer that a step does not write is carried back to the step
  that wrote it, or to the launch memory.  The three layers' outputs are the same function `KLayer.layerK` of the
  previous layer's output, and the last region is given `KLayer.pooledK` of the arguments.
-/
import proofs.«143752_j72559177499180_1_alg».proof.Proof.Gen.KernelIdeal.Frame
import proofs.«143752_j72559177499180_1_alg».proof.Proof.KRegions
import proofs.«143752_j72559177499180_1_alg».proof.Proof.KFinal
import proofs.«143752_j72559177499180_1_alg».proof.Proof.KHost
import proofs.«143752_j72559177499180_1_alg».proof.Proof.KHost2
import proofs.«143752_j72559177499180_1_alg».proof.Proof.KLayer

set_option maxRecDepth 16384

noncomputable section

namespace Cert.KernelIdeal.KFold

open Cert.KernelIdeal Cert.KernelIdeal.Gen Idealize.ShloMosaic Idealize.ShloMosaic.TcCoe Idealize.SL.Sem Idealize.ShloMosaic.StableHlo
open Cert.KernelIdeal.KSpec Cert.KernelIdeal.KRegions Cert.KernelIdeal.KLayer

variable (m : (ℓ : Loc nD τ sig) → Buf (Elt Ideal) ℓ) (ρ : Dev nD → PrngReg) (c : Dev nD)

/-! ## Passing a buffer through a region

A region leaves every buffer that is none of its windows' arrays as it found it.  (The generated `W2_of_ne` … say so; here
they are restated with the buffer left out of the term index, so that one simplification pass can use them at any buffer.) -/

theorem W2_keep (b : Ref sig .tc) (hb : ∀ w, Pipeline.arrRef spec0 w ≠ b) :
    W2 m ρ c (no_index (Proc.devRef .tc b)) = W1 m ρ c (Proc.devRef .tc b) := W2_of_ne m ρ c b hb
theorem W6_keep (b : Ref sig .tc) (hb : ∀ w, Pipeline.arrRef spec1 w ≠ b) :
    W6 m ρ c (no_index (Proc.devRef .tc b)) = W5 m ρ c (Proc.devRef .tc b) := W6_of_ne m ρ c b hb
theorem W8_keep (b : Ref sig .tc) (hb : ∀ w, Pipeline.arrRef spec2 w ≠ b) :
    W8 m ρ c (no_index (Proc.devRef .tc b)) = W7 m ρ c (Proc.devRef .tc b) := W8_of_ne m ρ c b hb
theorem W12_keep (b : Ref sig .tc) (hb : ∀ w, Pipeline.arrRef spec3 w ≠ b) :
    W12 m ρ c (no_index (Proc.devRef .tc b)) = W11 m ρ c (Proc.devRef .tc b) := W12_of_ne m ρ c b hb
theorem W14_keep (b : Ref sig .tc) (hb : ∀ w, Pipeline.arrRef spec4 w ≠ b) :
    W14 m ρ c (no_index (Proc.devRef .tc b)) = W13 m ρ c (Proc.devRef .tc b) := W14_of_ne m ρ c b hb
theorem W18_keep (b : Ref sig .tc) (hb : ∀ w, Pipeline.arrRef spec5 w ≠ b) :
    W18 m ρ c (no_index (Proc.devRef .tc b)) = W17 m ρ c (Proc.devRef .tc b) := W18_of_ne m ρ c b hb
theorem W20_keep (b : Ref sig .tc) (hb : ∀ w, Pipeline.arrRef spec6 w ≠ b) :
    W20 m ρ c (no_index (Proc.devRef .tc b)) = W19 m ρ c (Proc.devRef .tc b) := W20_of_ne m ρ c b hb

/-- Carry every buffer back through the stretches that do not write it (decided by comparing references with each
    operation's result) and the regions it is no array of, as far as it goes. -/
macro "back" : tactic =>
  `(tactic| simp (disch := decide) only [W2_keep, W6_keep, W8_keep, W12_keep, W14_keep, W18_keep, W20_keep,
      after_of_forall_not_mem])

/-! ## The network's intermediate arrays, as functions of the arguments at launch -/

/-- The sources, the targets and the weights of the edges with self loops. -/
abbrev eS : Ends := src (m ((c : Thread nD τ).loc main_arg1))
abbrev eD : Ends := dst (m ((c : Thread nD τ).loc main_arg1))
abbrev eN : Wts := nrm (eS m c) (eD m c)

/-- Layer 1: the aggregated features and the output. -/
abbrev G1 : Nodes := agg (matG (m ((c : Thread nD τ).loc main_arg0)) (m ((c : Thread nD τ).loc main_arg4))) (m ((c : Thread nD τ).loc main_arg5)) (eS m c) (eD m c) (eN m c)
abbrev H1 : Nodes := layerK (m ((c : Thread nD τ).loc main_arg0)) (m ((c : Thread nD τ).loc main_arg4)) (m ((c : Thread nD τ).loc main_arg5)) (m ((c : Thread nD τ).loc main_arg6)) (m ((c : Thread nD τ).loc main_arg7)) (eS m c) (eD m c) (eN m c)
/-- Layer 2. -/
abbrev G2 : Nodes := agg (matG (H1 m c) (sq0 (m ((c : Thread nD τ).loc main_arg8)))) (ch0 (m ((c : Thread nD τ).loc main_arg9))) (eS m c) (eD m c) (eN m c)
abbrev H2 : Nodes := layerK (H1 m c) (sq0 (m ((c : Thread nD τ).loc main_arg8))) (ch0 (m ((c : Thread nD τ).loc main_arg9))) (ch0 (m ((c : Thread nD τ).loc main_arg10))) (ch0 (m ((c : Thread nD τ).loc main_arg11))) (eS m c) (eD m c) (eN m c)
/-- Layer 3. -/
abbrev G3 : Nodes := agg (matG (H2 m c) (sq1 (m ((c : Thread nD τ).loc main_arg8)))) (ch1 (m ((c : Thread nD τ).loc main_arg9))) (eS m c) (eD m c) (eN m c)
abbrev H3 : Nodes := layerK (H2 m c) (sq1 (m ((c : Thread nD τ).loc main_arg8))) (ch1 (m ((c : Thread nD τ).loc main_arg9))) (ch1 (m ((c : Thread nD τ).loc main_arg10))) (ch1 (m ((c : Thread nD τ).loc main_arg11))) (eS m c) (eD m c) (eN m c)

/-! ## Stretch 0 and region 0 -/

theorem at_src : W1 m ρ c (Proc.devRef .tc main_v3) = eS m c := KHost.s0_src (W0 m ρ c)
theorem at_dst : W1 m ρ c (Proc.devRef .tc main_v6) = eD m c := KHost.s0_dst (W0 m ρ c)
theorem at_nrm : W1 m ρ c (Proc.devRef .tc main_v28) = eN m c := KHost.s0_nrm (W0 m ρ c)

/-- Region 0: the features times the first matrix. -/
theorem at_v29 : W2 m ρ c (Proc.devRef .tc main_v29) = matG (m ((c : Thread nD τ).loc main_arg0)) (m ((c : Thread nD τ).loc main_arg4)) := by
  refine (W2_arr m ρ c (2 : Fin cfg0.W)).trans ((final0 (V1 m ρ) c).trans ?_)
  show matG (W1 m ρ c (Proc.devRef .tc main_arg0)) (W1 m ρ c (Proc.devRef .tc main_arg4)) = _
  back

/-! ## Layer 1: the host stretches 1, 1_1, 1_2 and region 1 -/

/-- The aggregated features. -/
theorem at_v45 : W3 m ρ c (Proc.devRef .tc main_v45) = G1 m c := by
  refine (KHost.s1_agg (W2 m ρ c)).trans ?_
  rw [at_v29]
  back
  rw [at_src, at_dst, at_nrm]

/-- Their mean over the nodes. -/
theorem at_v48 : W3 m ρ c (Proc.devRef .tc main_v48) = mean (G1 m c) := by
  refine (KHost.s1_mean (W2 m ρ c)).trans ?_
  rw [at_v29]
  back
  rw [at_src, at_dst, at_nrm]

/-- The variance's correction, the constant 0. -/
theorem at_c_10 : W3 m ρ c (Proc.devRef .tc main_c_10) = constantI S_ 32 0#32 := KHost.s1_ddof (W2 m ρ c)

/-- Their variance over the nodes. -/
theorem at_v49 : W4 m ρ c (Proc.devRef .tc main_v49) = var (G1 m c) := by
  refine (KHost.s1_var (W3 m ρ c) (at_c_10 m ρ c)).trans ?_
  rw [at_v45]

/-- The scale row γ · rstd. -/
theorem at_v56 : W5 m ρ c (Proc.devRef .tc main_v56) = row (scale (G1 m c) (m ((c : Thread nD τ).loc main_arg6))) := by
  refine (KHost.s1_scale (W4 m ρ c)).trans ?_
  back
  rw [at_v49]
  rfl

/-- The shift row β − mean · (γ · rstd). -/
theorem at_v57 : W5 m ρ c (Proc.devRef .tc main_v57) = row (shift (G1 m c) (m ((c : Thread nD τ).loc main_arg6)) (m ((c : Thread nD τ).loc main_arg7))) := by
  refine (KHost.s1_shift (W4 m ρ c)).trans ?_
  back
  rw [at_v49, at_v48]
  rfl

/-- Region 1: scale, shift and gate — the layer's output. -/
theorem at_v58 : W6 m ρ c (Proc.devRef .tc main_v58) = H1 m c := by
  refine (W6_arr m ρ c (3 : Fin cfg1.W)).trans ((final1 (V5 m ρ) c).trans ?_)
  show bnsiluG (W5 m ρ c (Proc.devRef .tc main_v45)) (W5 m ρ c (Proc.devRef .tc main_v56)) (W5 m ρ c (Proc.devRef .tc main_v57)) = _
  back
  rw [at_v45, at_v56, at_v57]
  rfl

/-! ## Stretch 2: layer 2's parameters -/

theorem at_v60 : W7 m ρ c (Proc.devRef .tc main_v60) = sq0 (m ((c : Thread nD τ).loc main_arg8)) := by
  refine (KHost.s2_W (W6 m ρ c)).trans ?_
  back
theorem at_v62 : W7 m ρ c (Proc.devRef .tc main_v62) = ch0 (m ((c : Thread nD τ).loc main_arg9)) := by
  refine (KHost.s2_b (W6 m ρ c)).trans ?_
  back
theorem at_v64 : W7 m ρ c (Proc.devRef .tc main_v64) = ch0 (m ((c : Thread nD τ).loc main_arg10)) := by
  refine (KHost.s2_g (W6 m ρ c)).trans ?_
  back
theorem at_v66 : W7 m ρ c (Proc.devRef .tc main_v66) = ch0 (m ((c : Thread nD τ).loc main_arg11)) := by
  refine (KHost.s2_be (W6 m ρ c)).trans ?_
  back

/-- Region 2: the previous layer's output times layer 2's matrix. -/
theorem at_v67 : W8 m ρ c (Proc.devRef .tc main_v67) = matG (H1 m c) (sq0 (m ((c : Thread nD τ).loc main_arg8))) := by
  refine (W8_arr m ρ c (2 : Fin cfg2.W)).trans ((final2 (V7 m ρ) c).trans ?_)
  show matG (W7 m ρ c (Proc.devRef .tc main_v58)) (W7 m ρ c (Proc.devRef .tc main_v60)) = _
  back
  rw [at_v58, at_v60]

/-! ## Layer 2: the host stretches 3, 3_1, 3_2 and region 3 -/

/-- The aggregated features. -/
theorem at_v83 : W9 m ρ c (Proc.devRef .tc main_v83) = G2 m c := by
  refine (KHost2.s3_agg (W8 m ρ c)).trans ?_
  rw [at_v67]
  back
  rw [at_v62, at_src, at_dst, at_nrm]

/-- Their mean over the nodes. -/
theorem at_v86 : W9 m ρ c (Proc.devRef .tc main_v86) = mean (G2 m c) := by
  refine (KHost2.s3_mean (W8 m ρ c)).trans ?_
  rw [at_v67]
  back
  rw [at_v62, at_src, at_dst, at_nrm]

/-- The variance's correction, the constant 0. -/
theorem at_c_17 : W9 m ρ c (Proc.devRef .tc main_c_17) = constantI S_ 32 0#32 := KHost2.s3_ddof (W8 m ρ c)

/-- Their variance over the nodes. -/
theorem at_v87 : W10 m ρ c (Proc.devRef .tc main_v87) = var (G2 m c) := by
  refine (KHost2.s3_var (W9 m ρ c) (at_c_17 m ρ c)).trans ?_
  rw [at_v83]

/-- The scale row γ · rstd. -/
theorem at_v94 : W11 m ρ c (Proc.devRef .tc main_v94) = row (scale (G2 m c) (ch0 (m ((c : Thread nD τ).loc main_arg10)))) := by
  refine (KHost2.s3_scale (W10 m ρ c)).trans ?_
  back
  rw [at_v87, at_v64]
  rfl

/-- The shift row β − mean · (γ · rstd). -/
theorem at_v95 : W11 m ρ c (Proc.devRef .tc main_v95) = row (shift (G2 m c) (ch0 (m ((c : Thread nD τ).loc main_arg10))) (ch0 (m ((c : Thread nD τ).loc main_arg11)))) := by
  refine (KHost2.s3_shift (W10 m ρ c)).trans ?_
  back
  rw [at_v87, at_v86, at_v64, at_v66]
  rfl

/-- Region 3: scale, shift and gate — the layer's output. -/
theorem at_v96 : W12 m ρ c (Proc.devRef .tc main_v96) = H2 m c := by
  refine (W12_arr m ρ c (3 : Fin cfg3.W)).trans ((final3 (V11 m ρ) c).trans ?_)
  show bnsiluG (W11 m ρ c (Proc.devRef .tc main_v83)) (W11 m ρ c (Proc.devRef .tc main_v94)) (W11 m ρ c (Proc.devRef .tc main_v95)) = _
  back
  rw [at_v83, at_v94, at_v95]
  rfl

/-! ## Stretch 4: layer 3's parameters -/

theorem at_v98 : W13 m ρ c (Proc.devRef .tc main_v98) = sq1 (m ((c : Thread nD τ).loc main_arg8)) := by
  refine (KHost2.s4_W (W12 m ρ c)).trans ?_
  back
theorem at_v100 : W13 m ρ c (Proc.devRef .tc main_v100) = ch1 (m ((c : Thread nD τ).loc main_arg9)) := by
  refine (KHost2.s4_b (W12 m ρ c)).trans ?_
  back
theorem at_v102 : W13 m ρ c (Proc.devRef .tc main_v102) = ch1 (m ((c : Thread nD τ).loc main_arg10)) := by
  refine (KHost2.s4_g (W12 m ρ c)).trans ?_
  back
theorem at_v104 : W13 m ρ c (Proc.devRef .tc main_v104) = ch1 (m ((c : Thread nD τ).loc main_arg11)) := by
  refine (KHost2.s4_be (W12 m ρ c)).trans ?_
  back

/-- Region 4: the previous layer's output times layer 3's matrix. -/
theorem at_v105 : W14 m ρ c (Proc.devRef .tc main_v105) = matG (H2 m c) (sq1 (m ((c : Thread nD τ).loc main_arg8))) := by
  refine (W14_arr m ρ c (2 : Fin cfg4.W)).trans ((final4 (V13 m ρ) c).trans ?_)
  show matG (W13 m ρ c (Proc.devRef .tc main_v96)) (W13 m ρ c (Proc.devRef .tc main_v98)) = _
  back
  rw [at_v96, at_v98]

/-! ## Layer 3: the host stretches 5, 5_1, 5_2 and region 5 -/

/-- The aggregated features. -/
theorem at_v121 : W15 m ρ c (Proc.devRef .tc main_v121) = G3 m c := by
  refine (KHost2.s5_agg (W14 m ρ c)).trans ?_
  rw [at_v105]
  back
  rw [at_v100, at_src, at_dst, at_nrm]

/-- Their mean over the nodes. -/
theorem at_v124 : W15 m ρ c (Proc.devRef .tc main_v124) = mean (G3 m c) := by
  refine (KHost2.s5_mean (W14 m ρ c)).trans ?_
  rw [at_v105]
  back
  rw [at_v100, at_src, at_dst, at_nrm]

/-- The variance's correction, the constant 0. -/
theorem at_c_24 : W15 m ρ c (Proc.devRef .tc main_c_24) = constantI S_ 32 0#32 := KHost2.s5_ddof (W14 m ρ c)

/-- Their variance over the nodes. -/
theorem at_v125 : W16 m ρ c (Proc.devRef .tc main_v125) = var (G3 m c) := by
  refine (KHost2.s5_var (W15 m ρ c) (at_c_24 m ρ c)).trans ?_
  rw [at_v121]

/-- The scale row γ · rstd. -/
theorem at_v132 : W17 m ρ c (Proc.devRef .tc main_v132) = row (scale (G3 m c) (ch1 (m ((c : Thread nD τ).loc main_arg10)))) := by
  refine (KHost2.s5_scale (W16 m ρ c)).trans ?_
  back
  rw [at_v125, at_v102]
  rfl

/-- The shift row β − mean · (γ · rstd). -/
theorem at_v133 : W17 m ρ c (Proc.devRef .tc main_v133) = row (shift (G3 m c) (ch1 (m ((c : Thread nD τ).loc main_arg10))) (ch1 (m ((c : Thread nD τ).loc main_arg11)))) := by
  refine (KHost2.s5_shift (W16 m ρ c)).trans ?_
  back
  rw [at_v125, at_v124, at_v102, at_v104]
  rfl

/-- Region 5: scale, shift and gate — the layer's output. -/
theorem at_v134 : W18 m ρ c (Proc.devRef .tc main_v134) = H3 m c := by
  refine (W18_arr m ρ c (3 : Fin cfg5.W)).trans ((final5 (V17 m ρ) c).trans ?_)
  show bnsiluG (W17 m ρ c (Proc.devRef .tc main_v121)) (W17 m ρ c (Proc.devRef .tc main_v132)) (W17 m ρ c (Proc.devRef .tc main_v133)) = _
  back
  rw [at_v121, at_v132, at_v133]
  rfl

/-! ## Stretch 6, region 6 and stretch 7: the pooling, the dense head, the last constant -/

/-- The mean over each graph's nodes. -/
theorem at_v146 : W19 m ρ c (Proc.devRef .tc main_v146) = pool (H3 m c) (m ((c : Thread nD τ).loc main_arg2)) := by
  refine (KHost2.s6_pool (W18 m ρ c)).trans ?_
  rw [at_v134]
  back

/-- The head's two biases as rows. -/
theorem at_v147 : W19 m ρ c (Proc.devRef .tc main_v147) = row (m ((c : Thread nD τ).loc main_arg13)) := by
  refine (KHost2.s6_b1 (W18 m ρ c)).trans ?_
  back
theorem at_v148 : W19 m ρ c (Proc.devRef .tc main_v148) = row (m ((c : Thread nD τ).loc main_arg15)) := by
  refine (KHost2.s6_b2 (W18 m ρ c)).trans ?_
  back

/-- Region 6: the dense head on the pooled features. -/
theorem at_v149 : W20 m ρ c (Proc.devRef .tc main_v149)
    = out6_5 (F := Ideal) (pool (H3 m c) (m ((c : Thread nD τ).loc main_arg2))) (m ((c : Thread nD τ).loc main_arg12)) (row (m ((c : Thread nD τ).loc main_arg13))) (m ((c : Thread nD τ).loc main_arg14)) (row (m ((c : Thread nD τ).loc main_arg15))) := by
  refine (W20_arr m ρ c (5 : Fin cfg6.W)).trans ((KFinal.final6 (V19 m ρ) c).trans ?_)
  show out6_5 (F := Ideal) (W19 m ρ c (Proc.devRef .tc main_v146)) (W19 m ρ c (Proc.devRef .tc main_arg12)) (W19 m ρ c (Proc.devRef .tc main_v147))
      (W19 m ρ c (Proc.devRef .tc main_arg14)) (W19 m ρ c (Proc.devRef .tc main_v148)) = _
  rw [at_v146, at_v147, at_v148]
  back

/-- The first result: the dense head on the pooled features of the three layers, all as functions of the arguments at launch. -/
theorem at_result : W21 m ρ c (Proc.devRef .tc main_v149)
    = out6_5 (F := Ideal) (pooledK (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)))
        (m ((c : Thread nD τ).loc main_arg12)) (row (m ((c : Thread nD τ).loc main_arg13))) (m ((c : Thread nD τ).loc main_arg14)) (row (m ((c : Thread nD τ).loc main_arg15))) :=
  (after_of_forall_not_mem (b := (Proc.devRef .tc main_v149)) (hostOps7 (F := Ideal)) (W20 m ρ c) (by decide)).trans (at_v149 m ρ c)

/-- The second result: the constant 0. -/
theorem at_cst : W21 m ρ c (Proc.devRef .tc main_cst_30) = constant (F := Ideal) S_ .f32 0x00000000#32 :=
  KHost2.s7_cst (W20 m ρ c)

end Cert.KernelIdeal.KFold

end
-- ==== Proof.Spec.lean ====
/-
  What both programs compute, written once, in the reference's own host operations.

  A graph convolution network on 50000 nodes with 128 features: the edge list gets a self loop per node; an edge
  `(s, d)` weighs `dinv s · dinv d`, `dinv = 1 / sqrt (max (in-degree, 1))`; a LAYER maps node features `h` to
  `silu (normalise (Σ_{edges into a node} weight · (h·W)[source] + b))`, the normalisation being over the node axis
  (mean and biased variance per channel, `ε = 1e-5`) followed by the affine `· γ + β`; three layers, then the mean of
  the node features per graph, and a two-layer perceptron with a row-wise log-softmax.

  Each definition below is the literal composition of the reference program's printed operations, so that the
  reference's run ends at `out` by reading the operations back, and the kernel program — which shares every host
  operation outside its seven kernel regions — is compared against the same terms.
-/
import proofs.«143752_j72559177499180_1_alg».proof.ReferenceIdeal
import Idealize.ShloMosaic.PureOps.Ideal

noncomputable section

namespace Cert.ReferenceIdeal.Spec

open Cert.ReferenceIdeal Idealize.ShloMosaic

variable [Facts₀]
open Facts₀

abbrev Nodes := FVec Ideal S50000x128 .f32
abbrev Chan := FVec Ideal S128 .f32
abbrev Sq := FVec Ideal S128x128 .f32
abbrev Ends := IVec S850000 32
abbrev Wts := FVec Ideal S850000 .f32
abbrev Pooled := FVec Ideal S64x128 .f32

/-! ## The edge list and its weights -/

/-- The edges' source nodes, then one self loop per node. -/
def src (e : IVec S2x800000 32) : Ends :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- The edges' destination nodes, then one self loop per node. -/
def dst (e : IVec S2x800000 32) : Ends :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- An index vector as the column of start indices a scatter takes. -/
def col (i : Ends) : IVec S850000x1 32 := broadcastInDim S850000x1 ![0] bcast_S850000_S850000x1_0 i

/-- An index vector as the column a gather takes: a negative index counts from the end (50000 is added to it). -/
def wrapCol (i : Ends) : IVec S850000x1 32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- A node's in-degree: a one added per edge into it. -/
def deg (d : Ends) : FVec Ideal S50000 .f32 :=
  Host.scatterAdd scatter_S50000_S850000x1_S850000_n_0_0_1 (broadcastInDim S50000 ![] bcast_S_S50000 (constant S_ .f32 0x00000000#32))
    (col d) (broadcastInDim S850000 ![] bcast_S_S850000 (constant S_ .f32 0x3F800000#32))

/-- `1 / sqrt (max (in-degree, 1))`. -/
def dinv (d : Ends) : FVec Ideal S50000 .f32 :=
  Host.rsqrt (maximumf (deg d) (broadcastInDim S50000 ![] bcast_S_S50000 (constant S_ .f32 0x3F800000#32)))

/-- An edge's weight: the product of `dinv` at its two ends. -/
def nrm (s d : Ends) : Wts :=
  mulf (Host.gather gather_S50000_S850000x1_S850000_n_0_n_n_0_1_1 (dinv d) (wrapCol s))
    (Host.gather gather_S50000_S850000x1_S850000_n_0_n_n_0_1_1 (dinv d) (wrapCol d))

/-! ## One layer -/

/-- The features times the layer's matrix. -/
def lin (h : Nodes) (W : Sq) : Nodes := Host.dotGeneral dot_S50000x128_S128x128_S50000x128_1_0_0_1_n_n none h W

/-- A per-channel vector repeated along the node axis. -/
def rowBc (v : Chan) : Nodes :=
  broadcastInDim S50000x128 ![0, 1] bcast_S1x128_S50000x128_0_1 (broadcastInDim S1x128 ![1] bcast_S128_S1x128_1 v)

/-- The aggregation: every node adds up, over the edges into it, the edge's weight times the source node's row; then
    the bias. -/
def agg (hW : Nodes) (b : Chan) (s d : Ends) (ν : Wts) : Nodes :=
  addf (Host.scatterAdd scatter_S50000x128_S850000x1_S850000x128_1_0_0_1
      (broadcastInDim S50000x128 ![] bcast_S_S50000x128 (constant S_ .f32 0x00000000#32)) (col d)
      (mulf (Host.gather gather_S50000x128_S850000x1_S850000x128_1_0_n_n_0_1_1128 hW (wrapCol s))
        (broadcastInDim S850000x128 ![0, 1] bcast_S850000x1_S850000x128_0_1 (broadcastInDim S850000x1 ![0] bcast_S850000_S850000x1_0 ν))))
    (rowBc b)

/-- The sum over the node axis. -/
def colSum (a : Nodes) : Chan := Host.reduceAdd a (constant S_ .f32 0x00000000#32) reducesTo_S50000x128_S128_d0 h_S_

/-- The per-channel mean over the nodes. -/
def mean (a : Nodes) : Chan :=
  Host.divf (colSum a) (broadcastInDim S128 ![] bcast_S_S128 (constant S_ .f32 0x47435000#32))

/-- The features with the per-channel mean taken off, as the variance computes it (the mean kept as a 1×128 row). -/
def centred (a : Nodes) : Nodes :=
  subf a (broadcastInDim S50000x128 ![0, 1] bcast_S1x128_S50000x128_0_1
    (Host.divf (broadcastInDim S1x128 ![1] bcast_S128_S1x128_1 (colSum a))
      (broadcastInDim S1x128 ![] bcast_S_S1x128 (constant S_ .f32 0x47435000#32))))

/-- The variance's divisor: the number of nodes less the correction `0`. -/
def cnt : FVec Ideal S_ .f32 := subf (constant S_ .f32 0x47435000#32) (sitofp .f32 (constantI S_ 32 0#32))

/-- The per-channel biased variance over the nodes (the quotient is taken when the divisor is positive). -/
def var (a : Nodes) : Chan :=
  select (broadcastInDim S128 ![] bcast_S_S128 (cmpf .ogt cnt (constant S_ .f32 0x00000000#32)))
    (Host.divf (colSum (mulf (centred a) (centred a))) (broadcastInDim S128 ![] bcast_S_S128 cnt))
    (broadcastInDim S128 ![] bcast_S_S128 (id (constant S_ .f32 0x7FC00000#32)))

/-- `1 / sqrt (variance + ε)`. -/
def rstd (a : Nodes) : Chan :=
  Host.rsqrt (addf (var a) (broadcastInDim S128 ![] bcast_S_S128 (constant S_ .f32 0x3727C5AC#32)))

/-- The normalisation: centre, scale by `rstd`, then by `γ`, shift by `β`. -/
def norm (a : Nodes) (γ β : Chan) : Nodes :=
  addf (mulf (mulf (subf a (rowBc (mean a))) (rowBc (rstd a))) (rowBc γ)) (rowBc β)

/-- `x · (1 / (1 + exp (−x)))`. -/
def silu (x : Nodes) : Nodes :=
  mulf x (Host.divf (broadcastInDim S50000x128 ![] bcast_S_S50000x128 (constant S_ .f32 0x3F800000#32))
    (addf (broadcastInDim S50000x128 ![] bcast_S_S50000x128 (constant S_ .f32 0x3F800000#32)) (Host.exp (Host.negf x))))

/-- One layer. -/
def layer (h : Nodes) (W : Sq) (b γ β : Chan) (s d : Ends) (ν : Wts) : Nodes :=
  silu (norm (agg (lin h W) b s d ν) γ β)

/-! ## The stacked parameters' slices -/

def sq0 (W : FVec Ideal S2x128x128 .f32) : Sq :=
  shapeCast S128x128 (extractStridedSlice S1x128x128 ![0, 0, 0] W slices_S2x128x128_S1x128x128_0_0_0) shapeCasts_S1x128x128_S128x128
def sq1 (W : FVec Ideal S2x128x128 .f32) : Sq :=
  shapeCast S128x128 (extractStridedSlice S1x128x128 ![1, 0, 0] W slices_S2x128x128_S1x128x128_1_0_0) shapeCasts_S1x128x128_S128x128
def ch0 (v : FVec Ideal S2x128 .f32) : Chan :=
  shapeCast S128 (extractStridedSlice S1x128 ![0, 0] v slices_S2x128_S1x128_0_0) shapeCasts_S1x128_S128
def ch1 (v : FVec Ideal S2x128 .f32) : Chan :=
  shapeCast S128 (extractStridedSlice S1x128 ![1, 0] v slices_S2x128_S1x128_1_0) shapeCasts_S1x128_S128

/-! ## The pooling and the perceptron -/

/-- The mean of the node features per graph (a graph without nodes divides by 1). -/
def pool (h : Nodes) (batch : IVec S50000 32) : Pooled :=
  Host.divf
    (Host.scatterAdd scatter_S64x128_S50000x1_S50000x128_1_0_0_1 (broadcastInDim S64x128 ![] bcast_S_S64x128 (constant S_ .f32 0x00000000#32))
      (broadcastInDim S50000x1 ![0] bcast_S50000_S50000x1_0 batch) h)
    (broadcastInDim S64x128 ![0, 1] bcast_S64x1_S64x128_0_1 (broadcastInDim S64x1 ![0] bcast_S64_S64x1_0
      (maximumf (Host.scatterAdd scatter_S64_S50000x1_S50000_n_0_0_1 (broadcastInDim S64 ![] bcast_S_S64 (constant S_ .f32 0x00000000#32))
          (broadcastInDim S50000x1 ![0] bcast_S50000_S50000x1_0 batch) (broadcastInDim S50000 ![] bcast_S_S50000 (constant S_ .f32 0x3F800000#32)))
        (broadcastInDim S64 ![] bcast_S_S64 (constant S_ .f32 0x3F800000#32)))))

/-- A per-channel vector repeated along the graph axis. -/
def rowBc64 (v : Chan) : Pooled :=
  broadcastInDim S64x128 ![0, 1] bcast_S1x128_S64x128_0_1 (broadcastInDim S1x128 ![1] bcast_S128_S1x128_1 v)

/-- A dense layer on the pooled features. -/
def dense (g : Pooled) (w : Sq) (b : Chan) : Pooled :=
  addf (Host.dotGeneral dot_S64x128_S128x128_S64x128_1_0_0_1_n_n none g w) (rowBc64 b)

def relu (x : Pooled) : Pooled := maximumf x (broadcastInDim S64x128 ![] bcast_S_S64x128 (constant S_ .f32 0x00000000#32))

/-- A per-graph value repeated along the channel axis. -/
def colBc64 (v : FVec Ideal S64 .f32) : Pooled :=
  broadcastInDim S64x128 ![0, 1] bcast_S64x1_S64x128_0_1 (broadcastInDim S64x1 ![0] bcast_S64_S64x1_0 v)

/-- A row with its maximum taken off. -/
def shifted (x : Pooled) : Pooled :=
  subf x (colBc64 (maximumf (broadcastInDim S64 ![] bcast_S_S64 (constant S_ .f32 0xFF800000#32))
    (Host.reduce FloatOps.maximumf x (constant S_ .f32 0xFF800000#32) reducesTo_S64x128_S64_d1 h_S_)))

/-- The row-wise log-softmax. -/
def logSoftmax (x : Pooled) : Pooled :=
  subf (shifted x) (broadcastInDim S64x128 ![0, 1] bcast_S64x1_S64x128_0_1 (Host.log (broadcastInDim S64x1 ![0] bcast_S64_S64x1_0
    (Host.reduceAdd (Host.exp (shifted x)) (constant S_ .f32 0x00000000#32) reducesTo_S64x128_S64_d1 h_S_))))

def mlp (g : Pooled) (w1 : Sq) (b1 : Chan) (w2 : Sq) (b2 : Chan) : Pooled :=
  logSoftmax (dense (relu (dense g w1 b1)) w2 b2)

/-! ## The whole network -/

def out (x : Nodes) (e : IVec S2x800000 32) (batch : IVec S50000 32) (W_in : Sq) (b_in g_in be_in : Chan)
    (W_res : FVec Ideal S2x128x128 .f32) (b_res g_res be_res : FVec Ideal S2x128 .f32) (w1 : Sq) (b1 : Chan) (w2 : Sq) (b2 : Chan) : Pooled :=
  mlp (pool
    (layer (layer (layer x W_in b_in g_in be_in (src e) (dst e) (nrm (src e) (dst e)))
        (sq0 W_res) (ch0 b_res) (ch0 g_res) (ch0 be_res) (src e) (dst e) (nrm (src e) (dst e)))
      (sq1 W_res) (ch1 b_res) (ch1 g_res) (ch1 be_res) (src e) (dst e) (nrm (src e) (dst e)))
    batch) w1 b1 w2 b2

end Cert.ReferenceIdeal.Spec

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibRealNorm.lean ====
/-
  Real entries among the extended reals, continued: what a normalisation layer needs beyond sums and products.

  * closure of "is a real number" under negation, subtraction, the exponential, a quotient by a nonzero real, the
    host's sum along axes, and the logistic gate `y · (1 / (1 + exp (−y)))`;
  * a positive normal binary32 pattern denotes a positive real;
  * THE AFFINE LAW of a normalisation: for real `a μ r γ β`,
        a · (γ · r) + (β − μ · (γ · r))  =  (a − μ) · r · γ + β.
    On the extended reals this is false at infinities (the left side distributes a product over a difference), which
    is why every factor is first shown to be a real number.
-/
import Idealize.ShloMosaic.PureOps.Ideal
import Idealize.ShloMosaic.PureOps.Ideal.Laws
import proofs.«143752_j72559177499180_1_alg».proof.Proof.LibRealSum

noncomputable section

namespace Cert.Lib.RealNorm

open Idealize.ShloMosaic Cert.Lib.RealSum

theorem isReal_one : IsReal (1 : EReal) := ⟨1, EReal.coe_one.symm⟩

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_exp {x : EReal} (hx : IsReal x) : IsReal (Ideal.exp x) := by
  obtain ⟨a, rfl⟩ := hx; exact ⟨Real.exp a, rfl⟩

/-- A real divided by a nonzero real is a real: the ideal quotient is the product with the reciprocal. -/
theorem isReal_div {x : EReal} (hx : IsReal x) {r : ℝ} (hr : r ≠ 0) : IsReal (Ideal.div x (r : EReal)) := by
  rw [Ideal.div_coe hr]; exact hx.mul (IsReal.coe _)

/-- The host's sum along axes of a real array, from a real initial value, is real at every index. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) := by
  unfold Ideal.hostReduceAdd
  exact hi.add (IsReal.sum _ _ fun i _ => hx i)

/-- The exponential of a real is a positive real, so one plus it is a nonzero real. -/
theorem one_add_exp_neg (a : ℝ) : (1 : EReal) + Ideal.exp (-(a : EReal)) = ((1 + Real.exp (-a) : ℝ) : EReal) := by
  rw [← EReal.coe_neg]; rfl

/-- The logistic gate of a real is a real. -/
theorem isReal_gate {y : EReal} (hy : IsReal y) : IsReal (y * Ideal.div 1 (1 + Ideal.exp (-y))) := by
  obtain ⟨a, rfl⟩ := hy
  rw [one_add_exp_neg, Ideal.div_coe (by positivity)]
  exact (IsReal.coe a).mul (isReal_one.mul (IsReal.coe _))

/-- On a real the logistic function is the quotient `1 / (1 + exp (−y))`: both are the real `(1 + e^{−y})⁻¹`. -/
theorem logistic_coe_eq_div (a : ℝ) :
    Ideal.logistic (a : EReal) = Ideal.div 1 (1 + Ideal.exp (-(a : EReal))) := by
  rw [Ideal.logistic_coe, one_add_exp_neg, Ideal.div_coe (by positivity), one_mul, one_div]

theorem isReal_logistic {y : EReal} (hy : IsReal y) : IsReal (Ideal.logistic y) := by
  obtain ⟨a, rfl⟩ := hy; rw [Ideal.logistic_coe]; exact IsReal.coe _

/-- The affine law on reals. -/
theorem affine_coe (a μ r γ β : ℝ) :
    (a : EReal) * ((γ : EReal) * (r : EReal)) + ((β : EReal) - (μ : EReal) * ((γ : EReal) * (r : EReal)))
      = ((a : EReal) - (μ : EReal)) * (r : EReal) * (γ : EReal) + (β : EReal) := by
  simp only [← EReal.coe_mul, ← EReal.coe_sub, ← EReal.coe_add]
  congr 1; ring

/-- THE AFFINE LAW: scaling by `γ·r` and shifting by `β − μ·(γ·r)` is centring at `μ`, scaling by `r`, then by `γ`, and
    shifting by `β` — for real numbers. -/
theorem affine {a μ r γ β : EReal} (ha : IsReal a) (hμ : IsReal μ) (hr : IsReal r) (hγ : IsReal γ) (hβ : IsReal β) :
    a * (γ * r) + (β - μ * (γ * r)) = (a - μ) * r * γ + β := by
  obtain ⟨a, rfl⟩ := ha; obtain ⟨μ, rfl⟩ := hμ; obtain ⟨r, rfl⟩ := hr; obtain ⟨γ, rfl⟩ := hγ; obtain ⟨β, rfl⟩ := hβ
  exact affine_coe a μ r γ β

/-- A binary32 pattern with sign bit clear and exponent field neither all zeros nor all ones denotes a positive
    real: `(2^23 + fraction) · 2^(exponent − 127 − 23)`. -/
theorem ofBits_pos_of_normal (b : BitVec 32) (hs : (b.extractLsb' 31 1 == 1#1) = false)
    (h1 : (b.extractLsb' 23 8).toNat ≠ 255) (h0 : (b.extractLsb' 23 8).toNat ≠ 0) :
    ∃ r : ℝ, 0 < r ∧ Ideal.ofBits .f32 b = (r : EReal) := by
  refine ⟨(1 : ℝ) * ((2 ^ 23 + (b.extractLsb' 0 23).toNat : ℕ) : ℝ) * (2 : ℝ) ^ (((b.extractLsb' 23 8).toNat : Int) - (2 ^ (8 - 1) - 1) - 23), by positivity, ?_⟩
  show Ideal.ieee 8 23 b = _
  unfold Ideal.ieee
  simp only [hs]
  rw [if_neg (by simpa using h1), if_neg h0]
  simp

end Cert.Lib.RealNorm

end
-- ==== Proof.LayerBridge.lean ====
import proofs.«143752_j72559177499180_1_alg».proof.Proof.KRegions
import proofs.«143752_j72559177499180_1_alg».proof.Proof.KSpec
import proofs.«143752_j72559177499180_1_alg».proof.Proof.Spec
import proofs.«143752_j72559177499180_1_alg».proof.Proof.LibRealSum
import proofs.«143752_j72559177499180_1_alg».proof.Proof.LibRealNorm
import proofs.«143752_j72559177499180_1_alg».proof.Proof.LibPlainDot
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.LayerBridge

open Idealize.ShloMosaic Idealize.ShloMosaic.ValueIdx Cert.Lib.RealSum Cert.Lib.RealNorm
open Cert.ReferenceIdeal Cert.KernelIdeal

variable [Cert.KernelIdeal.Facts₀] [Cert.ReferenceIdeal.Facts₀]

/-! # One layer of the network: the kernel program's spelling against the reference's

A layer maps node features `h` to `silu (normalise (aggregate (h · W) + b))`. Both programs compute the product, the
aggregation over the edges, and the per-channel mean and variance over the 50000 nodes with the same host operations;
they differ in how the normalisation reaches the features:

* the reference centres, scales by `rstd = 1 / sqrt (variance + ε)`, scales by `γ`, shifts by `β`, and applies
  `x ↦ x · (1 / (1 + exp (−x)))`;
* the kernel program folds the normalisation into one per-channel scale `γ · rstd` and one per-channel shift
  `β − mean · (γ · rstd)`, and its elementwise region computes `y · logistic y` of `y = a · scale + shift`.

The two agree by the affine law `a · (γ·r) + (β − μ · (γ·r)) = (a − μ) · r · γ + β`, which holds for real numbers and
FAILS at infinities. So the bridge has three parts: the two programs' vocabularies name the same operations; every
piece of a layer keeps real entries real (the in-degrees are sums of ones, the variance is a sum of squares over a
positive count, and `variance + ε` is positive, so its reciprocal root is a real); and then the law, entry by entry. -/

/-! ## The two programs' vocabularies agree

Each program prints its own copy of every shape, dimension record and side condition. The shapes are the same
literals, the records have the same fields, and the side conditions are propositions, so each host-side piece stated
over the kernel program's vocabulary IS the piece of the same name stated over the reference's. -/

theorem src_eq (e : IVec Cert.ReferenceIdeal.S2x800000 32) : KSpec.src e = Spec.src e := rfl
theorem dst_eq (e : IVec Cert.ReferenceIdeal.S2x800000 32) : KSpec.dst e = Spec.dst e := rfl
theorem nrm_eq (s d : Spec.Ends) : KSpec.nrm s d = Spec.nrm s d := rfl
theorem agg_eq (hW : Spec.Nodes) (b : Spec.Chan) (s d : Spec.Ends) (ν : Spec.Wts) :
    KSpec.agg hW b s d ν = Spec.agg hW b s d ν := rfl
theorem mean_eq (a : Spec.Nodes) : KSpec.mean a = Spec.mean a := rfl
theorem var_eq (a : Spec.Nodes) : KSpec.var a = Spec.var a := rfl
theorem rstd_eq (a : Spec.Nodes) : KSpec.rstd a = Spec.rstd a := rfl
theorem pool_eq (h : Spec.Nodes) (batch : IVec Cert.ReferenceIdeal.S50000 32) : KSpec.pool h batch = Spec.pool h batch := rfl
theorem sq0_eq (W : FVec Ideal Cert.ReferenceIdeal.S2x128x128 .f32) : KSpec.sq0 W = Spec.sq0 W := rfl
theorem sq1_eq (W : FVec Ideal Cert.ReferenceIdeal.S2x128x128 .f32) : KSpec.sq1 W = Spec.sq1 W := rfl
theorem ch0_eq (v : FVec Ideal Cert.ReferenceIdeal.S2x128 .f32) : KSpec.ch0 v = Spec.ch0 v := rfl
theorem ch1_eq (v : FVec Ideal Cert.ReferenceIdeal.S2x128 .f32) : KSpec.ch1 v = Spec.ch1 v := rfl

/-! ## The reference's matrix product is the kernel regions' -/

/-- The reference's product record is that of a plain matrix product. -/
theorem plainRef : Cert.PlainDot.IsPlain Cert.ReferenceIdeal.dot_S50000x128_S128x128_S50000x128_1_0_0_1_n_n :=
  ⟨rfl, rfl, rfl, rfl, rfl, rfl⟩

/-- The host's `dot_general` of the features with a layer's matrix is, entry by entry, the sum over the contracted
    index: the whole-array function the three matrix-product regions compute. -/
theorem lin_eq (h : Spec.Nodes) (W : Spec.Sq) : Spec.lin h W = KRegions.matG h W := by
  funext i
  obtain ⟨p, q, rfl⟩ : ∃ (p : Fin 50000) (q : Fin 128), i = ix2 p q := ⟨i 0, i 1, eq_ix2 i⟩
  exact Cert.PlainDot.dotGeneral_apply _ plainRef none h W p q

/-! ## Small facts over arbitrary shapes

The arrays of this network have millions of entries, so every fact about one operation is stated once over an
arbitrary shape and arbitrary operands, and only then used at the network's arrays. -/

section Generic
variable {s t : Shape}

theorem addf_real (x y : FVec Ideal s .f32) (i : s.Idx) (hx : IsReal (x i)) (hy : IsReal (y i)) :
    IsReal (addf x y i) := hx.add hy

theorem subf_real (x y : FVec Ideal s .f32) (i : s.Idx) (hx : IsReal (x i)) (hy : IsReal (y i)) :
    IsReal (subf x y i) := isReal_sub hx hy

theorem mulf_real (x y : FVec Ideal s .f32) (i : s.Idx) (hx : IsReal (x i)) (hy : IsReal (y i)) :
    IsReal (mulf x y i) := hx.mul hy

/-- A broadcast reads its operand somewhere. -/
theorem bcast_real (dims : Fin s.rank → Fin t.rank) (h : s.BroadcastsInDim t dims) (x : s.Idx → EReal)
    (hx : ∀ k, IsReal (x k)) (j : t.Idx) : IsReal (broadcastInDim t dims h x j) := hx _

/-- A scalar constant spread over any shape reads the constant's value. -/
theorem bcast_const (h : (⟨0, ![]⟩ : Shape).BroadcastsInDim t ![]) (w : BitVec 32) (j : t.Idx) :
    broadcastInDim t ![] h (constant (F := Ideal) (⟨0, ![]⟩ : Shape) .f32 w) j = Ideal.ofBits .f32 w := rfl

/-- A quotient of a real by a nonzero real, entry by entry. -/
theorem hostDivf_real (x c : FVec Ideal s .f32) (i : s.Idx) (hx : IsReal (x i)) {r : ℝ} (hc : c i = (r : EReal))
    (hr : r ≠ 0) : IsReal (Host.divf x c i) := by
  show IsReal (Ideal.div (x i) (c i))
  rw [hc]; exact isReal_div hx hr

/-- The reciprocal root of the maximum of a real and a positive real, entry by entry. -/
theorem hostRsqrtMax_real (x c : FVec Ideal s .f32) (i : s.Idx) (hx : IsReal (x i)) {r : ℝ} (hc : c i = (r : EReal))
    (hr : 0 < r) : IsReal (Host.rsqrt (maximumf x c) i) := IsReal.host_rsqrt_max hx hc hr

/-- The reciprocal root of a real that is not negative plus a positive real, entry by entry. -/
theorem hostRsqrtAdd_real (v e : FVec Ideal s .f32) (i : s.Idx) {r ε : ℝ} (hr : 0 ≤ r) (hv : v i = (r : EReal))
    (hε : 0 < ε) (he : e i = (ε : EReal)) : IsReal (Host.rsqrt (addf v e) i) := by
  show IsReal (Ideal.rsqrt (v i + e i))
  rw [hv, he, ← EReal.coe_add]
  exact IsReal.rsqrt_of_pos (add_pos_of_nonneg_of_pos hr hε)

/-- The host's sum along axes of real entries, from a real initial value, is real. -/
theorem hostReduceAdd_real {u : Shape} {axes : List (Fin s.rank)} (x : FVec Ideal s .f32) (init : u.Idx → Ideal .f32)
    (h : s.ReducesTo axes t) (hu : 0 < u.numel) (hx : ∀ i, IsReal (x i)) (hi : IsReal (init (Shape.Idx.first hu)))
    (j : t.Idx) : IsReal (Host.reduceAdd x init h hu j) :=
  isReal_hostReduceAdd h x _ hx hi j

/-- A sum of squares of reals, from zero, is a real that is not negative. -/
theorem sumsq_nonneg {axes : List (Fin s.rank)} (h : s.ReducesTo axes t) (x : s.Idx → EReal)
    (hx : ∀ i, IsReal (x i)) (j : t.Idx) :
    ∃ r : ℝ, 0 ≤ r ∧ Ideal.hostReduceAdd h (fun i => x i * x i) 0 j = (r : EReal) := by
  choose f hf using hx
  refine ⟨∑ i ∈ Finset.univ.filter (fun i => h.drop i = j), f i * f i,
    Finset.sum_nonneg fun i _ => mul_self_nonneg (f i), ?_⟩
  unfold Ideal.hostReduceAdd
  simp only [hf]
  exact step_real _ f f

/-- The same for the host's sum of the entrywise square, from an initial array whose first entry is zero. -/
theorem hostSumsq_nonneg {u : Shape} {axes : List (Fin s.rank)} (c : FVec Ideal s .f32) (init : u.Idx → Ideal .f32)
    (h : s.ReducesTo axes t) (hu : 0 < u.numel) (hc : ∀ i, IsReal (c i)) (hi : init (Shape.Idx.first hu) = 0)
    (j : t.Idx) : ∃ r : ℝ, 0 ≤ r ∧ Host.reduceAdd (mulf c c) init h hu j = (r : EReal) := by
  obtain ⟨r, hr, er⟩ := sumsq_nonneg h c hc j
  refine ⟨r, hr, ?_⟩
  show Ideal.hostReduceAdd h (fun i => c i * c i) (init (Shape.Idx.first hu)) j = _
  rw [hi, er]

/-- A choice on "count > 0" with a positive count takes the quotient by the count. -/
theorem select_pos_count (cnt z : FVec Ideal (⟨0, ![]⟩ : Shape) .f32) (num other : FVec Ideal t .f32)
    (h1 h2 : (⟨0, ![]⟩ : Shape).BroadcastsInDim t ![]) (q : t.Idx) {n : ℝ} (hn : 0 < n)
    (hc : ∀ i, cnt i = (n : EReal)) (hz : ∀ i, z i = 0) :
    select (broadcastInDim t ![] h1 (cmpf .ogt cnt z)) (Host.divf num (broadcastInDim t ![] h2 cnt)) other q
      = Ideal.div (num q) (n : EReal) := by
  have hcmp : Ideal.cmp .ogt (n : EReal) 0 = 1#1 := by
    unfold Ideal.cmp
    simp only [EReal.coe_pos.mpr hn, decide_true]
    rfl
  show Scalar.select (Ideal.cmp .ogt (cnt _) (z _)) (Ideal.div (num q) (cnt _)) (other q) = _
  rw [hc, hz, hcmp, select_one]

/-- The gate as the host spells it — `x · (1 / (1 + exp (−x)))` with the ones spread from a constant. -/
theorem silu_form (x one : FVec Ideal s .f32) (h1 : ∀ i, one i = 1) (i : s.Idx) :
    mulf x (Host.divf one (addf one (Host.exp (Host.negf x)))) i
      = x i * Ideal.div 1 (1 + Ideal.exp (-(x i))) := by
  show x i * Ideal.div (one i) (one i + Ideal.exp (-(x i))) = _
  rw [h1]

/-- Centre, scale, scale, shift, entry by entry. -/
theorem norm_form (a m r g b : FVec Ideal s .f32) (i : s.Idx) :
    addf (mulf (mulf (subf a m) r) g) b i = (a i - m i) * r i * g i + b i := rfl

end Generic

/-! ## Three constants -/

/-- The word of `1.0`. -/
theorem one_val : Ideal.ofBits .f32 0x3F800000#32 = ((1 : ℝ) : EReal) := by
  rw [Ideal.ofBits_one_f32]; exact EReal.coe_one.symm

/-- The word of `50000.0` is a positive real. -/
theorem count_pos : ∃ n : ℝ, 0 < n ∧ Ideal.ofBits .f32 0x47435000#32 = (n : EReal) :=
  ofBits_pos_of_normal _ (by decide) (by decide) (by decide)

/-- The word of `ε` is a positive real. -/
theorem eps_pos : ∃ e : ℝ, 0 < e ∧ Ideal.ofBits .f32 0x3727C5AC#32 = (e : EReal) :=
  ofBits_pos_of_normal _ (by decide) (by decide) (by decide)

/-- A spread zero is real. -/
theorem zero_bcast_real {t : Shape} (h : (⟨0, ![]⟩ : Shape).BroadcastsInDim t ![]) (j : t.Idx) :
    IsReal (broadcastInDim t ![] h (constant (F := Ideal) (⟨0, ![]⟩ : Shape) .f32 0x00000000#32) j) :=
  IsReal.ofBits_zero

/-- A spread one is real. -/
theorem one_bcast_real {t : Shape} (h : (⟨0, ![]⟩ : Shape).BroadcastsInDim t ![]) (j : t.Idx) :
    IsReal (broadcastInDim t ![] h (constant (F := Ideal) (⟨0, ![]⟩ : Shape) .f32 0x3F800000#32) j) := by
  rw [bcast_const, one_val]; exact IsReal.coe 1

/-! ## Every piece of a layer keeps real entries real -/

/-- An in-degree is zero plus a sum of ones. -/
theorem deg_real (d : Spec.Ends) (i : Cert.ReferenceIdeal.S50000.Idx) : IsReal (Spec.deg d i) := by
  unfold Spec.deg
  exact IsReal.host_scatterAdd _ _ _ _ (zero_bcast_real _) (one_bcast_real _) i

/-- `1 / sqrt (max (in-degree, 1))` is the reciprocal root of a real that is at least one. -/
theorem dinv_real (d : Spec.Ends) (i : Cert.ReferenceIdeal.S50000.Idx) : IsReal (Spec.dinv d i) := by
  unfold Spec.dinv
  exact hostRsqrtMax_real _ _ i (deg_real d i) ((bcast_const _ _ i).trans one_val) one_pos

/-- An edge's weight is a product of two such. -/
theorem nrm_real (s d : Spec.Ends) : ∀ i, IsReal (Spec.nrm s d i) := fun i => by
  unfold Spec.nrm
  exact mulf_real _ _ i (IsReal.host_gather _ _ _ (dinv_real d) i) (IsReal.host_gather _ _ _ (dinv_real d) i)

/-- A product of real matrices is real: each entry is a finite sum of products. -/
theorem lin_real (h : Spec.Nodes) (W : Spec.Sq) (hh : ∀ i, IsReal (h i)) (hW : ∀ i, IsReal (W i)) :
    ∀ i, IsReal (Spec.lin h W i) := fun i => by
  rw [lin_eq]
  exact IsReal.sum _ _ fun k _ => (hh _).mul (hW _)

/-- A per-channel vector repeated along the node axis is real where the vector is. -/
theorem rowBc_real (v : Spec.Chan) (hv : ∀ i, IsReal (v i)) (i : Cert.ReferenceIdeal.S50000x128.Idx) :
    IsReal (Spec.rowBc v i) := by
  unfold Spec.rowBc
  exact bcast_real _ _ _ (bcast_real _ _ v hv) i

/-- The aggregation of real rows with real weights, plus a real bias, is real: each entry is zero plus a finite sum of
    products, plus the bias. -/
theorem agg_real (hW : Spec.Nodes) (b : Spec.Chan) (s d : Spec.Ends) (ν : Spec.Wts) (hhW : ∀ i, IsReal (hW i))
    (hb : ∀ i, IsReal (b i)) (hν : ∀ i, IsReal (ν i)) : ∀ i, IsReal (Spec.agg hW b s d ν i) := fun i => by
  unfold Spec.agg
  exact addf_real _ _ i
    (IsReal.host_scatterAdd _ _ _ _ (zero_bcast_real _)
      (fun j => mulf_real _ _ j (IsReal.host_gather _ _ _ hhW j) (bcast_real _ _ _ (bcast_real _ _ ν hν) j)) i)
    (rowBc_real b hb i)

/-- A sum over the node axis of real entries, from zero, is real. -/
theorem colSum_real (a : Spec.Nodes) (ha : ∀ i, IsReal (a i)) : ∀ q, IsReal (Spec.colSum a q) := fun q => by
  unfold Spec.colSum
  exact hostReduceAdd_real a _ _ _ ha IsReal.ofBits_zero q

/-- The mean: a real sum divided by the positive real `50000`. -/
theorem mean_real (a : Spec.Nodes) (ha : ∀ i, IsReal (a i)) : ∀ q, IsReal (Spec.mean a q) := fun q => by
  obtain ⟨n, hn, en⟩ := count_pos
  unfold Spec.mean
  exact hostDivf_real _ _ q (colSum_real a ha q) ((bcast_const _ _ q).trans en) hn.ne'

/-- The centred features are real. -/
theorem centred_real (a : Spec.Nodes) (ha : ∀ i, IsReal (a i)) : ∀ i, IsReal (Spec.centred a i) := fun i => by
  obtain ⟨n, hn, en⟩ := count_pos
  unfold Spec.centred
  refine subf_real _ _ i (ha i) (bcast_real _ _ _ (fun k => ?_) i)
  exact hostDivf_real _ _ k (bcast_real _ _ _ (colSum_real a ha) k) ((bcast_const _ _ k).trans en) hn.ne'

/-- The variance's divisor is the real `50000`: the count less the correction zero. -/
theorem cnt_val {n : ℝ} (en : Ideal.ofBits .f32 0x47435000#32 = (n : EReal)) (i : Cert.ReferenceIdeal.S_.Idx) :
    Spec.cnt i = (n : EReal) := by
  show Ideal.ofBits .f32 0x47435000#32 - (((0#32 : BitVec 32).toInt : ℝ) : EReal) = _
  rw [en, BitVec.toInt_zero, Int.cast_zero, EReal.coe_zero, sub_zero]

/-- The comparison `count > 0` holds, so the variance is the quotient: the sum of squares of the centred features over
    the count. -/
theorem var_form (a : Spec.Nodes) (q : Cert.ReferenceIdeal.S128.Idx) {n : ℝ} (hn : 0 < n)
    (en : Ideal.ofBits .f32 0x47435000#32 = (n : EReal)) :
    Spec.var a q = Ideal.div (Spec.colSum (mulf (Spec.centred a) (Spec.centred a)) q) (n : EReal) := by
  unfold Spec.var
  exact select_pos_count Spec.cnt _ _ _ _ _ q hn (cnt_val en) (fun _ => Ideal.ofBits_zero_f32)

/-- The variance is a real that is not negative. -/
theorem var_real_nonneg (a : Spec.Nodes) (ha : ∀ i, IsReal (a i)) :
    ∀ q, ∃ r : ℝ, 0 ≤ r ∧ Spec.var a q = (r : EReal) := fun q => by
  obtain ⟨n, hn, en⟩ := count_pos
  have hs : ∃ r : ℝ, 0 ≤ r ∧ Spec.colSum (mulf (Spec.centred a) (Spec.centred a)) q = (r : EReal) := by
    unfold Spec.colSum
    exact hostSumsq_nonneg _ _ _ _ (centred_real a ha) Ideal.ofBits_zero_f32 q
  obtain ⟨r, hr, er⟩ := hs
  refine ⟨r * (1 / n), by positivity, ?_⟩
  rw [var_form a q hn en, er, Ideal.div_coe hn.ne', ← EReal.coe_mul]

/-- `1 / sqrt (variance + ε)`: the reciprocal root of a positive real. -/
theorem rstd_real (a : Spec.Nodes) (ha : ∀ i, IsReal (a i)) : ∀ q, IsReal (Spec.rstd a q) := fun q => by
  obtain ⟨r, hr, er⟩ := var_real_nonneg a ha q
  obtain ⟨e, he, ee⟩ := eps_pos
  unfold Spec.rstd
  exact hostRsqrtAdd_real _ _ q hr er he ((bcast_const _ _ q).trans ee)

/-! ## The bridge: scale-and-shift is normalise -/

/-- A per-channel vector repeated along the node axis reads, at `(p, q)`, the vector at `q`. -/
theorem rowBc_apply (v : Spec.Chan) (p : Fin 50000) (q : Fin 128) : Spec.rowBc v (ix2 p q) = v (ix1 q) := by
  unfold Spec.rowBc
  refine (broadcastInDim_apply _ _ _ (ix2 p q) (ix2 (0 : Fin 1) q) fun a => ?_).trans
    (broadcastInDim_apply _ _ v (ix2 (0 : Fin 1) q) (ix1 q) fun a => ?_)
  · match a with
    | ⟨0, _⟩ => rfl
    | ⟨1, _⟩ => rfl
  · match a with
    | ⟨0, _⟩ => rfl

/-- A per-channel vector re-laid as a `1 × 128` row reads, at `(0, q)`, the vector at `q`. -/
theorem row_apply (v : Spec.Chan) (q : Fin 128) : KSpec.row v (ix2 (0 : Fin 1) q) = v (ix1 q) := by
  unfold KSpec.row
  exact shapeCast_a_1a_apply v _ 0 q

/-- The normalised features at `(p, q)`: centre at the channel's mean, scale by its `rstd`, then by `γ`, shift by `β`. -/
theorem norm_apply (a : Spec.Nodes) (γ β : Spec.Chan) (p : Fin 50000) (q : Fin 128) :
    Spec.norm a γ β (ix2 p q) = (a (ix2 p q) - Spec.mean a (ix1 q)) * Spec.rstd a (ix1 q) * γ (ix1 q) + β (ix1 q) := by
  unfold Spec.norm
  rw [norm_form, rowBc_apply, rowBc_apply, rowBc_apply, rowBc_apply]

/-- The gate at an entry. -/
theorem silu_apply (x : Spec.Nodes) (i : Cert.ReferenceIdeal.S50000x128.Idx) :
    Spec.silu x i = x i * Ideal.div 1 (1 + Ideal.exp (-(x i))) := by
  unfold Spec.silu
  exact silu_form x _ (fun j => (bcast_const _ _ j).trans Ideal.ofBits_one_f32) i

/-- What the kernel's host code hands the elementwise region, at channel `q`, against the reference's normalisation:
    THE AFFINE LAW on real entries. -/
theorem scale_shift (A : Spec.Nodes) (γ β : Spec.Chan) (hA : ∀ i, IsReal (A i)) (hγ : ∀ i, IsReal (γ i))
    (hβ : ∀ i, IsReal (β i)) (p : Fin 50000) (q : Fin 128) :
    A (ix2 p q) * KSpec.scale A γ (ix1 q) + KSpec.shift A γ β (ix1 q) = Spec.norm A γ β (ix2 p q) := by
  rw [norm_apply]
  unfold KSpec.shift KSpec.scale
  simp only [subf_apply, mulf_apply]
  rw [rstd_eq, mean_eq]
  exact affine (hA _) (mean_real A hA _) (rstd_real A hA _) (hγ _) (hβ _)

/-- ONE LAYER. The kernel program hands its elementwise region the aggregated features `a`, the row `γ · rstd a` and
    the row `β − mean a · (γ · rstd a)`; the region computes `y · logistic y` of `y = a · scale + shift`. The reference
    computes `y' · (1 / (1 + exp (−y')))` of `y' = (a − mean a) · rstd a · γ + β`. On real entries `y = y'` (the affine
    law, which fails at infinities), and `logistic` is `1 / (1 + exp (−·))` by definition. -/
theorem layer_eq (h : Spec.Nodes) (W : Spec.Sq) (b γ β : Spec.Chan) (s d : Spec.Ends) (ν : Spec.Wts)
    (hh : ∀ i, IsReal (h i)) (hW : ∀ i, IsReal (W i)) (hb : ∀ i, IsReal (b i)) (hγ : ∀ i, IsReal (γ i))
    (hβ : ∀ i, IsReal (β i)) (hν : ∀ i, IsReal (ν i)) :
    KRegions.bnsiluG (KSpec.agg (KRegions.matG h W) b s d ν)
        (KSpec.row (KSpec.scale (KSpec.agg (KRegions.matG h W) b s d ν) γ))
        (KSpec.row (KSpec.shift (KSpec.agg (KRegions.matG h W) b s d ν) γ β))
      = Spec.layer h W b γ β s d ν := by
  rw [← lin_eq h W, agg_eq]
  have hA : ∀ i, IsReal (Spec.agg (Spec.lin h W) b s d ν i) := agg_real _ b s d ν (lin_real h W hh hW) hb hν
  unfold Spec.layer
  generalize Spec.agg (Spec.lin h W) b s d ν = A at hA ⊢
  funext i
  obtain ⟨p, q, rfl⟩ : ∃ (p : Fin 50000) (q : Fin 128), i = ix2 p q := ⟨i 0, i 1, eq_ix2 i⟩
  rw [KRegions.bnsiluG_apply, row_apply, row_apply, scale_shift A γ β hA hγ hβ p q, silu_apply, KRegions.logistic_eq]

/-- A layer of real inputs is real: the gate of a real is real. -/
theorem layer_real (h : Spec.Nodes) (W : Spec.Sq) (b γ β : Spec.Chan) (s d : Spec.Ends) (ν : Spec.Wts)
    (hh : ∀ i, IsReal (h i)) (hW : ∀ i, IsReal (W i)) (hb : ∀ i, IsReal (b i)) (hγ : ∀ i, IsReal (γ i))
    (hβ : ∀ i, IsReal (β i)) (hν : ∀ i, IsReal (ν i)) : ∀ i, IsReal (Spec.layer h W b γ β s d ν i) := fun i => by
  have hA : ∀ i, IsReal (Spec.agg (Spec.lin h W) b s d ν i) := agg_real _ b s d ν (lin_real h W hh hW) hb hν
  unfold Spec.layer
  generalize Spec.agg (Spec.lin h W) b s d ν = A at hA ⊢
  obtain ⟨p, q, rfl⟩ : ∃ (p : Fin 50000) (q : Fin 128), i = ix2 p q := ⟨i 0, i 1, eq_ix2 i⟩
  rw [silu_apply]
  refine isReal_gate ?_
  rw [norm_apply]
  exact (((isReal_sub (hA _) (mean_real A hA _)).mul (rstd_real A hA _)).mul (hγ _)).add (hβ _)

end Cert.LayerBridge

end
-- ==== Proof.NetBridge.lean ====
/-
  The whole network: what the tiled program's last region writes is the reference's result.

  The tiled program computes its three graph-convolution layers with regions for the matrix product and for the
  normalise-and-gate step and host operations in between, pools the node features per graph with host operations,
  and hands the pooled features to the perceptron region. Layer by layer its features are the reference's
  (`LayerBridge.layer_eq`), provided the layer's inputs are real numbers: folding the normalisation
  `(a − mean) · rstd · γ + β` into one scale `γ · rstd` and one shift `β − mean · (γ · rstd)` per channel uses that a
  product distributes over a sum, a law of the reals that fails at the infinities. So the proof walks through the layers
  carrying "every entry is real" along (`LayerBridge.layer_real`): the arguments are real by hypothesis, a slice of
  a real parameter stack is real, the edge weights are real whatever the edge list is. The pooling is the same host
  operations on both sides, and the perceptron with its log-softmax needs no realness at all (`KFinal.mlp_eq`).
-/
import proofs.«143752_j72559177499180_1_alg».proof.Proof.KLayer
import proofs.«143752_j72559177499180_1_alg».proof.Proof.KFinal
import proofs.«143752_j72559177499180_1_alg».proof.Proof.Spec
import proofs.«143752_j72559177499180_1_alg».proof.Proof.LayerBridge
import proofs.«143752_j72559177499180_1_alg».proof.Proof.LibRealSum

noncomputable section

namespace Cert.NetBridge

open Idealize.ShloMosaic Cert.Lib.RealSum
open Cert.KernelIdeal (KSpec.src KSpec.dst KSpec.nrm KSpec.pool KSpec.sq0 KSpec.sq1 KSpec.ch0 KSpec.ch1 KSpec.row)
open Cert.ReferenceIdeal (Spec.Nodes Spec.Sq Spec.Chan Spec.Ends Spec.Wts Spec.Pooled)

/-! ## The perceptron: the two ways of writing the reference's chain -/

/-- The reference's chain from the pooled features on, cut into stages in `KFinal` and in `Spec` alike: the same
    operations in the same order. -/
theorem mlpR_eq (g : Spec.Pooled) (w1 : Spec.Sq) (b1 : Spec.Chan) (w2 : Spec.Sq) (b2 : Spec.Chan) :
    Cert.KernelIdeal.KFinal.mlpR g w1 b1 w2 b2 = Cert.ReferenceIdeal.Spec.mlp g w1 b1 w2 b2 := rfl

/-! ## A slice of a real parameter stack is real -/

theorem sq0_real (W : FVec Ideal Cert.ReferenceIdeal.S2x128x128 .f32) (hW : ∀ i, IsReal (W i)) :
    ∀ i, IsReal (Cert.ReferenceIdeal.Spec.sq0 W i) := fun i => hW _
theorem sq1_real (W : FVec Ideal Cert.ReferenceIdeal.S2x128x128 .f32) (hW : ∀ i, IsReal (W i)) :
    ∀ i, IsReal (Cert.ReferenceIdeal.Spec.sq1 W i) := fun i => hW _
theorem ch0_real (v : FVec Ideal Cert.ReferenceIdeal.S2x128 .f32) (hv : ∀ i, IsReal (v i)) :
    ∀ i, IsReal (Cert.ReferenceIdeal.Spec.ch0 v i) := fun i => hv _
theorem ch1_real (v : FVec Ideal Cert.ReferenceIdeal.S2x128 .f32) (hv : ∀ i, IsReal (v i)) :
    ∀ i, IsReal (Cert.ReferenceIdeal.Spec.ch1 v i) := fun i => hv _

/-! ## One layer, then three -/

/-- A layer of the tiled program is the reference's layer on real inputs. -/
theorem layerK_eq (h : Spec.Nodes) (W : Spec.Sq) (b γ β : Spec.Chan) (s d : Spec.Ends) (ν : Spec.Wts)
    (hh : ∀ i, IsReal (h i)) (hW : ∀ i, IsReal (W i)) (hb : ∀ i, IsReal (b i)) (hγ : ∀ i, IsReal (γ i))
    (hβ : ∀ i, IsReal (β i)) (hν : ∀ i, IsReal (ν i)) :
    Cert.KernelIdeal.KLayer.layerK h W b γ β s d ν = Cert.ReferenceIdeal.Spec.layer h W b γ β s d ν :=
  Cert.LayerBridge.layer_eq h W b γ β s d ν hh hW hb hγ hβ hν

/-- The pooled features: three layers on the same edge data, each fed by the one before, then the per-graph mean. -/
theorem pooled_eq (x : Spec.Nodes) (e : IVec Cert.ReferenceIdeal.S2x800000 32) (batch : IVec Cert.ReferenceIdeal.S50000 32)
    (W_in : Spec.Sq) (b_in g_in be_in : Spec.Chan) (W_res : FVec Ideal Cert.ReferenceIdeal.S2x128x128 .f32)
    (b_res g_res be_res : FVec Ideal Cert.ReferenceIdeal.S2x128 .f32)
    (hx : ∀ i, IsReal (x i)) (hWin : ∀ i, IsReal (W_in i)) (hbin : ∀ i, IsReal (b_in i)) (hgin : ∀ i, IsReal (g_in i))
    (hbein : ∀ i, IsReal (be_in i)) (hWres : ∀ i, IsReal (W_res i)) (hbres : ∀ i, IsReal (b_res i))
    (hgres : ∀ i, IsReal (g_res i)) (hberes : ∀ i, IsReal (be_res i)) :
    Cert.KernelIdeal.KLayer.pooledK x e batch W_in b_in g_in be_in W_res b_res g_res be_res
      = Cert.ReferenceIdeal.Spec.pool
          (Cert.ReferenceIdeal.Spec.layer
            (Cert.ReferenceIdeal.Spec.layer
              (Cert.ReferenceIdeal.Spec.layer x W_in b_in g_in be_in (Cert.ReferenceIdeal.Spec.src e)
                (Cert.ReferenceIdeal.Spec.dst e)
                (Cert.ReferenceIdeal.Spec.nrm (Cert.ReferenceIdeal.Spec.src e) (Cert.ReferenceIdeal.Spec.dst e)))
              (Cert.ReferenceIdeal.Spec.sq0 W_res) (Cert.ReferenceIdeal.Spec.ch0 b_res) (Cert.ReferenceIdeal.Spec.ch0 g_res)
              (Cert.ReferenceIdeal.Spec.ch0 be_res) (Cert.ReferenceIdeal.Spec.src e) (Cert.ReferenceIdeal.Spec.dst e)
              (Cert.ReferenceIdeal.Spec.nrm (Cert.ReferenceIdeal.Spec.src e) (Cert.ReferenceIdeal.Spec.dst e)))
            (Cert.ReferenceIdeal.Spec.sq1 W_res) (Cert.ReferenceIdeal.Spec.ch1 b_res) (Cert.ReferenceIdeal.Spec.ch1 g_res)
            (Cert.ReferenceIdeal.Spec.ch1 be_res) (Cert.ReferenceIdeal.Spec.src e) (Cert.ReferenceIdeal.Spec.dst e)
            (Cert.ReferenceIdeal.Spec.nrm (Cert.ReferenceIdeal.Spec.src e) (Cert.ReferenceIdeal.Spec.dst e)))
          batch := by
  unfold Cert.KernelIdeal.KLayer.pooledK
  -- the edge list, the edge weights, the parameter slices and the pooling are the same host operations on both sides
  rw [Cert.LayerBridge.src_eq, Cert.LayerBridge.dst_eq, Cert.LayerBridge.nrm_eq, Cert.LayerBridge.sq0_eq,
    Cert.LayerBridge.sq1_eq, Cert.LayerBridge.ch0_eq b_res, Cert.LayerBridge.ch0_eq g_res, Cert.LayerBridge.ch0_eq be_res,
    Cert.LayerBridge.ch1_eq b_res, Cert.LayerBridge.ch1_eq g_res, Cert.LayerBridge.ch1_eq be_res, Cert.LayerBridge.pool_eq]
  -- from here on the edge data are three names; the weights are real whatever the edges are
  have hν := Cert.LayerBridge.nrm_real (Cert.ReferenceIdeal.Spec.src e) (Cert.ReferenceIdeal.Spec.dst e)
  generalize Cert.ReferenceIdeal.Spec.nrm (Cert.ReferenceIdeal.Spec.src e) (Cert.ReferenceIdeal.Spec.dst e) = ν at hν ⊢
  generalize Cert.ReferenceIdeal.Spec.src e = s
  generalize Cert.ReferenceIdeal.Spec.dst e = d
  -- the first layer, on the arguments
  rw [layerK_eq x W_in b_in g_in be_in s d ν hx hWin hbin hgin hbein hν]
  have r1 := Cert.LayerBridge.layer_real x W_in b_in g_in be_in s d ν hx hWin hbin hgin hbein hν
  generalize Cert.ReferenceIdeal.Spec.layer x W_in b_in g_in be_in s d ν = h1 at r1 ⊢
  -- the second, on the first's output and slice 0 of the stacked parameters
  have hW0 := sq0_real W_res hWres
  have hb0 := ch0_real b_res hbres
  have hg0 := ch0_real g_res hgres
  have hbe0 := ch0_real be_res hberes
  rw [layerK_eq h1 _ _ _ _ s d ν r1 hW0 hb0 hg0 hbe0 hν]
  have r2 := Cert.LayerBridge.layer_real h1 _ _ _ _ s d ν r1 hW0 hb0 hg0 hbe0 hν
  generalize Cert.ReferenceIdeal.Spec.layer h1 (Cert.ReferenceIdeal.Spec.sq0 W_res) (Cert.ReferenceIdeal.Spec.ch0 b_res)
    (Cert.ReferenceIdeal.Spec.ch0 g_res) (Cert.ReferenceIdeal.Spec.ch0 be_res) s d ν = h2 at r2 ⊢
  -- the third, on the second's output and slice 1
  rw [layerK_eq h2 _ _ _ _ s d ν r2 (sq1_real W_res hWres) (ch1_real b_res hbres) (ch1_real g_res hgres)
    (ch1_real be_res hberes) hν]

/-! ## The network -/

/-- THE NETWORK: on real node features and real layer parameters, what the perceptron region leaves in its output
    buffer — given the tiled program's pooled features, the two weight matrices and the two biases laid out as rows —
    is the reference's result. The perceptron's own parameters may be any extended reals. -/
theorem net_eq (x : Spec.Nodes) (e : IVec Cert.ReferenceIdeal.S2x800000 32) (batch : IVec Cert.ReferenceIdeal.S50000 32)
    (W_in : Spec.Sq) (b_in g_in be_in : Spec.Chan) (W_res : FVec Ideal Cert.ReferenceIdeal.S2x128x128 .f32)
    (b_res g_res be_res : FVec Ideal Cert.ReferenceIdeal.S2x128 .f32) (w1 : Spec.Sq) (b1 : Spec.Chan) (w2 : Spec.Sq) (b2 : Spec.Chan)
    (hx : ∀ i, IsReal (x i)) (hWin : ∀ i, IsReal (W_in i)) (hbin : ∀ i, IsReal (b_in i)) (hgin : ∀ i, IsReal (g_in i))
    (hbein : ∀ i, IsReal (be_in i)) (hWres : ∀ i, IsReal (W_res i)) (hbres : ∀ i, IsReal (b_res i))
    (hgres : ∀ i, IsReal (g_res i)) (hberes : ∀ i, IsReal (be_res i)) :
    Cert.KernelIdeal.Gen.out6_5 (F := Ideal)
        (Cert.KernelIdeal.KLayer.pooledK x e batch W_in b_in g_in be_in W_res b_res g_res be_res) w1
        (Cert.KernelIdeal.KSpec.row b1) w2 (Cert.KernelIdeal.KSpec.row b2)
      = Cert.ReferenceIdeal.Spec.out x e batch W_in b_in g_in be_in W_res b_res g_res be_res w1 b1 w2 b2 := by
  -- the perceptron region is the reference's chain of its inputs, whatever they are
  refine (Cert.KernelIdeal.KFinal.mlp_eq _ w1 b1 w2 b2).trans ?_
  -- and its first input, the pooled features, is the reference's
  rw [pooled_eq x e batch W_in b_in g_in be_in W_res b_res g_res be_res hx hWin hbin hgin hbein hWres hbres hgres hberes]
  unfold Cert.ReferenceIdeal.Spec.out
  exact mlpR_eq _ w1 b1 w2 b2

end Cert.NetBridge

end
-- ==== Proof.RefRun.lean ====
/-
  The reference program's run, written out. The reference is a host program: @main is 212 statements, printed in four
  windows, and it calls four outlined functions (@_var, which itself calls @_where; @silu; @relu; @log_softmax). Here its
  operations are listed in program order, a called function's operations standing at the call over that call's record of
  buffers — the compiler's inlining, spelt out —, cut into fourteen lists where the mathematics changes subject (the edge
  weights; for each of the three layers its parameters, its aggregation and its normalisation; the pooling; the dense head)
  and where a printed window ends. `main_eq` says @main IS that line of operations; `run_all` then gives, for every weakly
  fair execution, termination and every buffer's final contents as the fold `after ops` of the operations' functions over
  the contents at launch.
-/
import proofs.«143752_j72559177499180_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The edge list with a self loop per node, and the edges' weights.
    `main_v3` (sources) and `main_v6` (targets) are rows 0 and 1 of the edge array `main_arg1`, each followed by the
    nodes 0 … 49999: 850000 entries. A node's degree is the number of entries of the target vector equal to it (ones
    scatter-added into zeros, `main_v10`), bounded below by 1 (`main_v12`); `main_v13` is its inverse square root. An
    edge's weight `main_v28` is the product of that value at its source and at its target (two gathers; a negative index
    is first wrapped by adding 50000, `main_v18` and `main_v25`). -/
abbrev opsEdges : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v3 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v3 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_3 (constantI S_ 32 0#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v20 main_v27 main_v28 (mulf : (⟨S850000, .f32⟩ : BufTy).Contents (Elt F) → (⟨S850000, .f32⟩ : BufTy).Contents (Elt F) → (⟨S850000, .f32⟩ : BufTy).Contents (Elt F)) ]

/-- Layer 1's aggregation. The node features times the weight matrix (`main_v29` = `main_arg0` · `main_arg4`), its rows
    gathered at the edges' sources (`main_v36`), each row scaled by its edge's weight (`main_v39`), the rows summed into
    the edges' targets (a scatter-add into zeros, `main_v42`), and the bias `main_arg5` added along every row: `main_v45`. -/
abbrev opsAgg1 : List (HloOp τ sig (Elt F)) :=
  [ binary main_arg0 main_arg4 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_5 (constantI S_ 32 0#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (addi : (⟨S850000, .i32⟩ : BufTy).Contents (Elt F) → (⟨S850000, .i32⟩ : BufTy).Contents (Elt F) → (⟨S850000, .i32⟩ : BufTy).Contents (Elt F)),
    ternary main_v31 main_v33 main_v3 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v34 main_v35 (broadcastInDim S850000x1 ![0] bcast_S850000_S850000x1_0 : (⟨S850000, .i32⟩ : BufTy).Contents (Elt F) → (⟨S850000x1, .i32⟩ : BufTy).Contents (Elt F)),
    binary main_v29 main_v35 main_v36 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v28 main_v37 (broadcastInDim S850000x1 ![0] bcast_S850000_S850000x1_0 : (⟨S850000, .f32⟩ : BufTy).Contents (Elt F) → (⟨S850000x1, .f32⟩ : BufTy).Contents (Elt F)),
    unary main_v37 main_v38 (broadcastInDim S850000x128 ![0, 1] bcast_S850000x1_S850000x128_0_1 : (⟨S850000x1, .f32⟩ : BufTy).Contents (Elt F) → (⟨S850000x128, .f32⟩ : BufTy).Contents (Elt F)),
    binary main_v36 main_v38 main_v39 (mulf : (⟨S850000x128, .f32⟩ : BufTy).Contents (Elt F) → (⟨S850000x128, .f32⟩ : BufTy).Contents (Elt F) → (⟨S850000x128, .f32⟩ : BufTy).Contents (Elt F)),
    nullary main_cst_7 (constant S_ .f32 0x00000000#32),
    unary main_cst_7 main_v40 (broadcastInDim S50000x128 ![] bcast_S_S50000x128 : (⟨S_, .f32⟩ : BufTy).Contents (Elt F) → (⟨S50000x128, .f32⟩ : BufTy).Contents (Elt F)),
    unary main_v6 main_v41 (broadcastInDim S850000x1 ![0] bcast_S850000_S850000x1_0 : (⟨S850000, .i32⟩ : BufTy).Contents (Elt F) → (⟨S850000x1, .i32⟩ : BufTy).Contents (Elt F)),
    ternary main_v40 main_v41 main_v39 main_v42 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg5 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v42 main_v44 main_v45 (addf : (⟨S50000x128, .f32⟩ : BufTy).Contents (Elt F) → (⟨S50000x128, .f32⟩ : BufTy).Contents (Elt F) → (⟨S50000x128, .f32⟩ : BufTy).Contents (Elt F)) ]

/-- Layer 1's normalisation over the nodes, first part: per column the sum of `main_v45` over the 50000 nodes
    (`main_v46`) and the count 50000 as a row (`main_v47`). -/
abbrev opsNorm1a : List (HloOp τ sig (Elt F)) :=
  [ nullary main_cst_8 (constant S_ .f32 0x00000000#32),
    binary main_v45 main_cst_8 main_v46 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_9 (constant S_ .f32 0x47435000#32),
    unary main_cst_9 main_v47 (broadcastInDim S128 ![] bcast_S_S128 : (⟨S_, .f32⟩ : BufTy).Contents (Elt F) → (⟨S128, .f32⟩ : BufTy).Contents (Elt F)) ]

/-- Layer 1's normalisation, second part. The column means `main_v48`; the column variances `main_v49` (the outlined
    function @_var over the record `main_call0`: the mean of the squared deviations from the column mean, the sum divided by
    50000 − 0, kept where that count is positive, the quiet-NaN word otherwise — the choice is the inner @_where, record
    `main_call0.call0`); then (a − mean) · rsqrt(var + 1e-5) · `main_arg6` + `main_arg7` (`main_v64`), and
    x · (1 / (1 + exp (−x))) of that (the outlined @silu over `main_call1`): `main_v65`, layer 1's output. -/
abbrev opsNorm1b : List (HloOp τ sig (Elt F)) :=
  [ binary main_v46 main_v47 main_v48 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    -- @_var (main_v45, main_c_10), its values in the record main_call0
    TRef.nullary main_call0.cst (constant S_ .f32 0x00000000#32),
    TRef.binary (.of main_v45 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v45 : TRef sig ⟨S50000x128, .f32⟩) main_call0.v4 main_call0.v5 subf,
    TRef.binary main_call0.v5 main_call0.v5 main_call0.v6 mulf,
    TRef.unary (.of main_c_10 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    -- @_var's call of @_where (main_call0.v12, main_call0.v11, main_call0.cst_4), record main_call0.call0; its result is main_v49
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v48 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v45 main_v51 main_v52 (subf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x3727C5AC#32),
    unary main_cst_11 main_v53 (broadcastInDim S128 ![] bcast_S_S128 : (⟨S_, .f32⟩ : BufTy).Contents (Elt F) → (⟨S128, .f32⟩ : BufTy).Contents (Elt F)),
    binary main_v49 main_v53 main_v54 (addf : (⟨S128, .f32⟩ : BufTy).Contents (Elt F) → (⟨S128, .f32⟩ : BufTy).Contents (Elt F) → (⟨S128, .f32⟩ : BufTy).Contents (Elt F)),
    unary main_v54 main_v55 (Host.rsqrt : (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v52 main_v57 main_v58 (mulf : (⟨S50000x128, .f32⟩ : BufTy).Contents (Elt F) → (⟨S50000x128, .f32⟩ : BufTy).Contents (Elt F) → (⟨S50000x128, .f32⟩ : BufTy).Contents (Elt F)),
    unary main_arg6 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v58 main_v60 main_v61 (mulf : (⟨S50000x128, .f32⟩ : BufTy).Contents (Elt F) → (⟨S50000x128, .f32⟩ : BufTy).Contents (Elt F) → (⟨S50000x128, .f32⟩ : BufTy).Contents (Elt F)),
    unary main_arg7 main_v62 (broadcastInDim S1x128 ![1] bcast_S128_S1x128_1 : (⟨S128, .f32⟩ : BufTy).Contents (Elt F) → (⟨S1x128, .f32⟩ : BufTy).Contents (Elt F)),
    unary main_v62 main_v63 (broadcastInDim S50000x128 ![0, 1] bcast_S1x128_S50000x128_0_1 : (⟨S1x128, .f32⟩ : BufTy).Contents (Elt F) → (⟨S50000x128, .f32⟩ : BufTy).Contents (Elt F)),
    binary main_v61 main_v63 main_v64 (addf : (⟨S50000x128, .f32⟩ : BufTy).Contents (Elt F) → (⟨S50000x128, .f32⟩ : BufTy).Contents (Elt F) → (⟨S50000x128, .f32⟩ : BufTy).Contents (Elt F)),
    -- @silu (main_v64), record main_call1; its result is main_v65
    TRef.unary (.of main_v64 : TRef sig ⟨S50000x128, .f32⟩) main_call1.v0 Host.negf,
    TRef.unary main_call1.v0 main_call1.v1 Host.exp,
    TRef.nullary main_call1.cst (constant S_ .f32 0x3F800000#32),
    TRef.unary main_call1.cst main_call1.v2 (broadcastInDim S50000x128 ![] bcast_S_S50000x128),
    TRef.binary main_call1.v2 main_call1.v1 main_call1.v3 addf,
    TRef.nullary main_call1.cst_0 (constant S_ .f32 0x3F800000#32),
    TRef.unary main_call1.cst_0 main_call1.v4 (broadcastInDim S50000x128 ![] bcast_S_S50000x128),
    TRef.binary main_call1.v4 main_call1.v3 main_call1.v5 Host.divf,
    TRef.binary (.of main_v64 : TRef sig ⟨S50000x128, .f32⟩) main_call1.v5 main_call1.v6 mulf ]

/-- Layer 2's parameters: slice 0 of the stacked weight matrices `main_arg8` (`main_v67`), of the stacked biases
    `main_arg9` (`main_v69`), scales `main_arg10` (`main_v71`) and shifts `main_arg11` (`main_v73`). -/
abbrev opsPar2 : List (HloOp τ sig (Elt F)) :=
  [ unary main_arg8 main_v66 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v66 main_v67 rfl shapeCasts_S1x128x128_S128x128,
    unary main_arg9 main_v68 ((extractStridedSlice S1x128 ![0, 0] · slices_S2x128_S1x128_0_0) : (⟨S2x128, .f32⟩ : BufTy).Contents (Elt F) → (⟨S1x128, .f32⟩ : BufTy).Contents (Elt F)),
    reshape main_v68 main_v69 rfl shapeCasts_S1x128_S128,
    unary main_arg10 main_v70 ((extractStridedSlice S1x128 ![0, 0] · slices_S2x128_S1x128_0_0) : (⟨S2x128, .f32⟩ : BufTy).Contents (Elt F) → (⟨S1x128, .f32⟩ : BufTy).Contents (Elt F)),
    reshape main_v70 main_v71 rfl shapeCasts_S1x128_S128,
    unary main_arg11 main_v72 ((extractStridedSlice S1x128 ![0, 0] · slices_S2x128_S1x128_0_0) : (⟨S2x128, .f32⟩ : BufTy).Contents (Elt F) → (⟨S1x128, .f32⟩ : BufTy).Contents (Elt F)),
    reshape main_v72 main_v73 rfl shapeCasts_S1x128_S128 ]

/-- Layer 2's aggregation, the operations of layer 1's over `main_v65`, `main_v67` and `main_v69`: `main_v90`. -/
abbrev opsAgg2 : List (HloOp τ sig (Elt F)) :=
  [ binary main_v65 main_v67 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_12 (constantI S_ 32 0#32),
    unary main_c_12 main_v75 (broadcastInDim S850000 ![] bcast_S_S850000 : (⟨S_, .i32⟩ : BufTy).Contents (Elt F) → (⟨S850000, .i32⟩ : BufTy).Contents (Elt F)),
    binary main_v3 main_v75 main_v76 (cmpi .slt : (⟨S850000, .i32⟩ : BufTy).Contents (Elt F) → (⟨S850000, .i32⟩ : BufTy).Contents (Elt F) → (⟨S850000, .i1⟩ : BufTy).Contents (Elt F)),
    nullary main_c_13 (constantI S_ 32 50000#32),
    unary main_c_13 main_v77 (broadcastInDim S850000 ![] bcast_S_S850000 : (⟨S_, .i32⟩ : BufTy).Contents (Elt F) → (⟨S850000, .i32⟩ : BufTy).Contents (Elt F)),
    binary main_v3 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v3 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v74 main_v80 main_v81 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v28 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x128 ![0, 1] bcast_S850000x1_S850000x128_0_1 : (⟨S850000x1, .f32⟩ : BufTy).Contents (Elt F) → (⟨S850000x128, .f32⟩ : BufTy).Contents (Elt F)),
    binary main_v81 main_v83 main_v84 (mulf : (⟨S850000x128, .f32⟩ : BufTy).Contents (Elt F) → (⟨S850000x128, .f32⟩ : BufTy).Contents (Elt F) → (⟨S850000x128, .f32⟩ : BufTy).Contents (Elt F)),
    nullary main_cst_14 (constant S_ .f32 0x00000000#32),
    unary main_cst_14 main_v85 (broadcastInDim S50000x128 ![] bcast_S_S50000x128 : (⟨S_, .f32⟩ : BufTy).Contents (Elt F) → (⟨S50000x128, .f32⟩ : BufTy).Contents (Elt F)),
    unary main_v6 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v69 main_v88 (broadcastInDim S1x128 ![1] bcast_S128_S1x128_1 : (⟨S128, .f32⟩ : BufTy).Contents (Elt F) → (⟨S1x128, .f32⟩ : BufTy).Contents (Elt F)),
    unary main_v88 main_v89 (broadcastInDim S50000x128 ![0, 1] bcast_S1x128_S50000x128_0_1 : (⟨S1x128, .f32⟩ : BufTy).Contents (Elt F) → (⟨S50000x128, .f32⟩ : BufTy).Contents (Elt F)),
    binary main_v87 main_v89 main_v90 (addf : (⟨S50000x128, .f32⟩ : BufTy).Contents (Elt F) → (⟨S50000x128, .f32⟩ : BufTy).Contents (Elt F) → (⟨S50000x128, .f32⟩ : BufTy).Contents (Elt F)) ]

/-- Layer 2's normalisation, first part: the column means `main_v93` of `main_v90`, the column variances `main_v94`
    (@_var over the record `main_call2`), the deviations `main_v97` and 1e-5 as a row (`main_v98`). -/
abbrev opsNorm2a : List (HloOp τ sig (Elt F)) :=
  [ nullary main_cst_15 (constant S_ .f32 0x00000000#32),
    binary main_v90 main_cst_15 main_v91 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_16 (constant S_ .f32 0x47435000#32),
    unary main_cst_16 main_v92 (broadcastInDim S128 ![] bcast_S_S128 : (⟨S_, .f32⟩ : BufTy).Contents (Elt F) → (⟨S128, .f32⟩ : BufTy).Contents (Elt F)),
    binary main_v91 main_v92 main_v93 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    -- @_var (main_v90, main_c_17), record main_call2
    TRef.nullary main_call2.cst (constant S_ .f32 0x00000000#32),
    TRef.binary (.of main_v90 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v90 : TRef sig ⟨S50000x128, .f32⟩) main_call2.v4 main_call2.v5 subf,
    TRef.binary main_call2.v5 main_call2.v5 main_call2.v6 mulf,
    TRef.unary (.of main_c_17 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    -- @_var's call of @_where, record main_call2.call0; its result is main_v94
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v93 main_v95 (broadcastInDim S1x128 ![1] bcast_S128_S1x128_1 : (⟨S128, .f32⟩ : BufTy).Contents (Elt F) → (⟨S1x128, .f32⟩ : BufTy).Contents (Elt F)),
    unary main_v95 main_v96 (broadcastInDim S50000x128 ![0, 1] bcast_S1x128_S50000x128_0_1 : (⟨S1x128, .f32⟩ : BufTy).Contents (Elt F) → (⟨S50000x128, .f32⟩ : BufTy).Contents (Elt F)),
    binary main_v90 main_v96 main_v97 (subf : (⟨S50000x128, .f32⟩ : BufTy).Contents (Elt F) → (⟨S50000x128, .f32⟩ : BufTy).Contents (Elt F) → (⟨S50000x128, .f32⟩ : BufTy).Contents (Elt F)),
    nullary main_cst_18 (constant S_ .f32 0x3727C5AC#32),
    unary main_cst_18 main_v98 (broadcastInDim S128 ![] bcast_S_S128 : (⟨S_, .f32⟩ : BufTy).Contents (Elt F) → (⟨S128, .f32⟩ : BufTy).Contents (Elt F)) ]

/-- Layer 2's normalisation, second part: the deviations times rsqrt(var + 1e-5), times `main_v71`, plus `main_v73`
    (`main_v109`), and @silu of that over `main_call3`: `main_v110`, layer 2's output. -/
abbrev opsNorm2b : List (HloOp τ sig (Elt F)) :=
  [ binary main_v94 main_v98 main_v99 (addf : (⟨S128, .f32⟩ : BufTy).Contents (Elt F) → (⟨S128, .f32⟩ : BufTy).Contents (Elt F) → (⟨S128, .f32⟩ : BufTy).Contents (Elt F)),
    unary main_v99 main_v100 (Host.rsqrt : (⟨S128, .f32⟩ : BufTy).Contents (Elt F) → (⟨S128, .f32⟩ : BufTy).Contents (Elt F)),
    unary main_v100 main_v101 (broadcastInDim S1x128 ![1] bcast_S128_S1x128_1 : (⟨S128, .f32⟩ : BufTy).Contents (Elt F) → (⟨S1x128, .f32⟩ : BufTy).Contents (Elt F)),
    unary main_v101 main_v102 (broadcastInDim S50000x128 ![0, 1] bcast_S1x128_S50000x128_0_1 : (⟨S1x128, .f32⟩ : BufTy).Contents (Elt F) → (⟨S50000x128, .f32⟩ : BufTy).Contents (Elt F)),
    binary main_v97 main_v102 main_v103 (mulf : (⟨S50000x128, .f32⟩ : BufTy).Contents (Elt F) → (⟨S50000x128, .f32⟩ : BufTy).Contents (Elt F) → (⟨S50000x128, .f32⟩ : BufTy).Contents (Elt F)),
    unary main_v71 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v103 main_v105 main_v106 (mulf : (⟨S50000x128, .f32⟩ : BufTy).Contents (Elt F) → (⟨S50000x128, .f32⟩ : BufTy).Contents (Elt F) → (⟨S50000x128, .f32⟩ : BufTy).Contents (Elt F)),
    unary main_v73 main_v107 (broadcastInDim S1x128 ![1] bcast_S128_S1x128_1 : (⟨S128, .f32⟩ : BufTy).Contents (Elt F) → (⟨S1x128, .f32⟩ : BufTy).Contents (Elt F)),
    unary main_v107 main_v108 (broadcastInDim S50000x128 ![0, 1] bcast_S1x128_S50000x128_0_1 : (⟨S1x128, .f32⟩ : BufTy).Contents (Elt F) → (⟨S50000x128, .f32⟩ : BufTy).Contents (Elt F)),
    binary main_v106 main_v108 main_v109 (addf : (⟨S50000x128, .f32⟩ : BufTy).Contents (Elt F) → (⟨S50000x128, .f32⟩ : BufTy).Contents (Elt F) → (⟨S50000x128, .f32⟩ : BufTy).Contents (Elt F)),
    -- @silu (main_v109), record main_call3; its result is main_v110
    TRef.unary (.of main_v109 : TRef sig ⟨S50000x128, .f32⟩) main_call3.v0 Host.negf,
    TRef.unary main_call3.v0 main_call3.v1 Host.exp,
    TRef.nullary main_call3.cst (constant S_ .f32 0x3F800000#32),
    TRef.unary main_call3.cst main_call3.v2 (broadcastInDim S50000x128 ![] bcast_S_S50000x128),
    TRef.binary main_call3.v2 main_call3.v1 main_call3.v3 addf,
    TRef.nullary main_call3.cst_0 (constant S_ .f32 0x3F800000#32),
    TRef.unary main_call3.cst_0 main_call3.v4 (broadcastInDim S50000x128 ![] bcast_S_S50000x128),
    TRef.binary main_call3.v4 main_call3.v3 main_call3.v5 Host.divf,
    TRef.binary (.of main_v109 : TRef sig ⟨S50000x128, .f32⟩) main_call3.v5 main_call3.v6 mulf ]

/-- Layer 3's parameters: slice 1 of `main_arg8` … `main_arg11` (`main_v112`, `main_v114`, `main_v116`, `main_v118`). -/
abbrev opsPar3 : List (HloOp τ sig (Elt F)) :=
  [ unary main_arg8 main_v111 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v111 main_v112 rfl shapeCasts_S1x128x128_S128x128,
    unary main_arg9 main_v113 ((extractStridedSlice S1x128 ![1, 0] · slices_S2x128_S1x128_1_0) : (⟨S2x128, .f32⟩ : BufTy).Contents (Elt F) → (⟨S1x128, .f32⟩ : BufTy).Contents (Elt F)),
    reshape main_v113 main_v114 rfl shapeCasts_S1x128_S128,
    unary main_arg10 main_v115 ((extractStridedSlice S1x128 ![1, 0] · slices_S2x128_S1x128_1_0) : (⟨S2x128, .f32⟩ : BufTy).Contents (Elt F) → (⟨S1x128, .f32⟩ : BufTy).Contents (Elt F)),
    reshape main_v115 main_v116 rfl shapeCasts_S1x128_S128,
    unary main_arg11 main_v117 ((extractStridedSlice S1x128 ![1, 0] · slices_S2x128_S1x128_1_0) : (⟨S2x128, .f32⟩ : BufTy).Contents (Elt F) → (⟨S1x128, .f32⟩ : BufTy).Contents (Elt F)),
    reshape main_v117 main_v118 rfl shapeCasts_S1x128_S128 ]

/-- Layer 3's aggregation over `main_v110`, `main_v112` and `main_v114`: `main_v135`. -/
abbrev opsAgg3 : List (HloOp τ sig (Elt F)) :=
  [ binary main_v110 main_v112 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_19 (constantI S_ 32 0#32),
    unary main_c_19 main_v120 (broadcastInDim S850000 ![] bcast_S_S850000 : (⟨S_, .i32⟩ : BufTy).Contents (Elt F) → (⟨S850000, .i32⟩ : BufTy).Contents (Elt F)),
    binary main_v3 main_v120 main_v121 (cmpi .slt : (⟨S850000, .i32⟩ : BufTy).Contents (Elt F) → (⟨S850000, .i32⟩ : BufTy).Contents (Elt F) → (⟨S850000, .i1⟩ : BufTy).Contents (Elt F)),
    nullary main_c_20 (constantI S_ 32 50000#32),
    unary main_c_20 main_v122 (broadcastInDim S850000 ![] bcast_S_S850000 : (⟨S_, .i32⟩ : BufTy).Contents (Elt F) → (⟨S850000, .i32⟩ : BufTy).Contents (Elt F)),
    binary main_v3 main_v122 main_v123 (addi : (⟨S850000, .i32⟩ : BufTy).Contents (Elt F) → (⟨S850000, .i32⟩ : BufTy).Contents (Elt F) → (⟨S850000, .i32⟩ : BufTy).Contents (Elt F)),
    ternary main_v121 main_v123 main_v3 main_v124 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v124 main_v125 (broadcastInDim S850000x1 ![0] bcast_S850000_S850000x1_0 : (⟨S850000, .i32⟩ : BufTy).Contents (Elt F) → (⟨S850000x1, .i32⟩ : BufTy).Contents (Elt F)),
    binary main_v119 main_v125 main_v126 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v28 main_v127 (broadcastInDim S850000x1 ![0] bcast_S850000_S850000x1_0 : (⟨S850000, .f32⟩ : BufTy).Contents (Elt F) → (⟨S850000x1, .f32⟩ : BufTy).Contents (Elt F)),
    unary main_v127 main_v128 (broadcastInDim S850000x128 ![0, 1] bcast_S850000x1_S850000x128_0_1 : (⟨S850000x1, .f32⟩ : BufTy).Contents (Elt F) → (⟨S850000x128, .f32⟩ : BufTy).Contents (Elt F)),
    binary main_v126 main_v128 main_v129 (mulf : (⟨S850000x128, .f32⟩ : BufTy).Contents (Elt F) → (⟨S850000x128, .f32⟩ : BufTy).Contents (Elt F) → (⟨S850000x128, .f32⟩ : BufTy).Contents (Elt F)),
    nullary main_cst_21 (constant S_ .f32 0x00000000#32),
    unary main_cst_21 main_v130 (broadcastInDim S50000x128 ![] bcast_S_S50000x128 : (⟨S_, .f32⟩ : BufTy).Contents (Elt F) → (⟨S50000x128, .f32⟩ : BufTy).Contents (Elt F)),
    unary main_v6 main_v131 (broadcastInDim S850000x1 ![0] bcast_S850000_S850000x1_0 : (⟨S850000, .i32⟩ : BufTy).Contents (Elt F) → (⟨S850000x1, .i32⟩ : BufTy).Contents (Elt F)),
    ternary main_v130 main_v131 main_v129 main_v132 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_v114 main_v133 (broadcastInDim S1x128 ![1] bcast_S128_S1x128_1 : (⟨S128, .f32⟩ : BufTy).Contents (Elt F) → (⟨S1x128, .f32⟩ : BufTy).Contents (Elt F)),
    unary main_v133 main_v134 (broadcastInDim S50000x128 ![0, 1] bcast_S1x128_S50000x128_0_1 : (⟨S1x128, .f32⟩ : BufTy).Contents (Elt F) → (⟨S50000x128, .f32⟩ : BufTy).Contents (Elt F)),
    binary main_v132 main_v134 main_v135 (addf : (⟨S50000x128, .f32⟩ : BufTy).Contents (Elt F) → (⟨S50000x128, .f32⟩ : BufTy).Contents (Elt F) → (⟨S50000x128, .f32⟩ : BufTy).Contents (Elt F)) ]

/-- Layer 3's normalisation, first part: the column means `main_v138` of `main_v135`, the column variances `main_v139`
    (@_var over `main_call4`), the normalised deviations `main_v148` and their product with the scale `main_v116`
    (`main_v151`). -/
abbrev opsNorm3a : List (HloOp τ sig (Elt F)) :=
  [ nullary main_cst_22 (constant S_ .f32 0x00000000#32),
    binary main_v135 main_cst_22 main_v136 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_23 (constant S_ .f32 0x47435000#32),
    unary main_cst_23 main_v137 (broadcastInDim S128 ![] bcast_S_S128 : (⟨S_, .f32⟩ : BufTy).Contents (Elt F) → (⟨S128, .f32⟩ : BufTy).Contents (Elt F)),
    binary main_v136 main_v137 main_v138 (Host.divf : (⟨S128, .f32⟩ : BufTy).Contents (Elt F) → (⟨S128, .f32⟩ : BufTy).Contents (Elt F) → (⟨S128, .f32⟩ : BufTy).Contents (Elt F)),
    nullary main_c_24 (constantI S_ 32 0#32),
    -- @_var (main_v135, main_c_24), record main_call4
    TRef.nullary main_call4.cst (constant S_ .f32 0x00000000#32),
    TRef.binary (.of main_v135 : TRef sig ⟨S50000x128, .f32⟩) main_call4.cst main_call4.v0 (fun x v => Host.reduceAdd x v reducesTo_S50000x128_S128_d0 h_S_),
    TRef.unary main_call4.v0 main_call4.v1 (broadcastInDim S1x128 ![1] bcast_S128_S1x128_1),
    TRef.nullary main_call4.cst_0 (constant S_ .f32 0x47435000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S50000x128 ![0, 1] bcast_S1x128_S50000x128_0_1),
    TRef.binary (.of main_v135 : TRef sig ⟨S50000x128, .f32⟩) main_call4.v4 main_call4.v5 subf,
    TRef.binary main_call4.v5 main_call4.v5 main_call4.v6 mulf,
    TRef.unary (.of main_c_24 : TRef sig ⟨S_, .i32⟩) main_call4.v7 (sitofp .f32),
    TRef.nullary main_call4.cst_1 (constant S_ .f32 0x47435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S50000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    -- @_var's call of @_where, record main_call4.call0; its result is main_v139
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v138 main_v140 (broadcastInDim S1x128 ![1] bcast_S128_S1x128_1 : (⟨S128, .f32⟩ : BufTy).Contents (Elt F) → (⟨S1x128, .f32⟩ : BufTy).Contents (Elt F)),
    unary main_v140 main_v141 (broadcastInDim S50000x128 ![0, 1] bcast_S1x128_S50000x128_0_1 : (⟨S1x128, .f32⟩ : BufTy).Contents (Elt F) → (⟨S50000x128, .f32⟩ : BufTy).Contents (Elt F)),
    binary main_v135 main_v141 main_v142 (subf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x3727C5AC#32),
    unary main_cst_25 main_v143 (broadcastInDim S128 ![] bcast_S_S128 : (⟨S_, .f32⟩ : BufTy).Contents (Elt F) → (⟨S128, .f32⟩ : BufTy).Contents (Elt F)),
    binary main_v139 main_v143 main_v144 (addf : (⟨S128, .f32⟩ : BufTy).Contents (Elt F) → (⟨S128, .f32⟩ : BufTy).Contents (Elt F) → (⟨S128, .f32⟩ : BufTy).Contents (Elt F)),
    unary main_v144 main_v145 (Host.rsqrt : (⟨S128, .f32⟩ : BufTy).Contents (Elt F) → (⟨S128, .f32⟩ : BufTy).Contents (Elt F)),
    unary main_v145 main_v146 (broadcastInDim S1x128 ![1] bcast_S128_S1x128_1 : (⟨S128, .f32⟩ : BufTy).Contents (Elt F) → (⟨S1x128, .f32⟩ : BufTy).Contents (Elt F)),
    unary main_v146 main_v147 (broadcastInDim S50000x128 ![0, 1] bcast_S1x128_S50000x128_0_1 : (⟨S1x128, .f32⟩ : BufTy).Contents (Elt F) → (⟨S50000x128, .f32⟩ : BufTy).Contents (Elt F)),
    binary main_v142 main_v147 main_v148 (mulf : (⟨S50000x128, .f32⟩ : BufTy).Contents (Elt F) → (⟨S50000x128, .f32⟩ : BufTy).Contents (Elt F) → (⟨S50000x128, .f32⟩ : BufTy).Contents (Elt F)),
    unary main_v116 main_v149 (broadcastInDim S1x128 ![1] bcast_S128_S1x128_1 : (⟨S128, .f32⟩ : BufTy).Contents (Elt F) → (⟨S1x128, .f32⟩ : BufTy).Contents (Elt F)),
    unary main_v149 main_v150 (broadcastInDim S50000x128 ![0, 1] bcast_S1x128_S50000x128_0_1 : (⟨S1x128, .f32⟩ : BufTy).Contents (Elt F) → (⟨S50000x128, .f32⟩ : BufTy).Contents (Elt F)),
    binary main_v148 main_v150 main_v151 (mulf : (⟨S50000x128, .f32⟩ : BufTy).Contents (Elt F) → (⟨S50000x128, .f32⟩ : BufTy).Contents (Elt F) → (⟨S50000x128, .f32⟩ : BufTy).Contents (Elt F)) ]

/-- Layer 3's normalisation, second part: the shift `main_v118` added (`main_v154`) and @silu over `main_call5`:
    `main_v155`, layer 3's output. -/
abbrev opsNorm3b : List (HloOp τ sig (Elt F)) :=
  [ unary main_v118 main_v152 (broadcastInDim S1x128 ![1] bcast_S128_S1x128_1 : (⟨S128, .f32⟩ : BufTy).Contents (Elt F) → (⟨S1x128, .f32⟩ : BufTy).Contents (Elt F)),
    unary main_v152 main_v153 (broadcastInDim S50000x128 ![0, 1] bcast_S1x128_S50000x128_0_1 : (⟨S1x128, .f32⟩ : BufTy).Contents (Elt F) → (⟨S50000x128, .f32⟩ : BufTy).Contents (Elt F)),
    binary main_v151 main_v153 main_v154 (addf : (⟨S50000x128, .f32⟩ : BufTy).Contents (Elt F) → (⟨S50000x128, .f32⟩ : BufTy).Contents (Elt F) → (⟨S50000x128, .f32⟩ : BufTy).Contents (Elt F)),
    -- @silu (main_v154), record main_call5; its result is main_v155
    TRef.unary (.of main_v154 : TRef sig ⟨S50000x128, .f32⟩) main_call5.v0 Host.negf,
    TRef.unary main_call5.v0 main_call5.v1 Host.exp,
    TRef.nullary main_call5.cst (constant S_ .f32 0x3F800000#32),
    TRef.unary main_call5.cst main_call5.v2 (broadcastInDim S50000x128 ![] bcast_S_S50000x128),
    TRef.binary main_call5.v2 main_call5.v1 main_call5.v3 addf,
    TRef.nullary main_call5.cst_0 (constant S_ .f32 0x3F800000#32),
    TRef.unary main_call5.cst_0 main_call5.v4 (broadcastInDim S50000x128 ![] bcast_S_S50000x128),
    TRef.binary main_call5.v4 main_call5.v3 main_call5.v5 Host.divf,
    TRef.binary (.of main_v154 : TRef sig ⟨S50000x128, .f32⟩) main_call5.v5 main_call5.v6 mulf ]

/-- The mean over each graph's nodes. The rows of `main_v155` summed by the nodes' graph numbers `main_arg2` (a
    scatter-add into a zero 64 × 128 array, `main_v158`); the graphs' node counts (ones scatter-added the same way,
    `main_v162`), bounded below by 1 (`main_v164`); the quotient, row by row: `main_v167`. -/
abbrev opsPool : List (HloOp τ sig (Elt F)) :=
  [ nullary main_cst_26 (constant S_ .f32 0x00000000#32),
    unary main_cst_26 main_v156 (broadcastInDim S64x128 ![] bcast_S_S64x128 : (⟨S_, .f32⟩ : BufTy).Contents (Elt F) → (⟨S64x128, .f32⟩ : BufTy).Contents (Elt F)),
    unary main_arg2 main_v157 (broadcastInDim S50000x1 ![0] bcast_S50000_S50000x1_0 : (⟨S50000, .i32⟩ : BufTy).Contents (Elt F) → (⟨S50000x1, .i32⟩ : BufTy).Contents (Elt F)),
    ternary main_v156 main_v157 main_v155 main_v158 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    nullary main_cst_27 (constant S_ .f32 0x3F800000#32),
    unary main_cst_27 main_v159 (broadcastInDim S50000 ![] bcast_S_S50000 : (⟨S_, .f32⟩ : BufTy).Contents (Elt F) → (⟨S50000, .f32⟩ : BufTy).Contents (Elt F)),
    nullary main_cst_28 (constant S_ .f32 0x00000000#32),
    unary main_cst_28 main_v160 (broadcastInDim S64 ![] bcast_S_S64 : (⟨S_, .f32⟩ : BufTy).Contents (Elt F) → (⟨S64, .f32⟩ : BufTy).Contents (Elt F)),
    unary main_arg2 main_v161 (broadcastInDim S50000x1 ![0] bcast_S50000_S50000x1_0 : (⟨S50000, .i32⟩ : BufTy).Contents (Elt F) → (⟨S50000x1, .i32⟩ : BufTy).Contents (Elt F)),
    ternary main_v160 main_v161 main_v159 main_v162 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    nullary main_cst_29 (constant S_ .f32 0x3F800000#32),
    unary main_cst_29 main_v163 (broadcastInDim S64 ![] bcast_S_S64 : (⟨S_, .f32⟩ : BufTy).Contents (Elt F) → (⟨S64, .f32⟩ : BufTy).Contents (Elt F)),
    binary main_v162 main_v163 main_v164 (maximumf : (⟨S64, .f32⟩ : BufTy).Contents (Elt F) → (⟨S64, .f32⟩ : BufTy).Contents (Elt F) → (⟨S64, .f32⟩ : BufTy).Contents (Elt F)),
    unary main_v164 main_v165 (broadcastInDim S64x1 ![0] bcast_S64_S64x1_0 : (⟨S64, .f32⟩ : BufTy).Contents (Elt F) → (⟨S64x1, .f32⟩ : BufTy).Contents (Elt F)),
    unary main_v165 main_v166 (broadcastInDim S64x128 ![0, 1] bcast_S64x1_S64x128_0_1 : (⟨S64x1, .f32⟩ : BufTy).Contents (Elt F) → (⟨S64x128, .f32⟩ : BufTy).Contents (Elt F)),
    binary main_v158 main_v166 main_v167 (Host.divf : (⟨S64x128, .f32⟩ : BufTy).Contents (Elt F) → (⟨S64x128, .f32⟩ : BufTy).Contents (Elt F) → (⟨S64x128, .f32⟩ : BufTy).Contents (Elt F)) ]

/-- The two dense layers and the row-wise log-softmax. `main_v167` · `main_arg12` + `main_arg13` (`main_v171`), its positive
    part (the outlined @relu over `main_call6`, `main_v172`), that · `main_arg14` + `main_arg15` (`main_v176`), and per row
    x − max x − log Σ exp (x − max x) (the outlined @log_softmax over `main_call7`): `main_v177`, the first result. The
    second result is the constant 0, `main_cst_30`. -/
abbrev opsHead : List (HloOp τ sig (Elt F)) :=
  [ binary main_v167 main_arg12 main_v168 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg13 main_v169 (broadcastInDim S1x128 ![1] bcast_S128_S1x128_1 : (⟨S128, .f32⟩ : BufTy).Contents (Elt F) → (⟨S1x128, .f32⟩ : BufTy).Contents (Elt F)),
    unary main_v169 main_v170 (broadcastInDim S64x128 ![0, 1] bcast_S1x128_S64x128_0_1 : (⟨S1x128, .f32⟩ : BufTy).Contents (Elt F) → (⟨S64x128, .f32⟩ : BufTy).Contents (Elt F)),
    binary main_v168 main_v170 main_v171 (addf : (⟨S64x128, .f32⟩ : BufTy).Contents (Elt F) → (⟨S64x128, .f32⟩ : BufTy).Contents (Elt F) → (⟨S64x128, .f32⟩ : BufTy).Contents (Elt F)),
    -- @relu (main_v171), record main_call6; its result is main_v172
    TRef.nullary main_call6.cst (constant S_ .f32 0x00000000#32),
    TRef.unary main_call6.cst main_call6.v0 (broadcastInDim S64x128 ![] bcast_S_S64x128),
    TRef.binary (.of main_v171 : TRef sig ⟨S64x128, .f32⟩) main_call6.v0 main_call6.v1 maximumf,
    binary main_v172 main_arg14 main_v173 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    unary main_arg15 main_v174 (broadcastInDim S1x128 ![1] bcast_S128_S1x128_1 : (⟨S128, .f32⟩ : BufTy).Contents (Elt F) → (⟨S1x128, .f32⟩ : BufTy).Contents (Elt F)),
    unary main_v174 main_v175 (broadcastInDim S64x128 ![0, 1] bcast_S1x128_S64x128_0_1 : (⟨S1x128, .f32⟩ : BufTy).Contents (Elt F) → (⟨S64x128, .f32⟩ : BufTy).Contents (Elt F)),
    binary main_v173 main_v175 main_v176 (addf : (⟨S64x128, .f32⟩ : BufTy).Contents (Elt F) → (⟨S64x128, .f32⟩ : BufTy).Contents (Elt F) → (⟨S64x128, .f32⟩ : BufTy).Contents (Elt F)),
    -- @log_softmax (main_v176), record main_call7; its result is main_v177
    TRef.nullary main_call7.cst (constant S_ .f32 0xFF800000#32),
    TRef.binary (.of main_v176 : TRef sig ⟨S64x128, .f32⟩) main_call7.cst main_call7.v0 (fun x v => Host.reduce FloatOps.maximumf x v reducesTo_S64x128_S64_d1 h_S_),
    TRef.nullary main_call7.cst_0 (constant S_ .f32 0xFF800000#32),
    TRef.unary main_call7.cst_0 main_call7.v1 (broadcastInDim S64 ![] bcast_S_S64),
    TRef.binary main_call7.v1 main_call7.v0 main_call7.v2 maximumf,
    TRef.unary main_call7.v2 main_call7.v3 (broadcastInDim S64x1 ![0] bcast_S64_S64x1_0),
    TRef.unary main_call7.v3 main_call7.v4 (broadcastInDim S64x128 ![0, 1] bcast_S64x1_S64x128_0_1),
    TRef.binary (.of main_v176 : TRef sig ⟨S64x128, .f32⟩) main_call7.v4 main_call7.v5 subf,
    TRef.unary main_call7.v5 main_call7.v6 Host.exp,
    TRef.nullary main_call7.cst_1 (constant S_ .f32 0x00000000#32),
    TRef.binary main_call7.v6 main_call7.cst_1 main_call7.v7 (fun x v => Host.reduceAdd x v reducesTo_S64x128_S64_d1 h_S_),
    TRef.unary main_call7.v7 main_call7.v8 (broadcastInDim S64x1 ![0] bcast_S64_S64x1_0),
    TRef.unary main_call7.v8 main_call7.v9 Host.log,
    TRef.unary main_call7.v9 main_call7.v10 (broadcastInDim S64x128 ![0, 1] bcast_S64x1_S64x128_0_1),
    TRef.binary main_call7.v5 main_call7.v10 main_call7.v11 subf,
    nullary main_cst_30 (constant S_ .f32 0x00000000#32) ]

/-! ## The printed windows, and the whole line -/

/-- Statements 1 … 60 of @main. -/
abbrev win0 : List (HloOp τ sig (Elt F)) := opsEdges ++ (opsAgg1 ++ opsNorm1a)
/-- Statements 61 … 120 (the calls of @_var and @silu of layer 1, and of @_var of layer 2, inlined). -/
abbrev win1 : List (HloOp τ sig (Elt F)) := opsNorm1b ++ (opsPar2 ++ (opsAgg2 ++ opsNorm2a))
/-- Statements 121 … 180. -/
abbrev win2 : List (HloOp τ sig (Elt F)) := opsNorm2b ++ (opsPar3 ++ (opsAgg3 ++ opsNorm3a))
/-- Statements 181 … 212. -/
abbrev win3 : List (HloOp τ sig (Elt F)) := opsNorm3b ++ (opsPool ++ opsHead)

/-- Every operation of @main, in program order: 314 of them (203 of @main's own statements, and the 111 of the eight
    inlined calls). -/
abbrev ops : List (HloOp τ sig (Elt F)) := win0 ++ (win1 ++ (win2 ++ win3))

/-! ## @main is that line

Each printed window is a `do` sequence of `hlo` steps and calls. A call is the callee's body applied to the operands'
typed references and the call's record; unfolding it puts the body's steps in the call's place, the record's fields where
the body names its values. Sequencing is associative by computation (binding a step binds its continuation), so a window
and the `seq` of its operations unfold to the same chain: `rfl`. The windows are joined by `seq_append`. -/

theorem main_part0_eq (c : Dev nD) : main_part0 (F := F) c = seq win0 := rfl
theorem main_part1_eq (c : Dev nD) : main_part1 (F := F) c = seq win1 := rfl
theorem main_part2_eq (c : Dev nD) : main_part2 (F := F) c = seq win2 := rfl
theorem main_part3_eq (c : Dev nD) : main_part3 (F := F) c = seq win3 := rfl

theorem main_eq (c : Dev nD) : main (F := F) c = seq ops := by
  rw [show (ops : List (HloOp τ sig (Elt F))) = win0 ++ (win1 ++ (win2 ++ win3)) from rfl,
    seq_append win0, seq_append win1, seq_append win2,
    ← main_part0_eq c, ← main_part1_eq c, ← main_part2_eq c, ← main_part3_eq c]
  rfl

/-! ## The side conditions of the run

The program scopes no buffer and no semaphore, and every operation touches TensorCore references only: each is one of
the builders, whose buffers are its operands' and its result's. -/

theorem scopedRefs_eq : (Finset.univ.filter fun b : Ref sig .tc => b.isScoped) = ∅ := by decide
theorem scopedSems_eq : (Finset.univ.filter fun sm : SemLoc sig => sm.isScoped .tc) = ∅ := by decide

theorem opsEdges_sub : (opsEdges : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..⟩

theorem opsAgg1_sub : (opsAgg1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem opsNorm1a_sub : (opsNorm1a : List (HloOp τ sig (Elt F))).Forall fun op => op.bufs ⊆ tcRefs τ sig :=
  ⟨nullary_bufs_sub .., binary_bufs_sub .., nullary_bufs_sub .., unary_bufs_sub ..⟩

theorem opsNorm1b_sub : (opsNorm1b : List (HloOp τ sig (Elt F))).Forall fun op => op.bufs ⊆ tcRefs τ sig :=
  ⟨binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub ..⟩

theorem opsPar2_sub : (opsPar2 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub ..⟩

theorem opsAgg2_sub : (opsAgg2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem opsNorm2a_sub : (opsNorm2a : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub ..⟩

theorem opsNorm2b_sub : (opsNorm2b : List (HloOp τ sig (Elt F))).Forall fun op => op.bufs ⊆ tcRefs τ sig :=
  ⟨binary_bufs_sub .., unary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub ..⟩

theorem opsPar3_sub : (opsPar3 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub ..⟩

theorem opsAgg3_sub : (opsAgg3 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩

theorem opsNorm3a_sub : (opsNorm3a : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub ..⟩

theorem opsNorm3b_sub : (opsNorm3b : List (HloOp τ sig (Elt F))).Forall fun op => op.bufs ⊆ tcRefs τ sig :=
  ⟨unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..⟩

theorem opsPool_sub : (opsPool : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub ..⟩

theorem opsHead_sub : (opsHead : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub .., nullary_bufs_sub ..⟩

/-- A list of two pieces touches TensorCore references only when both pieces do. -/
theorem sub_append {l₁ l₂ : List (HloOp τ sig (Elt F))}
    (h₁ : l₁.Forall fun op => op.bufs ⊆ tcRefs τ sig) (h₂ : l₂.Forall fun op => op.bufs ⊆ tcRefs τ sig) :
    (l₁ ++ l₂).Forall fun op => op.bufs ⊆ tcRefs τ sig :=
  List.forall_append.mpr ⟨h₁, h₂⟩

theorem ops_sub : (ops : List (HloOp τ sig (Elt F))).Forall fun op => op.bufs ⊆ tcRefs τ sig :=
  sub_append (sub_append opsEdges_sub (sub_append opsAgg1_sub opsNorm1a_sub))
    (sub_append (sub_append opsNorm1b_sub (sub_append opsPar2_sub (sub_append opsAgg2_sub opsNorm2a_sub)))
      (sub_append (sub_append opsNorm2b_sub (sub_append opsPar3_sub (sub_append opsAgg3_sub opsNorm3a_sub)))
        (sub_append opsNorm3b_sub (sub_append opsPool_sub opsHead_sub))))

/-! ## The run -/

/-- On every device, for any float values, from any memory with zero counters: every weakly fair execution of @main
    terminates, and every buffer of the TensorCore ends holding what the operations, folded in order over the contents at
    launch, leave in it. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ

end Cert.ReferenceIdeal.RefRun

end
-- ==== Proof.RefRead.lean ====
/-
  The reference's run read back against the specification.

  `RefRun.run_all` leaves every buffer at the fold `after ops` of the program's 314 operations over the contents at
  launch. Here that fold is read at the two result buffers and at the sixteen arguments: the first result is the
  specification's network `Spec.out` of the arguments' contents at launch, the second the constant 0, and every argument
  still holds its contents at launch. The fold is never unrolled as a whole: it is cut at the fourteen lists of
  `RefRun` (`after_append`), each list is read by itself over arbitrary starting contents — so that a stage's lemma
  mentions the earlier stages' buffers only as what the starting contents hold there —, and the stages are chained.
-/
import proofs.«143752_j72559177499180_1_alg».proof.Proof.RefRun
import proofs.«143752_j72559177499180_1_alg».proof.Proof.Spec

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

variable [Facts]

/-! ## Folding a line of operations piece by piece -/

/-- The contents after two lines run one after the other: the second line's fold over the first's. -/
theorem after_append {F : FTy → Type} : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The whole line's fold, one stage per list: the fourteen lists in program order. -/
theorem ops_fold (V : Valuation τ sig (Elt Ideal)) :
    after (ops (F := Ideal)) V
      = after opsHead (after opsPool (after opsNorm3b (after opsNorm3a (after opsAgg3 (after opsPar3
          (after opsNorm2b (after opsNorm2a (after opsAgg2 (after opsPar2
            (after opsNorm1b (after opsNorm1a (after opsAgg1 (after opsEdges V))))))))))))) := by
  simp only [ops, win0, win1, win2, win3, after_append]

/-! ## Each stage read back

For every stage, over ANY contents `W` the stage starts from: what it leaves in the buffer that later stages read, as
the specification's function of what `W` holds in the buffers the stage reads. The fold is unrolled over the stage's own
operations only — each operation's result at its own buffer is its function's value, at any other buffer what was there
—, and what is left is the specification's definition spelt out: the two sides are the same composition of the same
host operations (a reshape is `shapeCast`; a called function's typed references carry the identity cast). -/

section Stages

variable (W : Valuation τ sig (Elt Ideal))

/-- The sources with self loops. -/
theorem edges_src : after (opsEdges (F := Ideal)) W (Proc.devRef .tc main_v3) = Spec.src (W (Proc.devRef .tc main_arg1)) := by
  after_results_simp
  rfl

/-- The targets with self loops. -/
theorem edges_dst : after (opsEdges (F := Ideal)) W (Proc.devRef .tc main_v6) = Spec.dst (W (Proc.devRef .tc main_arg1)) := by
  after_results_simp
  rfl

/-- The edges' weights, from the edge array. -/
theorem edges_nrm : after (opsEdges (F := Ideal)) W (Proc.devRef .tc main_v28)
    = Spec.nrm (Spec.src (W (Proc.devRef .tc main_arg1))) (Spec.dst (W (Proc.devRef .tc main_arg1))) := by
  after_results_simp
  rfl

/-- Layer 1's aggregation. -/
theorem agg1_read : after (opsAgg1 (F := Ideal)) W (Proc.devRef .tc main_v45)
    = Spec.agg (Spec.lin (W (Proc.devRef .tc main_arg0)) (W (Proc.devRef .tc main_arg4))) (W (Proc.devRef .tc main_arg5))
        (W (Proc.devRef .tc main_v3)) (W (Proc.devRef .tc main_v6)) (W (Proc.devRef .tc main_v28)) := by
  after_results_simp
  rfl

/-- Layer 1's normalisation and activation (two lists: a printed window ends between them). -/
theorem norm1_read : after (opsNorm1b (F := Ideal)) (after opsNorm1a W) (Proc.devRef .tc main_v65)
    = Spec.silu (Spec.norm (W (Proc.devRef .tc main_v45)) (W (Proc.devRef .tc main_arg6)) (W (Proc.devRef .tc main_arg7))) := by
  after_results_simp
  rfl

/-- Layer 2's parameters: slice 0 of the stacked ones. -/
theorem par2_W : after (opsPar2 (F := Ideal)) W (Proc.devRef .tc main_v67) = Spec.sq0 (W (Proc.devRef .tc main_arg8)) := by
  after_results_simp
  rfl
theorem par2_b : after (opsPar2 (F := Ideal)) W (Proc.devRef .tc main_v69) = Spec.ch0 (W (Proc.devRef .tc main_arg9)) := by
  after_results_simp
  rfl
theorem par2_γ : after (opsPar2 (F := Ideal)) W (Proc.devRef .tc main_v71) = Spec.ch0 (W (Proc.devRef .tc main_arg10)) := by
  after_results_simp
  rfl
theorem par2_β : after (opsPar2 (F := Ideal)) W (Proc.devRef .tc main_v73) = Spec.ch0 (W (Proc.devRef .tc main_arg11)) := by
  after_results_simp
  rfl

/-- Layer 2's aggregation. -/
theorem agg2_read : after (opsAgg2 (F := Ideal)) W (Proc.devRef .tc main_v90)
    = Spec.agg (Spec.lin (W (Proc.devRef .tc main_v65)) (W (Proc.devRef .tc main_v67))) (W (Proc.devRef .tc main_v69))
        (W (Proc.devRef .tc main_v3)) (W (Proc.devRef .tc main_v6)) (W (Proc.devRef .tc main_v28)) := by
  after_results_simp
  rfl

/-- Layer 2's normalisation and activation. -/
theorem norm2_read : after (opsNorm2b (F := Ideal)) (after opsNorm2a W) (Proc.devRef .tc main_v110)
    = Spec.silu (Spec.norm (W (Proc.devRef .tc main_v90)) (W (Proc.devRef .tc main_v71)) (W (Proc.devRef .tc main_v73))) := by
  after_results_simp
  rfl

/-- Layer 3's parameters: slice 1 of the stacked ones. -/
theorem par3_W : after (opsPar3 (F := Ideal)) W (Proc.devRef .tc main_v112) = Spec.sq1 (W (Proc.devRef .tc main_arg8)) := by
  after_results_simp
  rfl
theorem par3_b : after (opsPar3 (F := Ideal)) W (Proc.devRef .tc main_v114) = Spec.ch1 (W (Proc.devRef .tc main_arg9)) := by
  after_results_simp
  rfl
theorem par3_γ : after (opsPar3 (F := Ideal)) W (Proc.devRef .tc main_v116) = Spec.ch1 (W (Proc.devRef .tc main_arg10)) := by
  after_results_simp
  rfl
theorem par3_β : after (opsPar3 (F := Ideal)) W (Proc.devRef .tc main_v118) = Spec.ch1 (W (Proc.devRef .tc main_arg11)) := by
  after_results_simp
  rfl

/-- Layer 3's aggregation. -/
theorem agg3_read : after (opsAgg3 (F := Ideal)) W (Proc.devRef .tc main_v135)
    = Spec.agg (Spec.lin (W (Proc.devRef .tc main_v110)) (W (Proc.devRef .tc main_v112))) (W (Proc.devRef .tc main_v114))
        (W (Proc.devRef .tc main_v3)) (W (Proc.devRef .tc main_v6)) (W (Proc.devRef .tc main_v28)) := by
  after_results_simp
  rfl

/-- Layer 3's normalisation and activation. -/
theorem norm3_read : after (opsNorm3b (F := Ideal)) (after opsNorm3a W) (Proc.devRef .tc main_v155)
    = Spec.silu (Spec.norm (W (Proc.devRef .tc main_v135)) (W (Proc.devRef .tc main_v116)) (W (Proc.devRef .tc main_v118))) := by
  after_results_simp
  rfl

/-- The mean over each graph's nodes. -/
theorem pool_read : after (opsPool (F := Ideal)) W (Proc.devRef .tc main_v167)
    = Spec.pool (W (Proc.devRef .tc main_v155)) (W (Proc.devRef .tc main_arg2)) := by
  after_results_simp
  rfl

/-- The dense head and the log-softmax. -/
theorem head_read : after (opsHead (F := Ideal)) W (Proc.devRef .tc main_v177)
    = Spec.mlp (W (Proc.devRef .tc main_v167)) (W (Proc.devRef .tc main_arg12)) (W (Proc.devRef .tc main_arg13)) (W (Proc.devRef .tc main_arg14)) (W (Proc.devRef .tc main_arg15)) := by
  after_results_simp
  rfl

/-- The second result: the constant 0. -/
theorem head_cst : after (opsHead (F := Ideal)) W (Proc.devRef .tc main_cst_30) = constant (F := Ideal) S_ .f32 0x00000000#32 := by
  after_results_simp

end Stages

/-! ## The run's results

A buffer that no operation of a list writes holds, after the list, what it held before (`after_of_forall_not_mem`); whether
an operation writes a given buffer is decided by comparing references. So the whole fold at a result buffer is read stage
by stage from the last one back: the stage that writes a buffer is read by its lemma above, every other stage passes it
through. The arguments are written by no operation at all. -/

section Results

variable (V : Valuation τ sig (Elt Ideal))

/-- The first result: the specification's network on the arguments' contents at launch. -/
theorem out_eq : after (RefRun.ops (F := Ideal)) V (Proc.devRef .tc main_v177)
    = Spec.out (V (Proc.devRef .tc main_arg0)) (V (Proc.devRef .tc main_arg1)) (V (Proc.devRef .tc main_arg2)) (V (Proc.devRef .tc main_arg4))
        (V (Proc.devRef .tc main_arg5)) (V (Proc.devRef .tc main_arg6)) (V (Proc.devRef .tc main_arg7)) (V (Proc.devRef .tc main_arg8))
        (V (Proc.devRef .tc main_arg9)) (V (Proc.devRef .tc main_arg10)) (V (Proc.devRef .tc main_arg11)) (V (Proc.devRef .tc main_arg12))
        (V (Proc.devRef .tc main_arg13)) (V (Proc.devRef .tc main_arg14)) (V (Proc.devRef .tc main_arg15)) := by
  -- the last stage writes the result; the stages before it pass the head's parameters through
  rw [ops_fold, head_read]
  simp (disch := decide) only [after_of_forall_not_mem]
  -- the pooled array, from layer 3's output and the graph numbers
  rw [pool_read]
  simp (disch := decide) only [after_of_forall_not_mem]
  -- layer 3, from its aggregation and its scale and shift
  rw [norm3_read]
  simp (disch := decide) only [after_of_forall_not_mem]
  rw [agg3_read, par3_γ, par3_β]
  simp (disch := decide) only [after_of_forall_not_mem]
  rw [par3_W, par3_b]
  simp (disch := decide) only [after_of_forall_not_mem]
  -- layer 2
  rw [norm2_read]
  simp (disch := decide) only [after_of_forall_not_mem]
  rw [agg2_read, par2_γ, par2_β]
  simp (disch := decide) only [after_of_forall_not_mem]
  rw [par2_W, par2_b]
  simp (disch := decide) only [after_of_forall_not_mem]
  -- layer 1
  rw [norm1_read]
  simp (disch := decide) only [after_of_forall_not_mem]
  rw [agg1_read]
  simp (disch := decide) only [after_of_forall_not_mem]
  -- the edge list and its weights, the same for the three layers
  rw [edges_src, edges_dst, edges_nrm]
  rfl

/-- The second result. -/
theorem cst_eq : after (RefRun.ops (F := Ideal)) V (Proc.devRef .tc main_cst_30) = constant (F := Ideal) S_ .f32 0x00000000#32 := by
  rw [ops_fold, head_cst]

theorem arg0_eq : after (RefRun.ops (F := Ideal)) V (Proc.devRef .tc main_arg0) = V (Proc.devRef .tc main_arg0) := by
  rw [ops_fold]; simp (disch := decide) only [after_of_forall_not_mem]
theorem arg1_eq : after (RefRun.ops (F := Ideal)) V (Proc.devRef .tc main_arg1) = V (Proc.devRef .tc main_arg1) := by
  rw [ops_fold]; simp (disch := decide) only [after_of_forall_not_mem]
theorem arg2_eq : after (RefRun.ops (F := Ideal)) V (Proc.devRef .tc main_arg2) = V (Proc.devRef .tc main_arg2) := by
  rw [ops_fold]; simp (disch := decide) only [after_of_forall_not_mem]
theorem arg3_eq : after (RefRun.ops (F := Ideal)) V (Proc.devRef .tc main_arg3) = V (Proc.devRef .tc main_arg3) := by
  rw [ops_fold]; simp (disch := decide) only [after_of_forall_not_mem]
theorem arg4_eq : after (RefRun.ops (F := Ideal)) V (Proc.devRef .tc main_arg4) = V (Proc.devRef .tc main_arg4) := by
  rw [ops_fold]; simp (disch := decide) only [after_of_forall_not_mem]
theorem arg5_eq : after (RefRun.ops (F := Ideal)) V (Proc.devRef .tc main_arg5) = V (Proc.devRef .tc main_arg5) := by
  rw [ops_fold]; simp (disch := decide) only [after_of_forall_not_mem]
theorem arg6_eq : after (RefRun.ops (F := Ideal)) V (Proc.devRef .tc main_arg6) = V (Proc.devRef .tc main_arg6) := by
  rw [ops_fold]; simp (disch := decide) only [after_of_forall_not_mem]
theorem arg7_eq : after (RefRun.ops (F := Ideal)) V (Proc.devRef .tc main_arg7) = V (Proc.devRef .tc main_arg7) := by
  rw [ops_fold]; simp (disch := decide) only [after_of_forall_not_mem]
theorem arg8_eq : after (RefRun.ops (F := Ideal)) V (Proc.devRef .tc main_arg8) = V (Proc.devRef .tc main_arg8) := by
  rw [ops_fold]; simp (disch := decide) only [after_of_forall_not_mem]
theorem arg9_eq : after (RefRun.ops (F := Ideal)) V (Proc.devRef .tc main_arg9) = V (Proc.devRef .tc main_arg9) := by
  rw [ops_fold]; simp (disch := decide) only [after_of_forall_not_mem]
theorem arg10_eq : after (RefRun.ops (F := Ideal)) V (Proc.devRef .tc main_arg10) = V (Proc.devRef .tc main_arg10) := by
  rw [ops_fold]; simp (disch := decide) only [after_of_forall_not_mem]
theorem arg11_eq : after (RefRun.ops (F := Ideal)) V (Proc.devRef .tc main_arg11) = V (Proc.devRef .tc main_arg11) := by
  rw [ops_fold]; simp (disch := decide) only [after_of_forall_not_mem]
theorem arg12_eq : after (RefRun.ops (F := Ideal)) V (Proc.devRef .tc main_arg12) = V (Proc.devRef .tc main_arg12) := by
  rw [ops_fold]; simp (disch := decide) only [after_of_forall_not_mem]
theorem arg13_eq : after (RefRun.ops (F := Ideal)) V (Proc.devRef .tc main_arg13) = V (Proc.devRef .tc main_arg13) := by
  rw [ops_fold]; simp (disch := decide) only [after_of_forall_not_mem]
theorem arg14_eq : after (RefRun.ops (F := Ideal)) V (Proc.devRef .tc main_arg14) = V (Proc.devRef .tc main_arg14) := by
  rw [ops_fold]; simp (disch := decide) only [after_of_forall_not_mem]
theorem arg15_eq : after (RefRun.ops (F := Ideal)) V (Proc.devRef .tc main_arg15) = V (Proc.devRef .tc main_arg15) := by
  rw [ops_fold]; simp (disch := decide) only [after_of_forall_not_mem]

end Results

end Cert.ReferenceIdeal.RefRead

end
-- ==== Proof.RefFinal.lean ====
/-
  The reference's run with its results read: every weakly fair execution of the reference terminates with the first
  result at the specification's network of the arguments' contents at launch, the second at the constant 0, and the
  sixteen arguments unchanged. The frame claim of the reference is that statement with the results dropped.
-/
import proofs.«143752_j72559177499180_1_alg».proof.Proof.RefRun
import proofs.«143752_j72559177499180_1_alg».proof.Proof.RefRead
import proofs.«143752_j72559177499180_1_alg».proof.Proof.Spec
import proofs.«143752_j72559177499180_1_alg».proof.Defs

noncomputable section

namespace Cert.ReferenceIdeal.RefFinal

open Cert.ReferenceIdeal Idealize.ShloMosaic Idealize.ShloMosaic.TcCoe Idealize.SL.Sem Idealize.ShloMosaic.StableHlo

variable [hReferenceIdeal : Cert.ReferenceIdeal.Facts] [hPre_finite_inputs : Cert.Pre_finite_inputs.Facts]

/-- The run leaves every buffer at the fold of the operations over the launch contents (`RefRun.run_all`); the fold at the
    two results and at the arguments is what `RefRead` reads (`out_eq`, `cst_eq`, `argK_eq`), the launch contents of a
    device being the launch memory at that device's buffers. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v177)
          = Spec.out (m ((c.tc : Thread nD τ).loc main_arg0))
              (m ((c.tc : Thread nD τ).loc main_arg1))
              (m ((c.tc : Thread nD τ).loc main_arg2))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
      ∧ r.2.mem ((c.tc : Thread nD τ).loc main_cst_30) = constant (F := Ideal) S_ .f32 0x00000000#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run _ _ _).mono (fun _ h c =>
      ⟨(h c main_v177).trans (RefRead.out_eq (launchContents m c)),
       (h c main_cst_30).trans (RefRead.cst_eq (launchContents m c)),
       (h c main_arg0).trans (RefRead.arg0_eq (launchContents m c)),
       (h c main_arg1).trans (RefRead.arg1_eq (launchContents m c)),
       (h c main_arg2).trans (RefRead.arg2_eq (launchContents m c)),
       (h c main_arg3).trans (RefRead.arg3_eq (launchContents m c)),
       (h c main_arg4).trans (RefRead.arg4_eq (launchContents m c)),
       (h c main_arg5).trans (RefRead.arg5_eq (launchContents m c)),
       (h c main_arg6).trans (RefRead.arg6_eq (launchContents m c)),
       (h c main_arg7).trans (RefRead.arg7_eq (launchContents m c)),
       (h c main_arg8).trans (RefRead.arg8_eq (launchContents m c)),
       (h c main_arg9).trans (RefRead.arg9_eq (launchContents m c)),
       (h c main_arg10).trans (RefRead.arg10_eq (launchContents m c)),
       (h c main_arg11).trans (RefRead.arg11_eq (launchContents m c)),
       (h c main_arg12).trans (RefRead.arg12_eq (launchContents m c)),
       (h c main_arg13).trans (RefRead.arg13_eq (launchContents m c)),
       (h c main_arg14).trans (RefRead.arg14_eq (launchContents m c)),
       (h c main_arg15).trans (RefRead.arg15_eq (launchContents m c))⟩)
    (RefRun.run_all (F := Ideal) m ρ)

/-- The reference's frame: it terminates, nothing faults, and its argument arrays end unchanged — with no use of the
    precondition. -/
theorem frame : Cert.frame_ReferenceIdeal :=
  fun m ρ _ => (θ_run _ _ _).mono (fun _ h c => (h c).2.2) (run_spec m ρ)

end Cert.ReferenceIdeal.RefFinal

end
-- ==== Proof.Claims.lean ====
/-
  The five claims.

  The three frames are the programs' runs with the results forgotten. The idealization rewrote no operation, so
  there is nothing to preserve. For the value claim, both runs are read back as functions of the argument arrays:
  the tiled program's run ends with every buffer at the last stage of a fold over its regions and host operations,
  whose value at the result buffer is the perceptron region applied to the pooled features of three layers; the
  reference's run ends at `Spec.out` of its arguments. On arguments that are finite — real numbers, which is what
  the precondition says — the two are the same array (`NetBridge.net_eq`), and the second result, a zero constant, is
  the same word in both programs.
-/
import proofs.«143752_j72559177499180_1_alg».proof.Defs
import proofs.«143752_j72559177499180_1_alg».proof.Proof.Gen.Kernel
import proofs.«143752_j72559177499180_1_alg».proof.Proof.Gen.Kernel.Frame
import proofs.«143752_j72559177499180_1_alg».proof.Proof.Gen.KernelIdeal
import proofs.«143752_j72559177499180_1_alg».proof.Proof.Gen.KernelIdeal.Frame
import proofs.«143752_j72559177499180_1_alg».proof.Proof.Gen.ReferenceIdeal
import proofs.«143752_j72559177499180_1_alg».proof.Proof.Gen.Pre_finite_inputs
import proofs.«143752_j72559177499180_1_alg».proof.Proof.KRun
import proofs.«143752_j72559177499180_1_alg».proof.Proof.PreReal
import proofs.«143752_j72559177499180_1_alg».proof.Proof.KFold
import proofs.«143752_j72559177499180_1_alg».proof.Proof.NetBridge
import proofs.«143752_j72559177499180_1_alg».proof.Proof.RefFinal

noncomputable section

namespace Cert.Proof.Claims

open Idealize.ShloMosaic Idealize.ShloMosaic.TcCoe Idealize.SL.Sem

/-! ## The frames, and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := Cert.ReferenceIdeal.RefFinal.frame

/-- No operation was rewritten: the idealized program is the program's own text read at the extended reals. -/
theorem preserves : Cert.preserves_Kernel_KernelIdeal := trivial

/-! ## The value claim -/

section Value
open Cert.KernelIdeal

variable (m : (ℓ : Loc nD τ sig) → Buf (Elt Ideal) ℓ) (ρ : Dev nD → PrngReg)

/-- The reference's network on the tiled program's argument arrays of device `c`: what both programs end holding. -/
def target (c : Dev nD) : Buf (Elt Ideal) ((c : Thread nD τ).loc main_v149) :=
  Cert.ReferenceIdeal.Spec.out (m ((c : Thread nD τ).loc main_arg0))
    (m ((c : Thread nD τ).loc main_arg1))
    (m ((c : Thread nD τ).loc main_arg2))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))

/-- The tiled program's result buffer ends at `target`: the fold's last stage there is the perceptron region on the
    pooled features, and the precondition makes the node features and the layers' parameters real, which is what the
    network-level bridge asks. -/
theorem result_eq (hpre : Cert.Pre_KernelIdeal m) (c : Dev nD) :
    Gen.W21 m ρ c (Proc.devRef .tc main_v149) = target m c := by
  obtain ⟨r0, r4, r5, r6, r7, r8, r9, r10, r11, -⟩ :=
    Cert.PreReal.inputs_real (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15)) (hpre c)
  exact (KFold.at_result m ρ c).trans
    (Cert.NetBridge.net_eq (m ((c : Thread nD τ).loc main_arg0))
      (m ((c : Thread nD τ).loc main_arg1))
      (m ((c : Thread nD τ).loc main_arg2))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      r0 r4 r5 r6 r7 r8 r9 r10 r11)

end Value

/-- From memories that agree on the arguments, both idealized programs end with the reference's network of the
    arguments in the first result and the zero constant in the second, the arguments unchanged. -/
theorem algebraic : Cert.algebraic_KernelIdeal_ReferenceIdeal := by
  intro m ρ m' ρ' hpre hagree
  refine ⟨fun c => target m c, fun c => constant (F := Ideal) Cert.KernelIdeal.S_ .f32 0x00000000#32, ?_, ?_⟩
  · -- the tiled program: every buffer ends at the fold's last stage; read it at the two results and the arguments
    refine (θ_run Cert.KernelIdeal.defs _ _).mono (fun r h c => ?_) (Cert.KernelIdeal.KRun.run_fold (F := Ideal) m ρ)
    exact ⟨(h c Cert.KernelIdeal.main_v149 (by decide)).trans (result_eq m ρ hpre c),
      (h c Cert.KernelIdeal.main_cst_30 (by decide)).trans (Cert.KernelIdeal.KFold.at_cst m ρ c),
      (h c Cert.KernelIdeal.main_arg0 (by decide)).trans (Cert.KernelIdeal.Gen.W21_main_arg0 m ρ c),
      (h c Cert.KernelIdeal.main_arg1 (by decide)).trans (Cert.KernelIdeal.Gen.W21_main_arg1 m ρ c),
      (h c Cert.KernelIdeal.main_arg2 (by decide)).trans (Cert.KernelIdeal.Gen.W21_main_arg2 m ρ c),
      (h c Cert.KernelIdeal.main_arg3 (by decide)).trans (Cert.KernelIdeal.Gen.W21_main_arg3 m ρ c),
      (h c Cert.KernelIdeal.main_arg4 (by decide)).trans (Cert.KernelIdeal.Gen.W21_main_arg4 m ρ c),
      (h c Cert.KernelIdeal.main_arg5 (by decide)).trans (Cert.KernelIdeal.Gen.W21_main_arg5 m ρ c),
      (h c Cert.KernelIdeal.main_arg6 (by decide)).trans (Cert.KernelIdeal.Gen.W21_main_arg6 m ρ c),
      (h c Cert.KernelIdeal.main_arg7 (by decide)).trans (Cert.KernelIdeal.Gen.W21_main_arg7 m ρ c),
      (h c Cert.KernelIdeal.main_arg8 (by decide)).trans (Cert.KernelIdeal.Gen.W21_main_arg8 m ρ c),
      (h c Cert.KernelIdeal.main_arg9 (by decide)).trans (Cert.KernelIdeal.Gen.W21_main_arg9 m ρ c),
      (h c Cert.KernelIdeal.main_arg10 (by decide)).trans (Cert.KernelIdeal.Gen.W21_main_arg10 m ρ c),
      (h c Cert.KernelIdeal.main_arg11 (by decide)).trans (Cert.KernelIdeal.Gen.W21_main_arg11 m ρ c),
      (h c Cert.KernelIdeal.main_arg12 (by decide)).trans (Cert.KernelIdeal.Gen.W21_main_arg12 m ρ c),
      (h c Cert.KernelIdeal.main_arg13 (by decide)).trans (Cert.KernelIdeal.Gen.W21_main_arg13 m ρ c),
      (h c Cert.KernelIdeal.main_arg14 (by decide)).trans (Cert.KernelIdeal.Gen.W21_main_arg14 m ρ c),
      (h c Cert.KernelIdeal.main_arg15 (by decide)).trans (Cert.KernelIdeal.Gen.W21_main_arg15 m ρ c)⟩
  · -- the reference: its run ends at the network of ITS arguments, which are the tiled program's
    refine (θ_run Cert.ReferenceIdeal.defs _ _).mono (fun r h c => ⟨(h c).1.trans ?_, (h c).2⟩)
      (Cert.ReferenceIdeal.RefFinal.run_spec m' ρ')
    obtain ⟨a0, a1, a2, a3, a4, a5, a6, a7, a8, a9, a10, a11, a12, a13, a14, a15⟩ := hagree c
    rw [a0, a1, a2, a4, a5, a6, a7, a8, a9, a10, a11, a12, a13, a14, a15]
    rfl

end Cert.Proof.Claims

end
-- ==== Proof.lean ====
/-
  A graph convolution network on 50000 nodes with 128 features — three layers of "matrix product, weighted sum over
  the incoming edges, per-channel normalisation over the nodes, gate", the mean of the node features per graph, and a
  two-layer perceptron with a row-wise log-softmax — is computed by a tiled program of seven regions and by a
  reference of plain array operations. This certificate proves that both programs, and the tiled one read at the
  word level, run to completion with their arguments unchanged, and that at the extended reals, from finite
  arguments, the two end with the same results: the network's output and a zero constant.

  How the modules fit. `Spec` writes the reference's network as one function of the arguments, and `RefRun`,
  `RefRead`, `RefFinal` read the reference's run back as that function. `KRegions` and `KFinal` say what each
  region of the tiled program leaves in its output array as a function of whole input arrays; `KSpec` and `KLayer`
  compose the regions with the host operations between them; `KRun` and `KFold` read the tiled program's run back
  as that composition. `LayerBridge` proves one layer of the two programs equal on real inputs — the tiled matrix
  product is the plain one, and the normalisation `(a − μ) · r · γ + β` folds into one scale `γ · r` and one shift
  `β − μ · (γ · r)` per channel: a law of the reals, not of the extended reals (it distributes a product over a
  difference), which is why finiteness is assumed and carried from layer to layer —,
  `NetBridge` chains the three layers, the pooling and the perceptron, `PreReal` turns the precondition into "every
  entry is a real number", and `Claims` states the five claims from these. The `Lib` modules hold the general
  lemmas on sums, rows and matrix products the others share.
-/
import proofs.«143752_j72559177499180_1_alg».proof.Defs
import proofs.«143752_j72559177499180_1_alg».proof.Proof.Gen.Kernel
import proofs.«143752_j72559177499180_1_alg».proof.Proof.Gen.Kernel.Skeleton
import proofs.«143752_j72559177499180_1_alg».proof.Proof.Gen.Kernel.Launch
import proofs.«143752_j72559177499180_1_alg».proof.Proof.Gen.Kernel.Points
import proofs.«143752_j72559177499180_1_alg».proof.Proof.Gen.Kernel.Frame
import proofs.«143752_j72559177499180_1_alg».proof.Proof.Gen.KernelIdeal
import proofs.«143752_j72559177499180_1_alg».proof.Proof.Gen.KernelIdeal.Skeleton
import proofs.«143752_j72559177499180_1_alg».proof.Proof.Gen.KernelIdeal.Launch
import proofs.«143752_j72559177499180_1_alg».proof.Proof.Gen.KernelIdeal.Points
import proofs.«143752_j72559177499180_1_alg».proof.Proof.Gen.KernelIdeal.Frame
import proofs.«143752_j72559177499180_1_alg».proof.Proof.Gen.ReferenceIdeal
import proofs.«143752_j72559177499180_1_alg».proof.Proof.Gen.Pre_finite_inputs
import proofs.«143752_j72559177499180_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
